-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v107)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v200) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x160 : S_.BroadcastsInDim S128x160 (![] : Fin 0 → Fin S128x160.rank)
  reducesTo_S128x160_S_d0_1 : S128x160.ReducesTo [0, 1] S_
  bcast_S_S160 : S_.BroadcastsInDim S160 (![] : Fin 0 → Fin S160.rank)
  reducesTo_S160_S_d0 : S160.ReducesTo [0] S_
  bcast_S_S160x160 : S_.BroadcastsInDim S160x160 (![] : Fin 0 → Fin S160x160.rank)
  reducesTo_S160x160_S_d0_1 : S160x160.ReducesTo [0, 1] S_
  bcast_S_S160x80 : S_.BroadcastsInDim S160x80 (![] : Fin 0 → Fin S160x80.rank)
  reducesTo_S160x80_S_d0_1 : S160x80.ReducesTo [0, 1] S_
  bcast_S_S80 : S_.BroadcastsInDim S80 (![] : Fin 0 → Fin S80.rank)
  reducesTo_S80_S_d0 : S80.ReducesTo [0] S_
  bcast_S_S80x2 : S_.BroadcastsInDim S80x2 (![] : Fin 0 → Fin S80x2.rank)
  reducesTo_S80x2_S_d0_1 : S80x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S80x2 .f32) (main_arg24 : FVec F S2 .f32) (main_v98 : IVec S_ 1) (main_v101 : IVec S80 1) (main_c_39 : IVec S_ 1) : IVec S_ 1 :=
  let main_v102 : IVec S_ 1 := (fun x v => Host.reduce IntOp.andi x v reducesTo_S80_S_d0 h_S_) main_v101 main_c_39
  let main_v103 : IVec S_ 1 := andi main_v98 main_v102
  let main_v104 : FVec F S80x2 .f32 := Host.absf main_arg23
  let main_cst_40 : FVec F S_ .f32 := constant S_ .f32 0x7F800000#32
  let main_v105 : FVec F S80x2 .f32 := broadcastInDim S80x2 ![] bcast_S_S80x2 main_cst_40
  let main_v106 : IVec S80x2 1 := cmpf .olt main_v104 main_v105
  let main_c_41 : IVec S_ 1 := constantI S_ 1 1#1
  let main_v107 : IVec S_ 1 := (fun x v => Host.reduce IntOp.andi x v reducesTo_S80x2_S_d0_1 h_S_) main_v106 main_c_41
  let main_v108 : IVec S_ 1 := andi main_v103 main_v107
  let main_v109 : FVec F S2 .f32 := Host.absf main_arg24
  let main_cst_42 : FVec F S_ .f32 := constant S_ .f32 0x7F800000#32
  let main_v110 : FVec F S2 .f32 := broadcastInDim S2 ![] bcast_S_S2 main_cst_42
  let main_v111 : IVec S2 1 := cmpf .olt main_v109 main_v110
  let main_c_43 : IVec S_ 1 := constantI S_ 1 1#1
  let main_v112 : IVec S_ 1 := (fun x v => Host.reduce IntOp.andi x v reducesTo_S2_S_d0 h_S_) main_v111 main_c_43
  let main_v113 : IVec S_ 1 := andi main_v108 main_v112
  main_v113

def fn_part5 {F : FTy → Type} [FloatOps F] (main_arg20 : FVec F S160 .f32) (main_arg21 : FVec F S160x80 .f32) (main_arg22 : FVec F S80 .f32) (main_arg23 : FVec F S80x2 .f32) (main_arg24 : FVec F S2 .f32) (main_v83 : IVec S_ 1) (main_v84 : FVec F S160 .f32) (main_cst_32 : FVec F S_ .f32) : IVec S_ 1 :=
  let main_v85 : FVec F S160 .f32 := broadcastInDim S160 ![] bcast_S_S160 main_cst_32
  let main_v86 : IVec S160 1 := cmpf .olt main_v84 main_v85
  let main_c_33 : IVec S_ 1 := constantI S_ 1 1#1
  let main_v87 : IVec S_ 1 := (fun x v => Host.reduce IntOp.andi x v reducesTo_S160_S_d0 h_S_) main_v86 main_c_33
  let main_v88 : IVec S_ 1 := andi main_v83 main_v87
  let main_v89 : FVec F S160 .f32 := Host.absf main_arg20
  let main_cst_34 : FVec F S_ .f32 := constant S_ .f32 0x7F800000#32
  let main_v90 : FVec F S160 .f32 := broadcastInDim S160 ![] bcast_S_S160 main_cst_34
  let main_v91 : IVec S160 1 := cmpf .olt main_v89 main_v90
  let main_c_35 : IVec S_ 1 := constantI S_ 1 1#1
  let main_v92 : IVec S_ 1 := (fun x v => Host.reduce IntOp.andi x v reducesTo_S160_S_d0 h_S_) main_v91 main_c_35
  let main_v93 : IVec S_ 1 := andi main_v88 main_v92
  let main_v94 : FVec F S160x80 .f32 := Host.absf main_arg21
  let main_cst_36 : FVec F S_ .f32 := constant S_ .f32 0x7F800000#32
  let main_v95 : FVec F S160x80 .f32 := broadcastInDim S160x80 ![] bcast_S_S160x80 main_cst_36
  let main_v96 : IVec S160x80 1 := cmpf .olt main_v94 main_v95
  let main_c_37 : IVec S_ 1 := constantI S_ 1 1#1
  let main_v97 : IVec S_ 1 := (fun x v => Host.reduce IntOp.andi x v reducesTo_S160x80_S_d0_1 h_S_) main_v96 main_c_37
  let main_v98 : IVec S_ 1 := andi main_v93 main_v97
  let main_v99 : FVec F S80 .f32 := Host.absf main_arg22
  let main_cst_38 : FVec F S_ .f32 := constant S_ .f32 0x7F800000#32
  let main_v100 : FVec F S80 .f32 := broadcastInDim S80 ![] bcast_S_S80 main_cst_38
  let main_v101 : IVec S80 1 := cmpf .olt main_v99 main_v100
  let main_c_39 : IVec S_ 1 := constantI S_ 1 1#1
  fn_part6 (F := F) main_arg23 main_arg24 main_v98 main_v101 main_c_39

def fn_part4 {F : FTy → Type} [FloatOps F] (main_arg16 : FVec F S160 .f32) (main_arg17 : FVec F S160 .f32) (main_arg18 : FVec F S160 .f32) (main_arg19 : FVec F S160 .f32) (main_arg20 : FVec F S160 .f32) (main_arg21 : FVec F S160x80 .f32) (main_arg22 : FVec F S80 .f32) (main_arg23 : FVec F S80x2 .f32) (main_arg24 : FVec F S2 .f32) (main_v63 : IVec S_ 1) (main_v67 : IVec S_ 1) : IVec S_ 1 :=
  let main_v68 : IVec S_ 1 := andi main_v63 main_v67
  let main_v69 : FVec F S160 .f32 := Host.absf main_arg16
  let main_cst_26 : FVec F S_ .f32 := constant S_ .f32 0x7F800000#32
  let main_v70 : FVec F S160 .f32 := broadcastInDim S160 ![] bcast_S_S160 main_cst_26
  let main_v71 : IVec S160 1 := cmpf .olt main_v69 main_v70
  let main_c_27 : IVec S_ 1 := constantI S_ 1 1#1
  let main_v72 : IVec S_ 1 := (fun x v => Host.reduce IntOp.andi x v reducesTo_S160_S_d0 h_S_) main_v71 main_c_27
  let main_v73 : IVec S_ 1 := andi main_v68 main_v72
  let main_v74 : FVec F S160 .f32 := Host.absf main_arg17
  let main_cst_28 : FVec F S_ .f32 := constant S_ .f32 0x7F800000#32
  let main_v75 : FVec F S160 .f32 := broadcastInDim S160 ![] bcast_S_S160 main_cst_28
  let main_v76 : IVec S160 1 := cmpf .olt main_v74 main_v75
  let main_c_29 : IVec S_ 1 := constantI S_ 1 1#1
  let main_v77 : IVec S_ 1 := (fun x v => Host.reduce IntOp.andi x v reducesTo_S160_S_d0 h_S_) main_v76 main_c_29
  let main_v78 : IVec S_ 1 := andi main_v73 main_v77
  let main_v79 : FVec F S160 .f32 := Host.absf main_arg18
  let main_cst_30 : FVec F S_ .f32 := constant S_ .f32 0x7F800000#32
  let main_v80 : FVec F S160 .f32 := broadcastInDim S160 ![] bcast_S_S160 main_cst_30
  let main_v81 : IVec S160 1 := cmpf .olt main_v79 main_v80
  let main_c_31 : IVec S_ 1 := constantI S_ 1 1#1
  let main_v82 : IVec S_ 1 := (fun x v => Host.reduce IntOp.andi x v reducesTo_S160_S_d0 h_S_) main_v81 main_c_31
  let main_v83 : IVec S_ 1 := andi main_v78 main_v82
  let main_v84 : FVec F S160 .f32 := Host.absf main_arg19
  let main_cst_32 : FVec F S_ .f32 := constant S_ .f32 0x7F800000#32
  fn_part5 (F := F) main_arg20 main_arg21 main_arg22 main_arg23 main_arg24 main_v83 main_v84 main_cst_32

def fn_part3 {F : FTy → Type} [FloatOps F] (main_arg13 : FVec F S160 .f32) (main_arg14 : FVec F S160 .f32) (main_arg15 : FVec F S160 .f32) (main_arg16 : FVec F S160 .f32) (main_arg17 : FVec F S160 .f32) (main_arg18 : FVec F S160 .f32) (main_arg19 : FVec F S160 .f32) (main_arg20 : FVec F S160 .f32) (main_arg21 : FVec F S160x80 .f32) (main_arg22 : FVec F S80 .f32) (main_arg23 : FVec F S80x2 .f32) (main_arg24 : FVec F S2 .f32) (main_v48 : IVec S_ 1) (main_v49 : FVec F S160 .f32) (main_v50 : FVec F S160 .f32) : IVec S_ 1 :=
  let main_v51 : IVec S160 1 := cmpf .olt main_v49 main_v50
  let main_c_19 : IVec S_ 1 := constantI S_ 1 1#1
  let main_v52 : IVec S_ 1 := (fun x v => Host.reduce IntOp.andi x v reducesTo_S160_S_d0 h_S_) main_v51 main_c_19
  let main_v53 : IVec S_ 1 := andi main_v48 main_v52
  let main_v54 : FVec F S160 .f32 := Host.absf main_arg13
  let main_cst_20 : FVec F S_ .f32 := constant S_ .f32 0x7F800000#32
  let main_v55 : FVec F S160 .f32 := broadcastInDim S160 ![] bcast_S_S160 main_cst_20
  let main_v56 : IVec S160 1 := cmpf .olt main_v54 main_v55
  let main_c_21 : IVec S_ 1 := constantI S_ 1 1#1
  let main_v57 : IVec S_ 1 := (fun x v => Host.reduce IntOp.andi x v reducesTo_S160_S_d0 h_S_) main_v56 main_c_21
  let main_v58 : IVec S_ 1 := andi main_v53 main_v57
  let main_v59 : FVec F S160 .f32 := Host.absf main_arg14
  let main_cst_22 : FVec F S_ .f32 := constant S_ .f32 0x7F800000#32
  let main_v60 : FVec F S160 .f32 := broadcastInDim S160 ![] bcast_S_S160 main_cst_22
  let main_v61 : IVec S160 1 := cmpf .olt main_v59 main_v60
  let main_c_23 : IVec S_ 1 := constantI S_ 1 1#1
  let main_v62 : IVec S_ 1 := (fun x v => Host.reduce IntOp.andi x v reducesTo_S160_S_d0 h_S_) main_v61 main_c_23
  let main_v63 : IVec S_ 1 := andi main_v58 main_v62
  let main_v64 : FVec F S160 .f32 := Host.absf main_arg15
  let main_cst_24 : FVec F S_ .f32 := constant S_ .f32 0x7F800000#32
  let main_v65 : FVec F S160 .f32 := broadcastInDim S160 ![] bcast_S_S160 main_cst_24
  let main_v66 : IVec S160 1 := cmpf .olt main_v64 main_v65
  let main_c_25 : IVec S_ 1 := constantI S_ 1 1#1
  let main_v67 : IVec S_ 1 := (fun x v => Host.reduce IntOp.andi x v reducesTo_S160_S_d0 h_S_) main_v66 main_c_25
  fn_part4 (F := F) main_arg16 main_arg17 main_arg18 main_arg19 main_arg20 main_arg21 main_arg22 main_arg23 main_arg24 main_v63 main_v67

def fn_part2 {F : FTy → Type} [FloatOps F] (main_arg9 : FVec F S160 .f32) (main_arg10 : FVec F S160 .f32) (main_arg11 : FVec F S160 .f32) (main_arg12 : FVec F S160 .f32) (main_arg13 : FVec F S160 .f32) (main_arg14 : FVec F S160 .f32) (main_arg15 : FVec F S160 .f32) (main_arg16 : FVec F S160 .f32) (main_arg17 : FVec F S160 .f32) (main_arg18 : FVec F S160 .f32) (main_arg19 : FVec F S160 .f32) (main_arg20 : FVec F S160 .f32) (main_arg21 : FVec F S160x80 .f32) (main_arg22 : FVec F S80 .f32) (main_arg23 : FVec F S80x2 .f32) (main_arg24 : FVec F S2 .f32) (main_v33 : IVec S_ 1) : IVec S_ 1 :=
  let main_v34 : FVec F S160 .f32 := Host.absf main_arg9
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  let main_v39 : FVec F S160 .f32 := Host.absf main_arg10
  let main_cst_14 : FVec F S_ .f32 := constant S_ .f32 0x7F800000#32
  let main_v40 : FVec F S160 .f32 := broadcastInDim S160 ![] bcast_S_S160 main_cst_14
  let main_v41 : IVec S160 1 := cmpf .olt main_v39 main_v40
  let main_c_15 : IVec S_ 1 := constantI S_ 1 1#1
  let main_v42 : IVec S_ 1 := (fun x v => Host.reduce IntOp.andi x v reducesTo_S160_S_d0 h_S_) main_v41 main_c_15
  let main_v43 : IVec S_ 1 := andi main_v38 main_v42
  let main_v44 : FVec F S160 .f32 := Host.absf main_arg11
  let main_cst_16 : FVec F S_ .f32 := constant S_ .f32 0x7F800000#32
  let main_v45 : FVec F S160 .f32 := broadcastInDim S160 ![] bcast_S_S160 main_cst_16
  let main_v46 : IVec S160 1 := cmpf .olt main_v44 main_v45
  let main_c_17 : IVec S_ 1 := constantI S_ 1 1#1
  let main_v47 : IVec S_ 1 := (fun x v => Host.reduce IntOp.andi x v reducesTo_S160_S_d0 h_S_) main_v46 main_c_17
  let main_v48 : IVec S_ 1 := andi main_v43 main_v47
  let main_v49 : FVec F S160 .f32 := Host.absf main_arg12
  let main_cst_18 : FVec F S_ .f32 := constant S_ .f32 0x7F800000#32
  let main_v50 : FVec F S160 .f32 := broadcastInDim S160 ![] bcast_S_S160 main_cst_18
  fn_part3 (F := F) main_arg13 main_arg14 main_arg15 main_arg16 main_arg17 main_arg18 main_arg19 main_arg20 main_arg21 main_arg22 main_arg23 main_arg24 main_v48 main_v49 main_v50

def fn_part1 {F : FTy → Type} [FloatOps F] (main_arg6 : FVec F S160 .f32) (main_arg7 : FVec F S160x160 .f32) (main_arg8 : FVec F S160 .f32) (main_arg9 : FVec F S160 .f32) (main_arg10 : FVec F S160 .f32) (main_arg11 : FVec F S160 .f32) (main_arg12 : FVec F S160 .f32) (main_arg13 : FVec F S160 .f32) (main_arg14 : FVec F S160 .f32) (main_arg15 : FVec F S160 .f32) (main_arg16 : FVec F S160 .f32) (main_arg17 : FVec F S160 .f32) (main_arg18 : FVec F S160 .f32) (main_arg19 : FVec F S160 .f32) (main_arg20 : FVec F S160 .f32) (main_arg21 : FVec F S160x80 .f32) (main_arg22 : FVec F S80 .f32) (main_arg23 : FVec F S80x2 .f32) (main_arg24 : FVec F S2 .f32) (main_v13 : IVec S_ 1) (main_v16 : IVec S160x160 1) : IVec S_ 1 :=
  let main_c_5 : IVec S_ 1 := constantI S_ 1 1#1
  let main_v17 : IVec S_ 1 := (fun x v => Host.reduce IntOp.andi x v reducesTo_S160x160_S_d0_1 h_S_) main_v16 main_c_5
  let main_v18 : IVec S_ 1 := andi main_v13 main_v17
  let main_v19 : FVec F S160 .f32 := Host.absf main_arg6
  let main_cst_6 : FVec F S_ .f32 := constant S_ .f32 0x7F800000#32
  let main_v20 : FVec F S160 .f32 := broadcastInDim S160 ![] bcast_S_S160 main_cst_6
  let main_v21 : IVec S160 1 := cmpf .olt main_v19 main_v20
  let main_c_7 : IVec S_ 1 := constantI S_ 1 1#1
  let main_v22 : IVec S_ 1 := (fun x v => Host.reduce IntOp.andi x v reducesTo_S160_S_d0 h_S_) main_v21 main_c_7
  let main_v23 : IVec S_ 1 := andi main_v18 main_v22
  let main_v24 : FVec F S160x160 .f32 := Host.absf main_arg7
  let main_cst_8 : FVec F S_ .f32 := constant S_ .f32 0x7F800000#32
  let main_v25 : FVec F S160x160 .f32 := broadcastInDim S160x160 ![] bcast_S_S160x160 main_cst_8
  let main_v26 : IVec S160x160 1 := cmpf .olt main_v24 main_v25
  let main_c_9 : IVec S_ 1 := constantI S_ 1 1#1
  let main_v27 : IVec S_ 1 := (fun x v => Host.reduce IntOp.andi x v reducesTo_S160x160_S_d0_1 h_S_) main_v26 main_c_9
  let main_v28 : IVec S_ 1 := andi main_v23 main_v27
  let main_v29 : FVec F S160 .f32 := Host.absf main_arg8
  let main_cst_10 : FVec F S_ .f32 := constant S_ .f32 0x7F800000#32
  let main_v30 : FVec F S160 .f32 := broadcastInDim S160 ![] bcast_S_S160 main_cst_10
  let main_v31 : IVec S160 1 := cmpf .olt main_v29 main_v30
  let main_c_11 : IVec S_ 1 := constantI S_ 1 1#1
  let main_v32 : IVec S_ 1 := (fun x v => Host.reduce IntOp.andi x v reducesTo_S160_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S50000x128 .f32) (main_arg1 : IVec S2x1600000 32) (main_arg2 : IVec S50000 32) (main_arg3 : FVec F S128x160 .f32) (main_arg4 : FVec F S160 .f32) (main_arg5 : FVec F S160x160 .f32) (main_arg6 : FVec F S160 .f32) (main_arg7 : FVec F S160x160 .f32) (main_arg8 : FVec F S160 .f32) (main_arg9 : FVec F S160 .f32) (main_arg10 : FVec F S160 .f32) (main_arg11 : FVec F S160 .f32) (main_arg12 : FVec F S160 .f32) (main_arg13 : FVec F S160 .f32) (main_arg14 : FVec F S160 .f32) (main_arg15 : FVec F S160 .f32) (main_arg16 : FVec F S160 .f32) (main_arg17 : FVec F S160 .f32) (main_arg18 : FVec F S160 .f32) (main_arg19 : FVec F S160 .f32) (main_arg20 : FVec F S160 .f32) (main_arg21 : FVec F S160x80 .f32) (main_arg22 : FVec F S80 .f32) (main_arg23 : FVec F S80x2 .f32) (main_arg24 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x160 .f32 := Host.absf main_arg3
  let main_cst_0 : FVec F S_ .f32 := constant S_ .f32 0x7F800000#32
  let main_v5 : FVec F S128x160 .f32 := broadcastInDim S128x160 ![] bcast_S_S128x160 main_cst_0
  let main_v6 : IVec S128x160 1 := cmpf .olt main_v4 main_v5
  let main_c_1 : IVec S_ 1 := constantI S_ 1 1#1
  let main_v7 : IVec S_ 1 := (fun x v => Host.reduce IntOp.andi x v reducesTo_S128x160_S_d0_1 h_S_) main_v6 main_c_1
  let main_v8 : IVec S_ 1 := andi main_v3 main_v7
  let main_v9 : FVec F S160 .f32 := Host.absf main_arg4
  let main_cst_2 : FVec F S_ .f32 := constant S_ .f32 0x7F800000#32
  let main_v10 : FVec F S160 .f32 := broadcastInDim S160 ![] bcast_S_S160 main_cst_2
  let main_v11 : IVec S160 1 := cmpf .olt main_v9 main_v10
  let main_c_3 : IVec S_ 1 := constantI S_ 1 1#1
  let main_v12 : IVec S_ 1 := (fun x v => Host.reduce IntOp.andi x v reducesTo_S160_S_d0 h_S_) main_v11 main_c_3
  let main_v13 : IVec S_ 1 := andi main_v8 main_v12
  let main_v14 : FVec F S160x160 .f32 := Host.absf main_arg5
  let main_cst_4 : FVec F S_ .f32 := constant S_ .f32 0x7F800000#32
  let main_v15 : FVec F S160x160 .f32 := broadcastInDim S160x160 ![] bcast_S_S160x160 main_cst_4
  let main_v16 : IVec S160x160 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x160 : Shape := ⟨2, ![50000, 160]⟩
abbrev S5000x128 : Shape := ⟨2, ![5000, 128]⟩
abbrev S5000x160 : Shape := ⟨2, ![5000, 160]⟩
abbrev S1650000x160 : Shape := ⟨2, ![1650000, 160]⟩
abbrev S1x160 : Shape := ⟨2, ![1, 160]⟩
abbrev S2000x160 : Shape := ⟨2, ![2000, 160]⟩
abbrev S512x160 : Shape := ⟨2, ![512, 160]⟩
abbrev S50000x1 : Shape := ⟨2, ![50000, 1]⟩
abbrev S512 : Shape := ⟨1, ![512]⟩
abbrev S512x1 : Shape := ⟨2, ![512, 1]⟩
abbrev S1x80 : Shape := ⟨2, ![1, 80]⟩
abbrev S1x2 : Shape := ⟨2, ![1, 2]⟩
abbrev S512x2 : Shape := ⟨2, ![512, 2]⟩
abbrev S512x80 : Shape := ⟨2, ![512, 80]⟩

abbrev nBuf : Space → Nat
  | .hbm => 158
  | .vmem => 45
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x160, .f32⟩
  | 4 => ⟨S160, .f32⟩
  | 5 => ⟨S160x160, .f32⟩
  | 6 => ⟨S160, .f32⟩
  | 7 => ⟨S160x160, .f32⟩
  | 8 => ⟨S160, .f32⟩
  | 9 => ⟨S160, .f32⟩
  | 10 => ⟨S160, .f32⟩
  | 11 => ⟨S160, .f32⟩
  | 12 => ⟨S160, .f32⟩
  | 13 => ⟨S160, .f32⟩
  | 14 => ⟨S160, .f32⟩
  | 15 => ⟨S160, .f32⟩
  | 16 => ⟨S160, .f32⟩
  | 17 => ⟨S160, .f32⟩
  | 18 => ⟨S160, .f32⟩
  | 19 => ⟨S160, .f32⟩
  | 20 => ⟨S160, .f32⟩
  | 21 => ⟨S160x80, .f32⟩
  | 22 => ⟨S80, .f32⟩
  | 23 => ⟨S80x2, .f32⟩
  | 24 => ⟨S2, .f32⟩
  | 25 => ⟨S1x1600000, .i32⟩
  | 26 => ⟨S1600000, .i32⟩
  | 27 => ⟨S1x1600000, .i32⟩
  | 28 => ⟨S1600000, .i32⟩
  | 29 => ⟨S50000, .i32⟩
  | 30 => ⟨S1650000, .i32⟩
  | 31 => ⟨S1650000, .i32⟩
  | 32 => ⟨S_, .f32⟩
  | 33 => ⟨S1650000, .f32⟩
  | 34 => ⟨S_, .f32⟩
  | 35 => ⟨S50000, .f32⟩
  | 36 => ⟨S1650000x1, .i32⟩
  | 37 => ⟨S50000, .f32⟩
  | 38 => ⟨S_, .f32⟩
  | 39 => ⟨S50000, .f32⟩
  | 40 => ⟨S50000, .i1⟩
  | 41 => ⟨S50000, .f32⟩
  | 42 => ⟨S_, .f32⟩
  | 43 => ⟨S_, .f32⟩
  | 44 => ⟨S50000, .f32⟩
  | 45 => ⟨S50000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S_, .i32⟩
  | 56 => ⟨S1650000, .i32⟩
  | 57 => ⟨S1650000, .i1⟩
  | 58 => ⟨S_, .i32⟩
  | 59 => ⟨S1650000, .i32⟩
  | 60 => ⟨S1650000, .i32⟩
  | 61 => ⟨S1650000, .i32⟩
  | 62 => ⟨S1650000x1, .i32⟩
  | 63 => ⟨S1650000, .f32⟩
  | 64 => ⟨S1650000, .f32⟩
  | 65 => ⟨S1650000x1, .f32⟩
  | 66 => ⟨S50000x160, .f32⟩
  | 67 => ⟨S_, .i32⟩
  | 68 => ⟨S1650000, .i32⟩
  | 69 => ⟨S1650000, .i1⟩
  | 70 => ⟨S_, .i32⟩
  | 71 => ⟨S1650000, .i32⟩
  | 72 => ⟨S1650000, .i32⟩
  | 73 => ⟨S1650000, .i32⟩
  | 74 => ⟨S1650000x1, .i32⟩
  | 75 => ⟨S1650000x160, .f32⟩
  | 76 => ⟨S1650000x160, .f32⟩
  | 77 => ⟨S1650000x160, .f32⟩
  | 78 => ⟨S_, .f32⟩
  | 79 => ⟨S50000x160, .f32⟩
  | 80 => ⟨S1650000x1, .i32⟩
  | 81 => ⟨S50000x160, .f32⟩
  | 82 => ⟨S1x160, .f32⟩
  | 83 => ⟨S50000x160, .f32⟩
  | 84 => ⟨S50000x160, .f32⟩
  | 85 => ⟨S1x160, .f32⟩
  | 86 => ⟨S1x160, .f32⟩
  | 87 => ⟨S1x160, .f32⟩
  | 88 => ⟨S1x160, .f32⟩
  | 89 => ⟨S50000x160, .f32⟩
  | 90 => ⟨S50000x160, .f32⟩
  | 91 => ⟨S_, .i32⟩
  | 92 => ⟨S1650000, .i32⟩
  | 93 => ⟨S1650000, .i1⟩
  | 94 => ⟨S_, .i32⟩
  | 95 => ⟨S1650000, .i32⟩
  | 96 => ⟨S1650000, .i32⟩
  | 97 => ⟨S1650000, .i32⟩
  | 98 => ⟨S1650000x1, .i32⟩
  | 99 => ⟨S1650000x160, .f32⟩
  | 100 => ⟨S1650000x160, .f32⟩
  | 101 => ⟨S1650000x160, .f32⟩
  | 102 => ⟨S_, .f32⟩
  | 103 => ⟨S50000x160, .f32⟩
  | 104 => ⟨S1650000x1, .i32⟩
  | 105 => ⟨S50000x160, .f32⟩
  | 106 => ⟨S1x160, .f32⟩
  | 107 => ⟨S50000x160, .f32⟩
  | 108 => ⟨S50000x160, .f32⟩
  | 109 => ⟨S1x160, .f32⟩
  | 110 => ⟨S1x160, .f32⟩
  | 111 => ⟨S1x160, .f32⟩
  | 112 => ⟨S1x160, .f32⟩
  | 113 => ⟨S50000x160, .f32⟩
  | 114 => ⟨S50000x160, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000x160, .f32⟩
  | 124 => ⟨S1650000x160, .f32⟩
  | 125 => ⟨S1650000x160, .f32⟩
  | 126 => ⟨S_, .f32⟩
  | 127 => ⟨S50000x160, .f32⟩
  | _ => ⟨S50000x128, .f32⟩

abbrev hbmTy0_1 (i : Nat) : BufTy := match i % 128 with
  | 0 => ⟨S1650000x1, .i32⟩
  | 1 => ⟨S50000x160, .f32⟩
  | 2 => ⟨S1x160, .f32⟩
  | 3 => ⟨S50000x160, .f32⟩
  | 4 => ⟨S50000x160, .f32⟩
  | 5 => ⟨S1x160, .f32⟩
  | 6 => ⟨S1x160, .f32⟩
  | 7 => ⟨S1x160, .f32⟩
  | 8 => ⟨S1x160, .f32⟩
  | 9 => ⟨S50000x160, .f32⟩
  | 10 => ⟨S_, .f32⟩
  | 11 => ⟨S512x160, .f32⟩
  | 12 => ⟨S50000x1, .i32⟩
  | 13 => ⟨S512x160, .f32⟩
  | 14 => ⟨S_, .f32⟩
  | 15 => ⟨S50000, .f32⟩
  | 16 => ⟨S_, .f32⟩
  | 17 => ⟨S512, .f32⟩
  | 18 => ⟨S50000x1, .i32⟩
  | 19 => ⟨S512, .f32⟩
  | 20 => ⟨S_, .f32⟩
  | 21 => ⟨S_, .f32⟩
  | 22 => ⟨S512, .f32⟩
  | 23 => ⟨S512, .f32⟩
  | 24 => ⟨S512x1, .f32⟩
  | 25 => ⟨S512x160, .f32⟩
  | 26 => ⟨S512x160, .f32⟩
  | 27 => ⟨S1x80, .f32⟩
  | 28 => ⟨S1x2, .f32⟩
  | 29 => ⟨S512x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x160, .f32⟩
  | .local _ .vmem, ⟨3, _⟩ => ⟨S5000x160, .f32⟩
  | .local _ .vmem, ⟨4, _⟩ => ⟨S5000x160, .f32⟩
  | .local _ .vmem, ⟨5, _⟩ => ⟨S2000x160, .f32⟩
  | .local _ .vmem, ⟨6, _⟩ => ⟨S2000x160, .f32⟩
  | .local _ .vmem, ⟨7, _⟩ => ⟨S1x160, .f32⟩
  | .local _ .vmem, ⟨8, _⟩ => ⟨S1x160, .f32⟩
  | .local _ .vmem, ⟨9, _⟩ => ⟨S1x160, .f32⟩
  | .local _ .vmem, ⟨10, _⟩ => ⟨S1x160, .f32⟩
  | .local _ .vmem, ⟨11, _⟩ => ⟨S2000x160, .f32⟩
  | .local _ .vmem, ⟨12, _⟩ => ⟨S2000x160, .f32⟩
  | .local _ .vmem, ⟨13, _⟩ => ⟨S5000x160, .f32⟩
  | .local _ .vmem, ⟨14, _⟩ => ⟨S5000x160, .f32⟩
  | .local _ .vmem, ⟨15, _⟩ => ⟨S160x160, .f32⟩
  | .local _ .vmem, ⟨16, _⟩ => ⟨S5000x160, .f32⟩
  | .local _ .vmem, ⟨17, _⟩ => ⟨S5000x160, .f32⟩
  | .local _ .vmem, ⟨18, _⟩ => ⟨S2000x160, .f32⟩
  | .local _ .vmem, ⟨19, _⟩ => ⟨S2000x160, .f32⟩
  | .local _ .vmem, ⟨20, _⟩ => ⟨S1x160, .f32⟩
  | .local _ .vmem, ⟨21, _⟩ => ⟨S1x160, .f32⟩
  | .local _ .vmem, ⟨22, _⟩ => ⟨S1x160, .f32⟩
  | .local _ .vmem, ⟨23, _⟩ => ⟨S1x160, .f32⟩
  | .local _ .vmem, ⟨24, _⟩ => ⟨S2000x160, .f32⟩
  | .local _ .vmem, ⟨25, _⟩ => ⟨S2000x160, .f32⟩
  | .local _ .vmem, ⟨26, _⟩ => ⟨S5000x160, .f32⟩
  | .local _ .vmem, ⟨27, _⟩ => ⟨S5000x160, .f32⟩
  | .local _ .vmem, ⟨28, _⟩ => ⟨S160x160, .f32⟩
  | .local _ .vmem, ⟨29, _⟩ => ⟨S5000x160, .f32⟩
  | .local _ .vmem, ⟨30, _⟩ => ⟨S5000x160, .f32⟩
  | .local _ .vmem, ⟨31, _⟩ => ⟨S2000x160, .f32⟩
  | .local _ .vmem, ⟨32, _⟩ => ⟨S2000x160, .f32⟩
  | .local _ .vmem, ⟨33, _⟩ => ⟨S1x160, .f32⟩
  | .local _ .vmem, ⟨34, _⟩ => ⟨S1x160, .f32⟩
  | .local _ .vmem, ⟨35, _⟩ => ⟨S1x160, .f32⟩
  | .local _ .vmem, ⟨36, _⟩ => ⟨S1x160, .f32⟩
  | .local _ .vmem, ⟨37, _⟩ => ⟨S2000x160, .f32⟩
  | .local _ .vmem, ⟨38, _⟩ => ⟨S2000x160, .f32⟩
  | .local _ .vmem, ⟨39, _⟩ => ⟨S512x160, .f32⟩
  | .local _ .vmem, ⟨40, _⟩ => ⟨S160x80, .f32⟩
  | .local _ .vmem, ⟨41, _⟩ => ⟨S1x80, .f32⟩
  | .local _ .vmem, ⟨42, _⟩ => ⟨S80x2, .f32⟩
  | .local _ .vmem, ⟨43, _⟩ => ⟨S1x2, .f32⟩
  | .local _ .vmem, ⟨44, _⟩ => ⟨S512x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_1 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_v14 : Ref sig .tc := ⟨.hbm, 45, rfl⟩
abbrev main_c : Ref sig .tc := ⟨.hbm, 46, rfl⟩
abbrev main_v15 : Ref sig .tc := ⟨.hbm, 47, rfl⟩
abbrev main_v16 : Ref sig .tc := ⟨.hbm, 48, rfl⟩
abbrev main_c_3 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_4 : Ref sig .tc := ⟨.hbm, 55, rfl⟩
abbrev main_v22 : Ref sig .tc := ⟨.hbm, 56, rfl⟩
abbrev main_v23 : Ref sig .tc := ⟨.hbm, 57, rfl⟩
abbrev main_c_5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_c_6 : Ref sig .tc := ⟨.hbm, 67, rfl⟩
abbrev main_v32 : Ref sig .tc := ⟨.hbm, 68, rfl⟩
abbrev main_v33 : Ref sig .tc := ⟨.hbm, 69, rfl⟩
abbrev main_c_7 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_9 : Ref sig .tc := ⟨.hbm, 91, rfl⟩
abbrev main_v53 : Ref sig .tc := ⟨.hbm, 92, rfl⟩
abbrev main_v54 : Ref sig .tc := ⟨.hbm, 93, rfl⟩
abbrev main_c_10 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_11 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_c_12 : Ref sig .tc := ⟨.hbm, 115, rfl⟩
abbrev main_v74 : Ref sig .tc := ⟨.hbm, 116, rfl⟩
abbrev main_v75 : Ref sig .tc := ⟨.hbm, 117, rfl⟩
abbrev main_c_13 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_14 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_15 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_16 : Ref sig .tc := ⟨.hbm, 142, rfl⟩
abbrev main_v97 : Ref sig .tc := ⟨.hbm, 143, rfl⟩
abbrev main_cst_17 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_18 : Ref sig .tc := ⟨.hbm, 148, rfl⟩
abbrev main_call1_v0 : Ref sig .tc := ⟨.hbm, 149, rfl⟩
abbrev main_call1_v1 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg5_1 : Ref sig .tc := ⟨.vmem, 38, rfl⟩
abbrev cc6_stg0_0 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg5_0 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem5_1 : DmaSem sig := 38
abbrev cc6_sem0_0 : DmaSem sig := 39
abbrev cc6_sem1_0 : DmaSem sig := 40
abbrev cc6_sem2_0 : DmaSem sig := 41
abbrev cc6_sem3_0 : DmaSem sig := 42
abbrev cc6_sem4_0 : DmaSem sig := 43
abbrev cc6_sem5_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x160 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x160 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x160 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x160 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S160x160 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x160 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x160 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x160 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x160 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x160 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x160 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x160 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x160 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S160x160 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x160 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x160 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x160 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x160 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x160 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x160 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x160 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x160 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S160x80 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x80 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S80x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x160_S128x160_0_0 : ∀ a, (![0, 0] : Fin 2 → Nat) a + S128x160.size a ≤ S128x160.size a
  h_S128x160 : 0 < S128x160.numel
  inb_S5000x160_S5000x160_0_0 : ∀ a, (![0, 0] : Fin 2 → Nat) a + S5000x160.size a ≤ S5000x160.size a
  h_S5000x160 : 0 < S5000x160.numel
  bcast_S1650000x1_S1650000x160_0_1 : S1650000x1.BroadcastsInDim S1650000x160 (![0, 1] : Fin 2 → Fin S1650000x160.rank)
  bcast_S_S50000x160 : S_.BroadcastsInDim S50000x160 (![] : Fin 0 → Fin S50000x160.rank)
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  shapeCasts_S160_S1x160 : S160.ShapeCasts S1x160
  inb_S2000x160_S2000x160_0_0 : ∀ a, (![0, 0] : Fin 2 → Nat) a + S2000x160.size a ≤ S2000x160.size a
  h_S2000x160 : 0 < S2000x160.numel
  shapeCasts_S2000x160_S2000x160 : S2000x160.ShapeCasts S2000x160
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S2000x160 : S1x160.Broadcasts S2000x160
  shapeCasts_S5000x160_S5000x160 : S5000x160.ShapeCasts S5000x160
  inb_S160x160_S160x160_0_0 : ∀ a, (![0, 0] : Fin 2 → Nat) a + S160x160.size a ≤ S160x160.size a
  h_S160x160 : 0 < S160x160.numel
  bcast_S_S512x160 : S_.BroadcastsInDim S512x160 (![] : Fin 0 → Fin S512x160.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x160_0_1 : S512x1.BroadcastsInDim S512x160 (![0, 1] : Fin 2 → Fin S512x160.rank)
  shapeCasts_S80_S1x80 : S80.ShapeCasts S1x80
  shapeCasts_S2_S1x2 : S2.ShapeCasts S1x2
  inb_S512x160_S512x160_0_0 : ∀ a, (![0, 0] : Fin 2 → Nat) a + S512x160.size a ≤ S512x160.size a
  h_S512x160 : 0 < S512x160.numel
  shapeCasts_S512x160_S512x160 : S512x160.ShapeCasts S512x160
  inb_S160x80_S160x80_0_0 : ∀ a, (![0, 0] : Fin 2 → Nat) a + S160x80.size a ≤ S160x80.size a
  h_S160x80 : 0 < S160x80.numel
  inb_S1x80_S1x80_0_0 : ∀ a, (![0, 0] : Fin 2 → Nat) a + S1x80.size a ≤ S1x80.size a
  h_S1x80 : 0 < S1x80.numel
  shapeCasts_S1x80_S1x80 : S1x80.ShapeCasts S1x80
  broadcasts_S1x80_S512x80 : S1x80.Broadcasts S512x80
  inb_S80x2_S80x2_0_0 : ∀ a, (![0, 0] : Fin 2 → Nat) a + S80x2.size a ≤ S80x2.size a
  h_S80x2 : 0 < S80x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x128_S128x160_S5000x160_1_0_0_1_n_n_wf : DotDims.WF S5000x128 S128x160 S5000x160 [1] [0] [0] [1] [] []
  gather_S50000x160_S1650000x1_S1650000x160_1_0_n_n_0_1_1160_wf : GatherDims.WF S50000x160 S1650000x1 S1650000x160 [1] [0] [] [0] [] 1 ![1, 160]
  scatter_S50000x160_S1650000x1_S1650000x160_1_0_0_1_wf : ScatterDims.WF S50000x160 S1650000x1 S1650000x160 [1] [0] [0] 1
  dot_S5000x160_S160x160_S5000x160_1_0_0_1_n_n_wf : DotDims.WF S5000x160 S160x160 S5000x160 [1] [0] [0] [1] [] []
  scatter_S512x160_S50000x1_S50000x160_1_0_0_1_wf : ScatterDims.WF S512x160 S50000x1 S50000x160 [1] [0] [0] 1
  scatter_S512_S50000x1_S50000_n_0_0_1_wf : ScatterDims.WF S512 S50000x1 S50000 [] [0] [0] 1
  dot_S512x160_S160x80_S512x80_1_0_0_1_n_n_wf : DotDims.WF S512x160 S160x80 S512x80 [1] [0] [0] [1] [] []
  dot_S512x80_S80x2_S512x2_1_0_0_1_n_n_wf : DotDims.WF S512x80 S80x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x160.size a ≤ S128x160.size a
  hwx0_1 : ∀ i : grid0.Coords, EltTy.bits .f32 = 32 ∨ (Rect.block (s := S128x160) S128x160.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x160.size a ≤ S50000x160.size a
  hwx0_2 : ∀ i : grid0.Coords, EltTy.bits .f32 = 32 ∨ (Rect.block (s := S50000x160) S5000x160.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x160.size a ≤ S50000x160.size a
  hwx1_0 : ∀ i : grid1.Coords, EltTy.bits .f32 = 32 ∨ (Rect.block (s := S50000x160) S2000x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x160.size a ≤ S1x160.size a
  hwx1_1 : ∀ i : grid1.Coords, EltTy.bits .f32 = 32 ∨ (Rect.block (s := S1x160) S1x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x160.size a ≤ S1x160.size a
  hwx1_3 : ∀ i : grid1.Coords, EltTy.bits .f32 = 32 ∨ (Rect.block (s := S1x160) S1x160.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x160.size a ≤ S1x160.size a
  hwx1_4 : ∀ i : grid1.Coords, EltTy.bits .f32 = 32 ∨ (Rect.block (s := S1x160) S1x160.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x160.size a ≤ S50000x160.size a
  hwx1_5 : ∀ i : grid1.Coords, EltTy.bits .f32 = 32 ∨ (Rect.block (s := S50000x160) S2000x160.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x160.size a ≤ S50000x160.size a
  hwx2_0 : ∀ i : grid2.Coords, EltTy.bits .f32 = 32 ∨ (Rect.block (s := S50000x160) S5000x160.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S160x160.size a ≤ S160x160.size a
  hwx2_1 : ∀ i : grid2.Coords, EltTy.bits .f32 = 32 ∨ (Rect.block (s := S160x160) S160x160.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x160.size a ≤ S50000x160.size a
  hwx2_2 : ∀ i : grid2.Coords, EltTy.bits .f32 = 32 ∨ (Rect.block (s := S50000x160) S5000x160.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x160.size a ≤ S50000x160.size a
  hwx3_0 : ∀ i : grid3.Coords, EltTy.bits .f32 = 32 ∨ (Rect.block (s := S50000x160) S2000x160.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x160.size a ≤ S1x160.size a
  hwx3_1 : ∀ i : grid3.Coords, EltTy.bits .f32 = 32 ∨ (Rect.block (s := S1x160) S1x160.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x160.size a ≤ S1x160.size a
  hwx3_2 : ∀ i : grid3.Coords, EltTy.bits .f32 = 32 ∨ (Rect.block (s := S1x160) S1x160.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x160.size a ≤ S1x160.size a
  hwx3_3 : ∀ i : grid3.Coords, EltTy.bits .f32 = 32 ∨ (Rect.block (s := S1x160) S1x160.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x160.size a ≤ S1x160.size a
  hwx3_4 : ∀ i : grid3.Coords, EltTy.bits .f32 = 32 ∨ (Rect.block (s := S1x160) S1x160.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x160.size a ≤ S50000x160.size a
  hwx3_5 : ∀ i : grid3.Coords, EltTy.bits .f32 = 32 ∨ (Rect.block (s := S50000x160) S2000x160.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x160.size a ≤ S50000x160.size a
  hwx4_0 : ∀ i : grid4.Coords, EltTy.bits .f32 = 32 ∨ (Rect.block (s := S50000x160) S5000x160.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S160x160.size a ≤ S160x160.size a
  hwx4_1 : ∀ i : grid4.Coords, EltTy.bits .f32 = 32 ∨ (Rect.block (s := S160x160) S160x160.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x160.size a ≤ S50000x160.size a
  hwx4_2 : ∀ i : grid4.Coords, EltTy.bits .f32 = 32 ∨ (Rect.block (s := S50000x160) S5000x160.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x160.size a ≤ S50000x160.size a
  hwx5_0 : ∀ i : grid5.Coords, EltTy.bits .f32 = 32 ∨ (Rect.block (s := S50000x160) S2000x160.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x160.size a ≤ S1x160.size a
  hwx5_1 : ∀ i : grid5.Coords, EltTy.bits .f32 = 32 ∨ (Rect.block (s := S1x160) S1x160.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x160.size a ≤ S1x160.size a
  hwx5_2 : ∀ i : grid5.Coords, EltTy.bits .f32 = 32 ∨ (Rect.block (s := S1x160) S1x160.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x160.size a ≤ S1x160.size a
  hwx5_3 : ∀ i : grid5.Coords, EltTy.bits .f32 = 32 ∨ (Rect.block (s := S1x160) S1x160.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x160.size a ≤ S1x160.size a
  hwx5_4 : ∀ i : grid5.Coords, EltTy.bits .f32 = 32 ∨ (Rect.block (s := S1x160) S1x160.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x160.size a ≤ S50000x160.size a
  hwx5_5 : ∀ i : grid5.Coords, EltTy.bits .f32 = 32 ∨ (Rect.block (s := S50000x160) S2000x160.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x160.size a ≤ S512x160.size a
  hwx6_0 : ∀ i : grid6.Coords, EltTy.bits .f32 = 32 ∨ (Rect.block (s := S512x160) S512x160.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S160x80.size a ≤ S160x80.size a
  hwx6_1 : ∀ i : grid6.Coords, EltTy.bits .f32 = 32 ∨ (Rect.block (s := S160x80) S160x80.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x80.size a ≤ S1x80.size a
  hwx6_2 : ∀ i : grid6.Coords, EltTy.bits .f32 = 32 ∨ (Rect.block (s := S1x80) S1x80.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S80x2.size a ≤ S80x2.size a
  hwx6_3 : ∀ i : grid6.Coords, EltTy.bits .f32 = 32 ∨ (Rect.block (s := S80x2) S80x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x2.size a ≤ S512x2.size a
  hwx6_5 : ∀ i : grid6.Coords, EltTy.bits .f32 = 32 ∨ (Rect.block (s := S512x2) S512x2.size (cc6_transform_5 i) (hinb6_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x128_S128x160_S5000x160_1_0_0_1_n_n : DotDims S5000x128 S128x160 S5000x160 where
  lhsContracting := [1]
  rhsContracting := [0]
  lhsNonContracting := [0]
  rhsNonContracting := [1]
  lhsBatch := []
  rhsBatch := []
  wf := dot_S5000x128_S128x160_S5000x160_1_0_0_1_n_n_wf
def gather_S50000x160_S1650000x1_S1650000x160_1_0_n_n_0_1_1160 : GatherDims S50000x160 S1650000x1 S1650000x160 where
  offsetDims := [1]
  collapsedSliceDims := [0]
  operandBatchingDims := []
  startIndicesBatchingDims := []
  startIndexMap := [0]
  indexVectorDim := 1
  sliceSizes := ![1, 160]
  wf := gather_S50000x160_S1650000x1_S1650000x160_1_0_n_n_0_1_1160_wf
def scatter_S50000x160_S1650000x1_S1650000x160_1_0_0_1 : ScatterDims S50000x160 S1650000x1 S1650000x160 where
  updateWindowDims := [1]
  insertedWindowDims := [0]
  scatterDimsToOperandDims := [0]
  indexVectorDim := 1
  wf := scatter_S50000x160_S1650000x1_S1650000x160_1_0_0_1_wf
def dot_S5000x160_S160x160_S5000x160_1_0_0_1_n_n : DotDims S5000x160 S160x160 S5000x160 where
  lhsContracting := [1]
  rhsContracting := [0]
  lhsNonContracting := [0]
  rhsNonContracting := [1]
  lhsBatch := []
  rhsBatch := []
  wf := dot_S5000x160_S160x160_S5000x160_1_0_0_1_n_n_wf
def scatter_S512x160_S50000x1_S50000x160_1_0_0_1 : ScatterDims S512x160 S50000x1 S50000x160 where
  updateWindowDims := [1]
  insertedWindowDims := [0]
  scatterDimsToOperandDims := [0]
  indexVectorDim := 1
  wf := scatter_S512x160_S50000x1_S50000x160_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x160_S160x80_S512x80_1_0_0_1_n_n : DotDims S512x160 S160x80 S512x80 where
  lhsContracting := [1]
  rhsContracting := [0]
  lhsNonContracting := [0]
  rhsNonContracting := [1]
  lhsBatch := []
  rhsBatch := []
  wf := dot_S512x160_S160x80_S512x80_1_0_0_1_n_n_wf
def dot_S512x80_S80x2_S512x2_1_0_0_1_n_n : DotDims S512x80 S80x2 S512x2 where
  lhsContracting := [1]
  rhsContracting := [0]
  lhsNonContracting := [0]
  rhsNonContracting := [1]
  lhsBatch := []
  rhsBatch := []
  wf := dot_S512x80_S80x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x160.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x160.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x160.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S2000x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v51) S5000x160.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S160x160.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S5000x160.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v67) S2000x160.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x160.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S1x160.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x160.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v71) S1x160.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v72) S2000x160.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v72) S5000x160.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S160x160.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x160.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v88) S2000x160.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x160.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v90) S1x160.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v91) S1x160.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v92) S1x160.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v93) S2000x160.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v104) S512x160.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S160x80.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x80.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg23) S80x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v106) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v107) S512x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S128x160 : Shape := ⟨2, ![128, 160]⟩
abbrev S160 : Shape := ⟨1, ![160]⟩
abbrev S160x160 : Shape := ⟨2, ![160, 160]⟩
abbrev S160x80 : Shape := ⟨2, ![160, 80]⟩
abbrev S80 : Shape := ⟨1, ![80]⟩
abbrev S80x2 : Shape := ⟨2, ![80, 2]⟩
abbrev S2 : Shape := ⟨1, ![2]⟩
abbrev S1x1600000 : Shape := ⟨2, ![1, 1600000]⟩
abbrev S1600000 : Shape := ⟨1, ![1600000]⟩
abbrev S50000x160 : Shape := ⟨2, ![50000, 160]⟩
abbrev S1650000 : Shape := ⟨1, ![1650000]⟩
abbrev S_ : Shape := ⟨0, ![]⟩
abbrev S1650000x1 : Shape := ⟨2, ![1650000, 1]⟩
abbrev S1650000x160 : Shape := ⟨2, ![1650000, 160]⟩
abbrev S1x160 : Shape := ⟨2, ![1, 160]⟩
abbrev S512x160 : Shape := ⟨2, ![512, 160]⟩
abbrev S50000x1 : Shape := ⟨2, ![50000, 1]⟩
abbrev S512 : Shape := ⟨1, ![512]⟩
abbrev S512x1 : Shape := ⟨2, ![512, 1]⟩
abbrev S512x80 : Shape := ⟨2, ![512, 80]⟩
abbrev S1x80 : Shape := ⟨2, ![1, 80]⟩
abbrev S512x2 : Shape := ⟨2, ![512, 2]⟩
abbrev S1x2 : Shape := ⟨2, ![1, 2]⟩

abbrev nBuf : Space → Nat
  | .hbm => 282
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S128x160, .f32⟩
  | 4 => ⟨S160, .f32⟩
  | 5 => ⟨S160x160, .f32⟩
  | 6 => ⟨S160, .f32⟩
  | 7 => ⟨S160x160, .f32⟩
  | 8 => ⟨S160, .f32⟩
  | 9 => ⟨S160, .f32⟩
  | 10 => ⟨S160, .f32⟩
  | 11 => ⟨S160, .f32⟩
  | 12 => ⟨S160, .f32⟩
  | 13 => ⟨S160, .f32⟩
  | 14 => ⟨S160, .f32⟩
  | 15 => ⟨S160, .f32⟩
  | 16 => ⟨S160, .f32⟩
  | 17 => ⟨S160, .f32⟩
  | 18 => ⟨S160, .f32⟩
  | 19 => ⟨S160, .f32⟩
  | 20 => ⟨S160, .f32⟩
  | 21 => ⟨S160x80, .f32⟩
  | 22 => ⟨S80, .f32⟩
  | 23 => ⟨S80x2, .f32⟩
  | 24 => ⟨S2, .f32⟩
  | 25 => ⟨S1x1600000, .i32⟩
  | 26 => ⟨S1600000, .i32⟩
  | 27 => ⟨S1x1600000, .i32⟩
  | 28 => ⟨S1600000, .i32⟩
  | 29 => ⟨S50000x160, .f32⟩
  | 30 => ⟨S50000, .i32⟩
  | 31 => ⟨S1650000, .i32⟩
  | 32 => ⟨S1650000, .i32⟩
  | 33 => ⟨S_, .f32⟩
  | 34 => ⟨S1650000, .f32⟩
  | 35 => ⟨S_, .f32⟩
  | 36 => ⟨S50000, .f32⟩
  | 37 => ⟨S1650000x1, .i32⟩
  | 38 => ⟨S50000, .f32⟩
  | 39 => ⟨S_, .f32⟩
  | 40 => ⟨S50000, .f32⟩
  | 41 => ⟨S50000, .i1⟩
  | 42 => ⟨S50000, .f32⟩
  | 43 => ⟨S_, .f32⟩
  | 44 => ⟨S_, .f32⟩
  | 45 => ⟨S50000, .f32⟩
  | 46 => ⟨S50000, .f32⟩
  | 47 => ⟨S_, .i32⟩
  | 48 => ⟨S1650000, .i32⟩
  | 49 => ⟨S1650000, .i1⟩
  | 50 => ⟨S_, .i32⟩
  | 51 => ⟨S1650000, .i32⟩
  | 52 => ⟨S1650000, .i32⟩
  | 53 => ⟨S1650000, .i32⟩
  | 54 => ⟨S1650000x1, .i32⟩
  | 55 => ⟨S1650000x160, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000, .f32⟩
  | 65 => ⟨S_, .i32⟩
  | 66 => ⟨S1650000, .i32⟩
  | 67 => ⟨S1650000, .i1⟩
  | 68 => ⟨S_, .i32⟩
  | 69 => ⟨S1650000, .i32⟩
  | 70 => ⟨S1650000, .i32⟩
  | 71 => ⟨S1650000, .i32⟩
  | 72 => ⟨S1650000x1, .i32⟩
  | 73 => ⟨S1650000, .f32⟩
  | 74 => ⟨S1650000, .f32⟩
  | 75 => ⟨S1650000x1, .f32⟩
  | 76 => ⟨S1650000x160, .f32⟩
  | 77 => ⟨S1650000x160, .f32⟩
  | 78 => ⟨S_, .f32⟩
  | 79 => ⟨S50000x160, .f32⟩
  | 80 => ⟨S1650000x1, .i32⟩
  | 81 => ⟨S50000x160, .f32⟩
  | 82 => ⟨S1x160, .f32⟩
  | 83 => ⟨S50000x160, .f32⟩
  | 84 => ⟨S50000x160, .f32⟩
  | 85 => ⟨S1x160, .f32⟩
  | 86 => ⟨S50000x160, .f32⟩
  | 87 => ⟨S50000x160, .f32⟩
  | 88 => ⟨S_, .f32⟩
  | 89 => ⟨S160, .f32⟩
  | 90 => ⟨S160, .f32⟩
  | 91 => ⟨S160, .f32⟩
  | 92 => ⟨S1x160, .f32⟩
  | 93 => ⟨S50000x160, .f32⟩
  | 94 => ⟨S50000x160, .f32⟩
  | 95 => ⟨S1x160, .f32⟩
  | 96 => ⟨S50000x160, .f32⟩
  | 97 => ⟨S50000x160, .f32⟩
  | 98 => ⟨S1x160, .f32⟩
  | 99 => ⟨S50000x160, .f32⟩
  | 100 => ⟨S50000x160, .f32⟩
  | 101 => ⟨S_, .f32⟩
  | 102 => ⟨S50000x160, .f32⟩
  | 103 => ⟨S50000x160, .f32⟩
  | 104 => ⟨S50000x160, .f32⟩
  | 105 => ⟨S50000, .i32⟩
  | 106 => ⟨S1650000, .i32⟩
  | 107 => ⟨S1650000, .i32⟩
  | 108 => ⟨S_, .f32⟩
  | 109 => ⟨S1650000, .f32⟩
  | 110 => ⟨S_, .f32⟩
  | 111 => ⟨S50000, .f32⟩
  | 112 => ⟨S1650000x1, .i32⟩
  | 113 => ⟨S50000, .f32⟩
  | 114 => ⟨S_, .f32⟩
  | 115 => ⟨S50000, .f32⟩
  | 116 => ⟨S50000, .i1⟩
  | 117 => ⟨S50000, .f32⟩
  | 118 => ⟨S_, .f32⟩
  | 119 => ⟨S_, .f32⟩
  | 120 => ⟨S50000, .f32⟩
  | 121 => ⟨S50000, .f32⟩
  | 122 => ⟨S_, .i32⟩
  | 123 => ⟨S1650000, .i32⟩
  | 124 => ⟨S1650000, .i1⟩
  | 125 => ⟨S_, .i32⟩
  | 126 => ⟨S1650000, .i32⟩
  | 127 => ⟨S1650000, .i32⟩
  | _ => ⟨S50000x128, .f32⟩

abbrev hbmTy0_1 (i : Nat) : BufTy := match i % 128 with
  | 0 => ⟨S1650000, .i32⟩
  | 1 => ⟨S1650000x1, .i32⟩
  | 2 => ⟨S1650000x160, .f32⟩
  | 3 => ⟨S_, .i32⟩
  | 4 => ⟨S1650000, .i32⟩
  | 5 => ⟨S1650000, .i1⟩
  | 6 => ⟨S_, .i32⟩
  | 7 => ⟨S1650000, .i32⟩
  | 8 => ⟨S1650000, .i32⟩
  | 9 => ⟨S1650000, .i32⟩
  | 10 => ⟨S1650000x1, .i32⟩
  | 11 => ⟨S1650000, .f32⟩
  | 12 => ⟨S_, .i32⟩
  | 13 => ⟨S1650000, .i32⟩
  | 14 => ⟨S1650000, .i1⟩
  | 15 => ⟨S_, .i32⟩
  | 16 => ⟨S1650000, .i32⟩
  | 17 => ⟨S1650000, .i32⟩
  | 18 => ⟨S1650000, .i32⟩
  | 19 => ⟨S1650000x1, .i32⟩
  | 20 => ⟨S1650000, .f32⟩
  | 21 => ⟨S1650000, .f32⟩
  | 22 => ⟨S1650000x1, .f32⟩
  | 23 => ⟨S1650000x160, .f32⟩
  | 24 => ⟨S1650000x160, .f32⟩
  | 25 => ⟨S_, .f32⟩
  | 26 => ⟨S50000x160, .f32⟩
  | 27 => ⟨S1650000x1, .i32⟩
  | 28 => ⟨S50000x160, .f32⟩
  | 29 => ⟨S1x160, .f32⟩
  | 30 => ⟨S50000x160, .f32⟩
  | 31 => ⟨S50000x160, .f32⟩
  | 32 => ⟨S1x160, .f32⟩
  | 33 => ⟨S50000x160, .f32⟩
  | 34 => ⟨S50000x160, .f32⟩
  | 35 => ⟨S_, .f32⟩
  | 36 => ⟨S160, .f32⟩
  | 37 => ⟨S160, .f32⟩
  | 38 => ⟨S160, .f32⟩
  | 39 => ⟨S1x160, .f32⟩
  | 40 => ⟨S50000x160, .f32⟩
  | 41 => ⟨S50000x160, .f32⟩
  | 42 => ⟨S1x160, .f32⟩
  | 43 => ⟨S50000x160, .f32⟩
  | 44 => ⟨S50000x160, .f32⟩
  | 45 => ⟨S1x160, .f32⟩
  | 46 => ⟨S50000x160, .f32⟩
  | 47 => ⟨S50000x160, .f32⟩
  | 48 => ⟨S_, .f32⟩
  | 49 => ⟨S50000x160, .f32⟩
  | 50 => ⟨S50000x160, .f32⟩
  | 51 => ⟨S50000x160, .f32⟩
  | 52 => ⟨S50000, .i32⟩
  | 53 => ⟨S1650000, .i32⟩
  | 54 => ⟨S1650000, .i32⟩
  | 55 => ⟨S_, .f32⟩
  | 56 => ⟨S1650000, .f32⟩
  | 57 => ⟨S_, .f32⟩
  | 58 => ⟨S50000, .f32⟩
  | 59 => ⟨S1650000x1, .i32⟩
  | 60 => ⟨S50000, .f32⟩
  | 61 => ⟨S_, .f32⟩
  | 62 => ⟨S50000, .f32⟩
  | 63 => ⟨S50000, .i1⟩
  | 64 => ⟨S50000, .f32⟩
  | 65 => ⟨S_, .f32⟩
  | 66 => ⟨S_, .f32⟩
  | 67 => ⟨S50000, .f32⟩
  | 68 => ⟨S50000, .f32⟩
  | 69 => ⟨S_, .i32⟩
  | 70 => ⟨S1650000, .i32⟩
  | 71 => ⟨S1650000, .i1⟩
  | 72 => ⟨S_, .i32⟩
  | 73 => ⟨S1650000, .i32⟩
  | 74 => ⟨S1650000, .i32⟩
  | 75 => ⟨S1650000, .i32⟩
  | 76 => ⟨S1650000x1, .i32⟩
  | 77 => ⟨S1650000x160, .f32⟩
  | 78 => ⟨S_, .i32⟩
  | 79 => ⟨S1650000, .i32⟩
  | 80 => ⟨S1650000, .i1⟩
  | 81 => ⟨S_, .i32⟩
  | 82 => ⟨S1650000, .i32⟩
  | 83 => ⟨S1650000, .i32⟩
  | 84 => ⟨S1650000, .i32⟩
  | 85 => ⟨S1650000x1, .i32⟩
  | 86 => ⟨S1650000, .f32⟩
  | 87 => ⟨S_, .i32⟩
  | 88 => ⟨S1650000, .i32⟩
  | 89 => ⟨S1650000, .i1⟩
  | 90 => ⟨S_, .i32⟩
  | 91 => ⟨S1650000, .i32⟩
  | 92 => ⟨S1650000, .i32⟩
  | 93 => ⟨S1650000, .i32⟩
  | 94 => ⟨S1650000x1, .i32⟩
  | 95 => ⟨S1650000, .f32⟩
  | 96 => ⟨S1650000, .f32⟩
  | 97 => ⟨S1650000x1, .f32⟩
  | 98 => ⟨S1650000x160, .f32⟩
  | 99 => ⟨S1650000x160, .f32⟩
  | 100 => ⟨S_, .f32⟩
  | 101 => ⟨S50000x160, .f32⟩
  | 102 => ⟨S1650000x1, .i32⟩
  | 103 => ⟨S50000x160, .f32⟩
  | 104 => ⟨S1x160, .f32⟩
  | 105 => ⟨S50000x160, .f32⟩
  | 106 => ⟨S50000x160, .f32⟩
  | 107 => ⟨S1x160, .f32⟩
  | 108 => ⟨S50000x160, .f32⟩
  | 109 => ⟨S50000x160, .f32⟩
  | 110 => ⟨S_, .f32⟩
  | 111 => ⟨S160, .f32⟩
  | 112 => ⟨S160, .f32⟩
  | 113 => ⟨S160, .f32⟩
  | 114 => ⟨S1x160, .f32⟩
  | 115 => ⟨S50000x160, .f32⟩
  | 116 => ⟨S50000x160, .f32⟩
  | 117 => ⟨S1x160, .f32⟩
  | 118 => ⟨S50000x160, .f32⟩
  | 119 => ⟨S50000x160, .f32⟩
  | 120 => ⟨S1x160, .f32⟩
  | 121 => ⟨S50000x160, .f32⟩
  | 122 => ⟨S50000x160, .f32⟩
  | 123 => ⟨S_, .f32⟩
  | 124 => ⟨S50000x160, .f32⟩
  | 125 => ⟨S50000x160, .f32⟩
  | 126 => ⟨S_, .f32⟩
  | 127 => ⟨S512x160, .f32⟩
  | _ => ⟨S50000x128, .f32⟩

abbrev hbmTy0_2 (i : Nat) : BufTy := match i % 128 with
  | 0 => ⟨S50000x1, .i32⟩
  | 1 => ⟨S512x160, .f32⟩
  | 2 => ⟨S_, .f32⟩
  | 3 => ⟨S50000, .f32⟩
  | 4 => ⟨S_, .f32⟩
  | 5 => ⟨S512, .f32⟩
  | 6 => ⟨S50000x1, .i32⟩
  | 7 => ⟨S512, .f32⟩
  | 8 => ⟨S_, .f32⟩
  | 9 => ⟨S_, .f32⟩
  | 10 => ⟨S512, .f32⟩
  | 11 => ⟨S512, .f32⟩
  | 12 => ⟨S512x1, .f32⟩
  | 13 => ⟨S512x160, .f32⟩
  | 14 => ⟨S512x160, .f32⟩
  | 15 => ⟨S512x80, .f32⟩
  | 16 => ⟨S1x80, .f32⟩
  | 17 => ⟨S512x80, .f32⟩
  | 18 => ⟨S512x80, .f32⟩
  | 19 => ⟨S_, .f32⟩
  | 20 => ⟨S512x80, .f32⟩
  | 21 => ⟨S512x80, .f32⟩
  | 22 => ⟨S512x2, .f32⟩
  | 23 => ⟨S1x2, .f32⟩
  | 24 => ⟨S512x2, .f32⟩
  | 25 => ⟨S512x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_1 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_v15 : Ref sig .tc := ⟨.hbm, 46, rfl⟩
abbrev main_c : Ref sig .tc := ⟨.hbm, 47, rfl⟩
abbrev main_v16 : Ref sig .tc := ⟨.hbm, 48, rfl⟩
abbrev main_v17 : Ref sig .tc := ⟨.hbm, 49, rfl⟩
abbrev main_c_3 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_c_4 : Ref sig .tc := ⟨.hbm, 56, rfl⟩
abbrev main_v23 : Ref sig .tc := ⟨.hbm, 57, rfl⟩
abbrev main_v24 : Ref sig .tc := ⟨.hbm, 58, rfl⟩
abbrev main_c_5 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_6 : Ref sig .tc := ⟨.hbm, 65, rfl⟩
abbrev main_v30 : Ref sig .tc := ⟨.hbm, 66, rfl⟩
abbrev main_v31 : Ref sig .tc := ⟨.hbm, 67, rfl⟩
abbrev main_c_7 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_8 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_call1_cst : Ref sig .tc := ⟨.hbm, 101, rfl⟩
abbrev main_call1_v0 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_10 : Ref sig .tc := ⟨.hbm, 108, rfl⟩
abbrev main_v67 : Ref sig .tc := ⟨.hbm, 109, rfl⟩
abbrev main_cst_11 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_12 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_cst_13 : Ref sig .tc := ⟨.hbm, 118, rfl⟩
abbrev main_call2_v0 : Ref sig .tc := ⟨.hbm, 119, rfl⟩
abbrev main_call2_v1 : Ref sig .tc := ⟨.hbm, 120, rfl⟩
abbrev main_v74 : Ref sig .tc := ⟨.hbm, 121, rfl⟩
abbrev main_c_14 : Ref sig .tc := ⟨.hbm, 122, rfl⟩
abbrev main_v75 : Ref sig .tc := ⟨.hbm, 123, rfl⟩
abbrev main_v76 : Ref sig .tc := ⟨.hbm, 124, rfl⟩
abbrev main_c_15 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_16 : Ref sig .tc := ⟨.hbm, 131, rfl⟩
abbrev main_v82 : Ref sig .tc := ⟨.hbm, 132, rfl⟩
abbrev main_v83 : Ref sig .tc := ⟨.hbm, 133, rfl⟩
abbrev main_c_17 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_18 : Ref sig .tc := ⟨.hbm, 140, rfl⟩
abbrev main_v89 : Ref sig .tc := ⟨.hbm, 141, rfl⟩
abbrev main_v90 : Ref sig .tc := ⟨.hbm, 142, rfl⟩
abbrev main_c_19 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_cst_20 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_21 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_call3_cst : Ref sig .tc := ⟨.hbm, 176, rfl⟩
abbrev main_call3_v0 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_cst_22 : Ref sig .tc := ⟨.hbm, 183, rfl⟩
abbrev main_v126 : Ref sig .tc := ⟨.hbm, 184, rfl⟩
abbrev main_cst_23 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_cst_24 : Ref sig .tc := ⟨.hbm, 189, rfl⟩
abbrev main_v130 : Ref sig .tc := ⟨.hbm, 190, rfl⟩
abbrev main_v131 : Ref sig .tc := ⟨.hbm, 191, rfl⟩
abbrev main_v132 : Ref sig .tc := ⟨.hbm, 192, rfl⟩
abbrev main_cst_25 : Ref sig .tc := ⟨.hbm, 193, rfl⟩
abbrev main_call4_v0 : Ref sig .tc := ⟨.hbm, 194, rfl⟩
abbrev main_call4_v1 : Ref sig .tc := ⟨.hbm, 195, rfl⟩
abbrev main_v133 : Ref sig .tc := ⟨.hbm, 196, rfl⟩
abbrev main_c_26 : Ref sig .tc := ⟨.hbm, 197, rfl⟩
abbrev main_v134 : Ref sig .tc := ⟨.hbm, 198, rfl⟩
abbrev main_v135 : Ref sig .tc := ⟨.hbm, 199, rfl⟩
abbrev main_c_27 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_c_28 : Ref sig .tc := ⟨.hbm, 206, rfl⟩
abbrev main_v141 : Ref sig .tc := ⟨.hbm, 207, rfl⟩
abbrev main_v142 : Ref sig .tc := ⟨.hbm, 208, rfl⟩
abbrev main_c_29 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_c_30 : Ref sig .tc := ⟨.hbm, 215, rfl⟩
abbrev main_v148 : Ref sig .tc := ⟨.hbm, 216, rfl⟩
abbrev main_v149 : Ref sig .tc := ⟨.hbm, 217, rfl⟩
abbrev main_c_31 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_32 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_cst_33 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_call5_cst : Ref sig .tc := ⟨.hbm, 251, rfl⟩
abbrev main_call5_v0 : Ref sig .tc := ⟨.hbm, 252, rfl⟩
abbrev main_v180 : Ref sig .tc := ⟨.hbm, 253, rfl⟩
abbrev main_cst_34 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_cst_35 : Ref sig .tc := ⟨.hbm, 258, rfl⟩
abbrev main_v184 : Ref sig .tc := ⟨.hbm, 259, rfl⟩
abbrev main_cst_36 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_cst_37 : Ref sig .tc := ⟨.hbm, 264, rfl⟩
abbrev main_call6_v0 : Ref sig .tc := ⟨.hbm, 265, rfl⟩
abbrev main_call6_v1 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩
abbrev main_v195 : Ref sig .tc := ⟨.hbm, 274, rfl⟩
abbrev main_call7_cst : Ref sig .tc := ⟨.hbm, 275, rfl⟩
abbrev main_call7_v0 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x160_0_1 : S1650000x1.BroadcastsInDim S1650000x160 (![0, 1] : Fin 2 → Fin S1650000x160.rank)
  bcast_S_S50000x160 : S_.BroadcastsInDim S50000x160 (![] : Fin 0 → Fin S50000x160.rank)
  bcast_S160_S1x160_1 : S160.BroadcastsInDim S1x160 (![1] : Fin 1 → Fin S1x160.rank)
  bcast_S1x160_S50000x160_0_1 : S1x160.BroadcastsInDim S50000x160 (![0, 1] : Fin 2 → Fin S50000x160.rank)
  bcast_S_S160 : S_.BroadcastsInDim S160 (![] : Fin 0 → Fin S160.rank)
  bcast_S_S512x160 : S_.BroadcastsInDim S512x160 (![] : Fin 0 → Fin S512x160.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x160_0_1 : S512x1.BroadcastsInDim S512x160 (![0, 1] : Fin 2 → Fin S512x160.rank)
  bcast_S80_S1x80_1 : S80.BroadcastsInDim S1x80 (![1] : Fin 1 → Fin S1x80.rank)
  bcast_S1x80_S512x80_0_1 : S1x80.BroadcastsInDim S512x80 (![0, 1] : Fin 2 → Fin S512x80.rank)
  bcast_S_S512x80 : S_.BroadcastsInDim S512x80 (![] : Fin 0 → Fin S512x80.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  dot_S50000x128_S128x160_S50000x160_1_0_0_1_n_n_wf : DotDims.WF S50000x128 S128x160 S50000x160 [1] [0] [0] [1] [] []
  scatter_S50000_S1650000x1_S1650000_n_0_0_1_wf : ScatterDims.WF S50000 S1650000x1 S1650000 [] [0] [0] 1
  gather_S50000x160_S1650000x1_S1650000x160_1_0_n_n_0_1_1160_wf : GatherDims.WF S50000x160 S1650000x1 S1650000x160 [1] [0] [] [0] [] 1 ![1, 160]
  gather_S50000_S1650000x1_S1650000_n_0_n_n_0_1_1_wf : GatherDims.WF S50000 S1650000x1 S1650000 [] [0] [] [0] [] 1 ![1]
  scatter_S50000x160_S1650000x1_S1650000x160_1_0_0_1_wf : ScatterDims.WF S50000x160 S1650000x1 S1650000x160 [1] [0] [0] 1
  dot_S50000x160_S160x160_S50000x160_1_0_0_1_n_n_wf : DotDims.WF S50000x160 S160x160 S50000x160 [1] [0] [0] [1] [] []
  scatter_S512x160_S50000x1_S50000x160_1_0_0_1_wf : ScatterDims.WF S512x160 S50000x1 S50000x160 [1] [0] [0] 1
  scatter_S512_S50000x1_S50000_n_0_0_1_wf : ScatterDims.WF S512 S50000x1 S50000 [] [0] [0] 1
  dot_S512x160_S160x80_S512x80_1_0_0_1_n_n_wf : DotDims.WF S512x160 S160x80 S512x80 [1] [0] [0] [1] [] []
  dot_S512x80_S80x2_S512x2_1_0_0_1_n_n_wf : DotDims.WF S512x80 S80x2 S512x2 [1] [0] [0] [1] [] []

variable [Facts₀]

def dot_S50000x128_S128x160_S50000x160_1_0_0_1_n_n : DotDims S50000x128 S128x160 S50000x160 where
  lhsContracting := [1]
  rhsContracting := [0]
  lhsNonContracting := [0]
  rhsNonContracting := [1]
  lhsBatch := []
  rhsBatch := []
  wf := dot_S50000x128_S128x160_S50000x160_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x160_S1650000x1_S1650000x160_1_0_n_n_0_1_1160 : GatherDims S50000x160 S1650000x1 S1650000x160 where
  offsetDims := [1]
  collapsedSliceDims := [0]
  operandBatchingDims := []
  startIndicesBatchingDims := []
  startIndexMap := [0]
  indexVectorDim := 1
  sliceSizes := ![1, 160]
  wf := gather_S50000x160_S1650000x1_S1650000x160_1_0_n_n_0_1_1160_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def scatter_S50000x160_S1650000x1_S1650000x160_1_0_0_1 : ScatterDims S50000x160 S1650000x1 S1650000x160 where
  updateWindowDims := [1]
  insertedWindowDims := [0]
  scatterDimsToOperandDims := [0]
  indexVectorDim := 1
  wf := scatter_S50000x160_S1650000x1_S1650000x160_1_0_0_1_wf
def dot_S50000x160_S160x160_S50000x160_1_0_0_1_n_n : DotDims S50000x160 S160x160 S50000x160 where
  lhsContracting := [1]
  rhsContracting := [0]
  lhsNonContracting := [0]
  rhsNonContracting := [1]
  lhsBatch := []
  rhsBatch := []
  wf := dot_S50000x160_S160x160_S50000x160_1_0_0_1_n_n_wf
def scatter_S512x160_S50000x1_S50000x160_1_0_0_1 : ScatterDims S512x160 S50000x1 S50000x160 where
  updateWindowDims := [1]
  insertedWindowDims := [0]
  scatterDimsToOperandDims := [0]
  indexVectorDim := 1
  wf := scatter_S512x160_S50000x1_S50000x160_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x160_S160x80_S512x80_1_0_0_1_n_n : DotDims S512x160 S160x80 S512x80 where
  lhsContracting := [1]
  rhsContracting := [0]
  lhsNonContracting := [0]
  rhsNonContracting := [1]
  lhsBatch := []
  rhsBatch := []
  wf := dot_S512x160_S160x80_S512x80_1_0_0_1_n_n_wf
def dot_S512x80_S80x2_S512x2_1_0_0_1_n_n : DotDims S512x80 S80x2 S512x2 where
  lhsContracting := [1]
  rhsContracting := [0]
  lhsNonContracting := [0]
  rhsNonContracting := [1]
  lhsBatch := []
  rhsBatch := []
  wf := dot_S512x80_S80x2_S512x2_1_0_0_1_n_n_wf

class Facts : Prop extends Facts₀ where

variable [Facts]
-- ==== Proof.KRun.lean ====
/- The idealized kernel program's run, with the final contents of EVERY buffer named: after the seven
   pipelined regions and the host operations between them, each buffer of a core holds what the fold of the
   program's segments over the launch memory leaves there (the host stretches as their composed operations, each
   region's arrays as its write-backs). The frame claim reads the argument arrays off this state; the value claim
   reads the result array off it. -/
import proofs.«131882_j48490180772588_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and in the final state every buffer that
    outlives the regions holds the contents the segments' fold leaves in it. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

/-- The result array at the end of the run is region 6's output array as its single point leaves it. -/
theorem result_at (c : Dev nD) :
    W16 m ρ c (Proc.devRef .tc main_v107) = (dat6 (V15 m ρ) c).arrAt 5 cfg6.N :=
  W16_arr m ρ c 5

end Cert.KernelIdeal.Whole

end
-- ==== Proof.Stages.lean ====
/- The reference program's result, taken apart into its stages. One graph-convolution layer is: a whole matrix product
   h·W; the aggregation  out[v] = Σ_{edges u→v, self-loops included} deg(u)^(-1/2) · deg(v)^(-1/2) · (h·W)[u] + bias  (a gather
   along the source list, a scaling by the edge coefficient, a scatter-add along the destination list); and the
   normalisation  max(((a − mean) · rsqrt(var + ε)) · γ + β, 0)  with the four statistics broadcast along the rows. After
   three layers the rows are summed per graph id and divided by max(count, 1), and a two-layer perceptron head
   max(p·Wc1 + bc1, 0)·Wc2 + bc2  gives the result. The definitions below are the reference's own operations, grouped. -/
import proofs.«131882_j48490180772588_1_alg».proof.ReferenceIdeal
import proofs.«131882_j48490180772588_1_alg».proof.Proof.Gen.ReferenceIdeal

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The source list: the edge list's first row followed by one self-loop per node. -/
def src (e : (⟨S2x1600000, .i32⟩ : BufTy).Contents (Elt F)) : (⟨S1650000, .i32⟩ : BufTy).Contents (Elt F) :=
  (concatenate S1650000 0 [⟨S1600000, (shapeCast _ (extractStridedSlice S1x1600000 ![0, 0] e slices_S2x1600000_S1x1600000_0_0) shapeCasts_S1x1600000_S1600000)⟩, ⟨S50000, (iotaInDim S50000 32 0)⟩] concatenates_S1600000_S50000_S1650000_d0)

/-- The destination list: the edge list's second row followed by one self-loop per node. -/
def dst (e : (⟨S2x1600000, .i32⟩ : BufTy).Contents (Elt F)) : (⟨S1650000, .i32⟩ : BufTy).Contents (Elt F) :=
  (concatenate S1650000 0 [⟨S1600000, (shapeCast _ (extractStridedSlice S1x1600000 ![1, 0] e slices_S2x1600000_S1x1600000_1_0) shapeCasts_S1x1600000_S1600000)⟩, ⟨S50000, (iotaInDim S50000 32 0)⟩] concatenates_S1600000_S50000_S1650000_d0)

/-- The edge coefficient deg(u)^(-1/2) · deg(v)^(-1/2) as a column, the degree counted along the destination list and
    its inverse square root taken as zero where the degree is not positive. -/
def coef (s d : (⟨S1650000, .i32⟩ : BufTy).Contents (Elt F)) : (⟨S1650000x1, .f32⟩ : BufTy).Contents (Elt F) :=
  (broadcastInDim S1650000x1 ![0] bcast_S1650000_S1650000x1_0 (mulf (Host.gather gather_S50000_S1650000x1_S1650000_n_0_n_n_0_1_1 (select (cmpf .ogt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 d) (broadcastInDim S1650000 ![] bcast_S_S1650000 (constant (F := F) S_ .f32 0x3F800000#32))) (broadcastInDim S50000 ![] bcast_S_S50000 (constant (F := F) S_ .f32 0x00000000#32))) (Host.rsqrt (F := F) (Host.scatterAdd scatter_S50000_S1650000x1_S1650000_n_0_0_1 (broadcastInDim S50000 ![] bcast_S_S50000 (constant (F := F) S_ .f32 0x00000000#32)) (broadcastInDim S1650000x1 ![0] bcast_S1650000_S1650000x1_0 d) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s))) (Host.gather gather_S50000_S1650000x1_S1650000_n_0_n_n_0_1_1 (select (cmpf .ogt (Host.scatterAdd scatter_S50000_S1650000x1_S1650000_n_0_0_1 (broadcastInDim S50000 ![] bcast_S_S50000 (constant (F := F) S_ .f32 0x00000000#32)) (broadcastInDim S1650000x1 ![0] bcast_S1650000_S1650000x1_0 d) (broadcastInDim S1650000 ![] bcast_S_S1650000 (constant (F := F) S_ .f32 0x3F800000#32))) (broadcastInDim S50000 ![] bcast_S_S50000 (constant (F := F) S_ .f32 0x00000000#32))) (Host.rsqrt (F := F) (Host.scatterAdd scatter_S50000_S1650000x1_S1650000_n_0_0_1 (broadcastInDim S50000 ![] bcast_S_S50000 (constant (F := F) S_ .f32 0x00000000#32)) (broadcastInDim S1650000x1 ![0] bcast_S1650000_S1650000x1_0 d) (broadcastInDim S1650000 ![] bcast_S_S1650000 (constant (F := F) S_ .f32 0x3F800000#32)))) (broadcastInDim S50000 ![] bcast_S_S50000 (id (constant (F := F) S_ .f32 0x00000000#32)))) (broadcastInDim S1650000x1 ![0] bcast_S1650000_S1650000x1_0 (select (cmpi .slt d (broadcastInDim S1650000 ![] bcast_S_S1650000 (constantI S_ 32 0#32))) (addi d (broadcastInDim S1650000 ![] bcast_S_S1650000 (constantI S_ 32 50000#32))) d)))))

/-- The aggregation of a node-feature array p along given source and destination lists with a given coefficient
    column, plus the bias row. -/
def aggOf (s d : (⟨S1650000, .i32⟩ : BufTy).Contents (Elt F)) (k : (⟨S1650000x1, .f32⟩ : BufTy).Contents (Elt F)) (p : (⟨S50000x160, .f32⟩ : BufTy).Contents (Elt F)) (bias : (⟨S160, .f32⟩ : BufTy).Contents (Elt F)) : (⟨S50000x160, .f32⟩ : BufTy).Contents (Elt F) :=
  (addf (Host.scatterAdd scatter_S50000x160_S1650000x1_S1650000x160_1_0_0_1 (broadcastInDim S50000x160 ![] bcast_S_S50000x160 (constant (F := F) S_ .f32 0x00000000#32)) (broadcastInDim S1650000x1 ![0] bcast_S1650000_S1650000x1_0 d) (mulf (Host.gather gather_S50000x160_S1650000x1_S1650000x160_1_0_n_n_0_1_1160 p (broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s))) (broadcastInDim S1650000x160 ![0, 1] bcast_S1650000x1_S1650000x160_0_1 k))) (broadcastInDim S50000x160 ![0, 1] bcast_S1x160_S50000x160_0_1 (broadcastInDim S1x160 ![1] bcast_S160_S1x160_1 bias)))

/-- The aggregation along the edge list e. -/
def aggregate (e : (⟨S2x1600000, .i32⟩ : BufTy).Contents (Elt F)) (p : (⟨S50000x160, .f32⟩ : BufTy).Contents (Elt F)) (bias : (⟨S160, .f32⟩ : BufTy).Contents (Elt F)) : (⟨S50000x160, .f32⟩ : BufTy).Contents (Elt F) :=
  aggOf (src e) (dst e) (coef (src e) (dst e)) p bias

/-- Normalisation by the running statistics followed by the rectifier. -/
def normRelu (a : (⟨S50000x160, .f32⟩ : BufTy).Contents (Elt F)) (g b mu var : (⟨S160, .f32⟩ : BufTy).Contents (Elt F)) : (⟨S50000x160, .f32⟩ : BufTy).Contents (Elt F) :=
  (maximumf (addf (mulf (mulf (subf a (broadcastInDim S50000x160 ![0, 1] bcast_S1x160_S50000x160_0_1 (broadcastInDim S1x160 ![1] bcast_S160_S1x160_1 mu))) (broadcastInDim S50000x160 ![0, 1] bcast_S1x160_S50000x160_0_1 (broadcastInDim S1x160 ![1] bcast_S160_S1x160_1 (Host.rsqrt (F := F) (addf var (broadcastInDim S160 ![] bcast_S_S160 (constant (F := F) S_ .f32 0x3727C5AC#32))))))) (broadcastInDim S50000x160 ![0, 1] bcast_S1x160_S50000x160_0_1 (broadcastInDim S1x160 ![1] bcast_S160_S1x160_1 g))) (broadcastInDim S50000x160 ![0, 1] bcast_S1x160_S50000x160_0_1 (broadcastInDim S1x160 ![1] bcast_S160_S1x160_1 b))) (broadcastInDim S50000x160 ![] bcast_S_S50000x160 (constant (F := F) S_ .f32 0x00000000#32)))

/-- The per-graph mean of the node rows: sums per graph id over counts clipped below at one. -/
def pool (batch : (⟨S50000, .i32⟩ : BufTy).Contents (Elt F)) (h : (⟨S50000x160, .f32⟩ : BufTy).Contents (Elt F)) : (⟨S512x160, .f32⟩ : BufTy).Contents (Elt F) :=
  (Host.divf (Host.scatterAdd scatter_S512x160_S50000x1_S50000x160_1_0_0_1 (broadcastInDim S512x160 ![] bcast_S_S512x160 (constant (F := F) S_ .f32 0x00000000#32)) (broadcastInDim S50000x1 ![0] bcast_S50000_S50000x1_0 batch) h) (broadcastInDim S512x160 ![0, 1] bcast_S512x1_S512x160_0_1 (broadcastInDim S512x1 ![0] bcast_S512_S512x1_0 (maximumf (broadcastInDim S512 ![] bcast_S_S512 (id (constant (F := F) S_ .f32 0x3F800000#32))) (Host.scatterAdd scatter_S512_S50000x1_S50000_n_0_0_1 (broadcastInDim S512 ![] bcast_S_S512 (constant (F := F) S_ .f32 0x00000000#32)) (broadcastInDim S50000x1 ![0] bcast_S50000_S50000x1_0 batch) (broadcastInDim S50000 ![] bcast_S_S50000 (constant (F := F) S_ .f32 0x3F800000#32)))))))

/-- The two-layer perceptron head. -/
def head (p : (⟨S512x160, .f32⟩ : BufTy).Contents (Elt F)) (wc1 : (⟨S160x80, .f32⟩ : BufTy).Contents (Elt F)) (bc1 : (⟨S80, .f32⟩ : BufTy).Contents (Elt F)) (wc2 : (⟨S80x2, .f32⟩ : BufTy).Contents (Elt F)) (bc2 : (⟨S2, .f32⟩ : BufTy).Contents (Elt F)) : (⟨S512x2, .f32⟩ : BufTy).Contents (Elt F) :=
  addf (Host.dotGeneral dot_S512x80_S80x2_S512x2_1_0_0_1_n_n none (maximumf (addf (Host.dotGeneral dot_S512x160_S160x80_S512x80_1_0_0_1_n_n none p wc1) (broadcastInDim S512x80 ![0, 1] bcast_S1x80_S512x80_0_1 (broadcastInDim S1x80 ![1] bcast_S80_S1x80_1 bc1))) (broadcastInDim S512x80 ![] bcast_S_S512x80 (constant (F := F) S_ .f32 0x00000000#32))) wc2) (broadcastInDim S512x2 ![0, 1] bcast_S1x2_S512x2_0_1 (broadcastInDim S1x2 ![1] bcast_S2_S1x2_1 bc2))

end Cert.ReferenceIdeal.Stages

end
-- ==== Proof.Carry.lean ====
/- Which buffers the segments of the idealized kernel program leave alone. An argument array is written by no host
   operation and by no region (a region only reads it through an input window), so at every segment boundary it still
   holds its launch contents; the source list, the destination list and the edge-coefficient column are written once,
   before the first region, and are carried unchanged to the later host stretches that read them. Each statement walks
   the fold of segments back one segment at a time. -/
import proofs.«131882_j48490180772588_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem arg0_at (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg2_at (c : Dev nD) : W12 m ρ c (Proc.devRef .tc main_arg2) = m ((c : Thread nD τ).loc main_arg2) :=
  calc W12 m ρ c (Proc.devRef .tc main_arg2)
    _ = W11 m ρ c (Proc.devRef .tc main_arg2) := W12_of_ne m ρ c main_arg2 (by decide)
    _ = W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg2) := W10_of_ne m ρ c main_arg2 (by decide)
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg3_at (c : Dev nD) : W3 m ρ c (Proc.devRef .tc main_arg3) = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg4_at (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at (c : Dev nD) : W7 m ρ c (Proc.devRef .tc main_arg6) = m ((c : Thread nD τ).loc main_arg6) :=
  calc W7 m ρ c (Proc.devRef .tc main_arg6)
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg7_at (c : Dev nD) : W9 m ρ c (Proc.devRef .tc main_arg7) = m ((c : Thread nD τ).loc main_arg7) :=
  calc W9 m ρ c (Proc.devRef .tc main_arg7)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg8_at (c : Dev nD) : W10 m ρ c (Proc.devRef .tc main_arg8) = m ((c : Thread nD τ).loc main_arg8) :=
  calc W10 m ρ c (Proc.devRef .tc main_arg8)
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem arg9_at (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg10_at (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem arg11_at (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem arg12_at (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem arg13_at (c : Dev nD) : W7 m ρ c (Proc.devRef .tc main_arg13) = m ((c : Thread nD τ).loc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem arg14_at (c : Dev nD) : W7 m ρ c (Proc.devRef .tc main_arg14) = m ((c : Thread nD τ).loc main_arg14) :=
  calc W7 m ρ c (Proc.devRef .tc main_arg14)
    _ = W6 m ρ c (Proc.devRef .tc main_arg14) := W7_of_ne m ρ c main_arg14 (by decide)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem arg15_at (c : Dev nD) : W7 m ρ c (Proc.devRef .tc main_arg15) = m ((c : Thread nD τ).loc main_arg15) :=
  calc W7 m ρ c (Proc.devRef .tc main_arg15)
    _ = W6 m ρ c (Proc.devRef .tc main_arg15) := W7_of_ne m ρ c main_arg15 (by decide)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem arg16_at (c : Dev nD) : W7 m ρ c (Proc.devRef .tc main_arg16) = m ((c : Thread nD τ).loc main_arg16) :=
  calc W7 m ρ c (Proc.devRef .tc main_arg16)
    _ = W6 m ρ c (Proc.devRef .tc main_arg16) := W7_of_ne m ρ c main_arg16 (by decide)
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem arg17_at (c : Dev nD) : W10 m ρ c (Proc.devRef .tc main_arg17) = m ((c : Thread nD τ).loc main_arg17) :=
  calc W10 m ρ c (Proc.devRef .tc main_arg17)
    _ = W9 m ρ c (Proc.devRef .tc main_arg17) := W10_of_ne m ρ c main_arg17 (by decide)
    _ = W8 m ρ c (Proc.devRef .tc main_arg17) := W9_of_ne m ρ c main_arg17 (by decide)
    _ = W7 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := W7_of_ne m ρ c main_arg17 (by decide)
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := StableHlo.after_of_forall_not_mem (b := Proc.devRef .tc main_arg17) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem arg18_at (c : Dev nD) : W10 m ρ c (Proc.devRef .tc main_arg18) = m ((c : Thread nD τ).loc main_arg18) :=
  calc W10 m ρ c (Proc.devRef .tc main_arg18)
    _ = W9 m ρ c (Proc.devRef .tc main_arg18) := W10_of_ne m ρ c main_arg18 (by decide)
    _ = W8 m ρ c (Proc.devRef .tc main_arg18) := W9_of_ne m ρ c main_arg18 (by decide)
    _ = W7 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := W7_of_ne m ρ c main_arg18 (by decide)
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := StableHlo.after_of_forall_not_mem (b := Proc.devRef .tc main_arg18) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem arg19_at (c : Dev nD) : W10 m ρ c (Proc.devRef .tc main_arg19) = m ((c : Thread nD τ).loc main_arg19) :=
  calc W10 m ρ c (Proc.devRef .tc main_arg19)
    _ = W9 m ρ c (Proc.devRef .tc main_arg19) := W10_of_ne m ρ c main_arg19 (by decide)
    _ = W8 m ρ c (Proc.devRef .tc main_arg19) := W9_of_ne m ρ c main_arg19 (by decide)
    _ = W7 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg19) := W7_of_ne m ρ c main_arg19 (by decide)
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := StableHlo.after_of_forall_not_mem (b := Proc.devRef .tc main_arg19) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem arg20_at (c : Dev nD) : W10 m ρ c (Proc.devRef .tc main_arg20) = m ((c : Thread nD τ).loc main_arg20) :=
  calc W10 m ρ c (Proc.devRef .tc main_arg20)
    _ = W9 m ρ c (Proc.devRef .tc main_arg20) := W10_of_ne m ρ c main_arg20 (by decide)
    _ = W8 m ρ c (Proc.devRef .tc main_arg20) := W9_of_ne m ρ c main_arg20 (by decide)
    _ = W7 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := W7_of_ne m ρ c main_arg20 (by decide)
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := StableHlo.after_of_forall_not_mem (b := Proc.devRef .tc main_arg20) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem arg21_at (c : Dev nD) : W15 m ρ c (Proc.devRef .tc main_arg21) = m ((c : Thread nD τ).loc main_arg21) :=
  calc W15 m ρ c (Proc.devRef .tc main_arg21)
    _ = W14 m ρ c (Proc.devRef .tc main_arg21) := StableHlo.after_of_forall_not_mem (b := Proc.devRef .tc main_arg21) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg21) := StableHlo.after_of_forall_not_mem (b := Proc.devRef .tc main_arg21) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg21) := StableHlo.after_of_forall_not_mem (b := Proc.devRef .tc main_arg21) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg21) := W12_of_ne m ρ c main_arg21 (by decide)
    _ = W10 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg21) := W10_of_ne m ρ c main_arg21 (by decide)
    _ = W8 m ρ c (Proc.devRef .tc main_arg21) := W9_of_ne m ρ c main_arg21 (by decide)
    _ = W7 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg21) := W7_of_ne m ρ c main_arg21 (by decide)
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := StableHlo.after_of_forall_not_mem (b := Proc.devRef .tc main_arg21) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem arg22_at (c : Dev nD) : W12 m ρ c (Proc.devRef .tc main_arg22) = m ((c : Thread nD τ).loc main_arg22) :=
  calc W12 m ρ c (Proc.devRef .tc main_arg22)
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg22) := W10_of_ne m ρ c main_arg22 (by decide)
    _ = W8 m ρ c (Proc.devRef .tc main_arg22) := W9_of_ne m ρ c main_arg22 (by decide)
    _ = W7 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg22) := W7_of_ne m ρ c main_arg22 (by decide)
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := StableHlo.after_of_forall_not_mem (b := Proc.devRef .tc main_arg22) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

theorem arg23_at (c : Dev nD) : W15 m ρ c (Proc.devRef .tc main_arg23) = m ((c : Thread nD τ).loc main_arg23) :=
  calc W15 m ρ c (Proc.devRef .tc main_arg23)
    _ = W14 m ρ c (Proc.devRef .tc main_arg23) := StableHlo.after_of_forall_not_mem (b := Proc.devRef .tc main_arg23) _ _ (List.forall_iff_forall_mem.mp (by
          simp only [hostOps6_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg23) := StableHlo.after_of_forall_not_mem (b := Proc.devRef .tc main_arg23) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg23) := StableHlo.after_of_forall_not_mem (b := Proc.devRef .tc main_arg23) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg23) := W12_of_ne m ρ c main_arg23 (by decide)
    _ = W10 m ρ c (Proc.devRef .tc main_arg23) := StableHlo.after_of_forall_not_mem (b := Proc.devRef .tc main_arg23) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg23) := W10_of_ne m ρ c main_arg23 (by decide)
    _ = W8 m ρ c (Proc.devRef .tc main_arg23) := W9_of_ne m ρ c main_arg23 (by decide)
    _ = W7 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := W7_of_ne m ρ c main_arg23 (by decide)
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := W4_of_ne m ρ c main_arg23 (by decide)
    _ = W2 m ρ c (Proc.devRef .tc main_arg23) := StableHlo.after_of_forall_not_mem (b := Proc.devRef .tc main_arg23) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := StableHlo.after_of_forall_not_mem (b := Proc.devRef .tc main_arg23) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

theorem arg24_at (c : Dev nD) : W12 m ρ c (Proc.devRef .tc main_arg24) = m ((c : Thread nD τ).loc main_arg24) :=
  calc W12 m ρ c (Proc.devRef .tc main_arg24)
    _ = W11 m ρ c (Proc.devRef .tc main_arg24) := W12_of_ne m ρ c main_arg24 (by decide)
    _ = W10 m ρ c (Proc.devRef .tc main_arg24) := StableHlo.after_of_forall_not_mem (b := Proc.devRef .tc main_arg24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg24) := W10_of_ne m ρ c main_arg24 (by decide)
    _ = W8 m ρ c (Proc.devRef .tc main_arg24) := W9_of_ne m ρ c main_arg24 (by decide)
    _ = W7 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg24) := W7_of_ne m ρ c main_arg24 (by decide)
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := W4_of_ne m ρ c main_arg24 (by decide)
    _ = W2 m ρ c (Proc.devRef .tc main_arg24) := StableHlo.after_of_forall_not_mem (b := Proc.devRef .tc main_arg24) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := StableHlo.after_of_forall_not_mem (b := Proc.devRef .tc main_arg24) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

theorem v5_4 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

theorem v5_7 (c : Dev nD) : W7 m ρ c (Proc.devRef .tc main_v5) = W4 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v5_10 (c : Dev nD) : W10 m ρ c (Proc.devRef .tc main_v5) = W7 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v6_4 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem v6_7 (c : Dev nD) : W7 m ρ c (Proc.devRef .tc main_v6) = W4 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v6_10 (c : Dev nD) : W10 m ρ c (Proc.devRef .tc main_v6) = W7 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v30_4 (c : Dev nD) : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)

theorem v30_7 (c : Dev nD) : W7 m ρ c (Proc.devRef .tc main_v30) = W4 m ρ c (Proc.devRef .tc main_v30) :=
  calc W7 m ρ c (Proc.devRef .tc main_v30)
    _ = W6 m ρ c (Proc.devRef .tc main_v30) := W7_of_ne m ρ c main_v30 (by decide)
    _ = W5 m ρ c (Proc.devRef .tc main_v30) := W6_of_ne m ρ c main_v30 (by decide)
    _ = W4 m ρ c (Proc.devRef .tc main_v30) := StableHlo.after_of_forall_not_mem (b := Proc.devRef .tc main_v30) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem v30_10 (c : Dev nD) : W10 m ρ c (Proc.devRef .tc main_v30) = W7 m ρ c (Proc.devRef .tc main_v30) :=
  calc W10 m ρ c (Proc.devRef .tc main_v30)
    _ = W9 m ρ c (Proc.devRef .tc main_v30) := W10_of_ne m ρ c main_v30 (by decide)
    _ = W8 m ρ c (Proc.devRef .tc main_v30) := W9_of_ne m ρ c main_v30 (by decide)
    _ = W7 m ρ c (Proc.devRef .tc main_v30) := StableHlo.after_of_forall_not_mem (b := Proc.devRef .tc main_v30) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Carry

end
-- ==== Proof.Linear0.lean ====
/-
  Region 0 of the kernel program: a row-blocked matrix product.

  Mathematics. The grid has ten points; point t stages rows 5000 t … 5000 t + 4999 of the left operand A (50000 x 128) and
  the whole right operand B (128 x 160), and writes back the same rows of the product. On the extended reals the
  conversion to bf16 on the way into the product is the identity and a product accumulated into the zero splat is the
  plain sum over the contracted axis, so the entry the body stores at row r, column c of its block is
  ∑ₖ A(5000 t + r, k) · B(k, c): row 5000 t + r, column c of the whole product A · B, which is what the host's dot_general
  of A and B is. Row i of the output lies in the block of point i / 5000, so the ten blocks tile the output array and the
  region leaves the whole product there.
-/
import proofs.«131882_j48490180772588_1_alg».proof.Proof.Gen.KernelIdeal.Frame
import proofs.«131882_j48490180772588_1_alg».proof.Proof.Gen.ReferenceIdeal
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Linear0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The region's three arrays, in window order. -/
theorem arrRef : Pipeline.arrRef spec0 0 = main_arg0 ∧ Pipeline.arrRef spec0 1 = main_arg3 ∧ Pipeline.arrRef spec0 2 = main_v31 :=
  ⟨rfl, rfl, rfl⟩

theorem zero2 : (![0, 0] : Fin 2 → Nat) = fun _ => 0 := funext fun a => by fin_cases a <;> rfl

/-! ## The block product at an entry -/

/-- Row r of a left block, at contraction position k. -/
abbrev blkRow (j : S5000x160.Idx) (k : Fin 128) : S5000x128.Idx := fun a => match a with
  | ⟨0, _⟩ => ⟨(j 0).val, (j 0).isLt⟩
  | ⟨1, _⟩ => ⟨k.val, k.isLt⟩
/-- Column c of the right operand, at contraction position k. -/
abbrev blkCol (j : S5000x160.Idx) (k : Fin 128) : S128x160.Idx := fun a => match a with
  | ⟨0, _⟩ => ⟨k.val, k.isLt⟩
  | ⟨1, _⟩ => ⟨(j 1).val, (j 1).isLt⟩

theorem blk_lhs_0 (i : S5000x160.Idx) (q : Cert.KernelIdeal.dot_S5000x128_S128x160_S5000x160_1_0_0_1_n_n.contr.Idx) :
    (Cert.KernelIdeal.dot_S5000x128_S128x160_S5000x160_1_0_0_1_n_n.lhsIdx i q 0).val = (i 0).val := by
  unfold DotDims.lhsIdx
  rw [dif_neg (show ¬(0 : Fin S5000x128.rank) ∈ Cert.KernelIdeal.dot_S5000x128_S128x160_S5000x160_1_0_0_1_n_n.lhsBatch by decide), dif_pos (show (0 : Fin S5000x128.rank) ∈ Cert.KernelIdeal.dot_S5000x128_S128x160_S5000x160_1_0_0_1_n_n.lhsNonContracting by decide)]
  rfl
theorem blk_lhs_1 (i : S5000x160.Idx) (q : Cert.KernelIdeal.dot_S5000x128_S128x160_S5000x160_1_0_0_1_n_n.contr.Idx) :
    (Cert.KernelIdeal.dot_S5000x128_S128x160_S5000x160_1_0_0_1_n_n.lhsIdx i q 1).val = (q ⟨0, by decide⟩).val :=
  (Cert.KernelIdeal.dot_S5000x128_S128x160_S5000x160_1_0_0_1_n_n).lhsIdx_val_of_single rfl i q
theorem blk_rhs_0 (i : S5000x160.Idx) (q : Cert.KernelIdeal.dot_S5000x128_S128x160_S5000x160_1_0_0_1_n_n.contr.Idx) :
    (Cert.KernelIdeal.dot_S5000x128_S128x160_S5000x160_1_0_0_1_n_n.rhsIdx i q 0).val = (q ⟨0, by decide⟩).val :=
  (Cert.KernelIdeal.dot_S5000x128_S128x160_S5000x160_1_0_0_1_n_n).rhsIdx_val_of_single rfl i q
theorem blk_rhs_1 (i : S5000x160.Idx) (q : Cert.KernelIdeal.dot_S5000x128_S128x160_S5000x160_1_0_0_1_n_n.contr.Idx) :
    (Cert.KernelIdeal.dot_S5000x128_S128x160_S5000x160_1_0_0_1_n_n.rhsIdx i q 1).val = (i 1).val := by
  unfold DotDims.rhsIdx
  rw [dif_neg (show ¬(1 : Fin S128x160.rank) ∈ Cert.KernelIdeal.dot_S5000x128_S128x160_S5000x160_1_0_0_1_n_n.rhsBatch by decide), dif_pos (show (1 : Fin S128x160.rank) ∈ Cert.KernelIdeal.dot_S5000x128_S128x160_S5000x160_1_0_0_1_n_n.rhsNonContracting by decide)]
  rfl

/-- The body's payload at row r, column c of a block: the sum over the contracted axis of the left block's row times
    the right operand's column. -/
theorem pay_apply (x0 : Vec Ideal S5000x128 .f32) (x1 : Vec Ideal S128x160 .f32) (j : S5000x160.Idx) :
    k0_pay1 (F := Ideal) x0 x1 j = ∑ k : Fin 128, x0 (blkRow j k) * x1 (blkCol j k) := by
  unfold k0_pay1
  refine (Ideal.matmul_constant_zero_apply (φ₁ := .bf16) (φ₂ := .bf16) Cert.KernelIdeal.dot_S5000x128_S128x160_S5000x160_1_0_0_1_n_n none x0 x1 j).trans ?_
  rw [← Equiv.sum_comp (ValueIdx.contrEquiv1 Cert.KernelIdeal.dot_S5000x128_S128x160_S5000x160_1_0_0_1_n_n 128 rfl rfl).symm]
  refine Finset.sum_congr rfl fun k _ => ?_
  have hk := ValueIdx.contrEquiv1_symm_val Cert.KernelIdeal.dot_S5000x128_S128x160_S5000x160_1_0_0_1_n_n 128 rfl rfl k
  have el : Cert.KernelIdeal.dot_S5000x128_S128x160_S5000x160_1_0_0_1_n_n.lhsIdx j ((ValueIdx.contrEquiv1 Cert.KernelIdeal.dot_S5000x128_S128x160_S5000x160_1_0_0_1_n_n 128 rfl rfl).symm k) = blkRow j k := funext fun a => Fin.ext (by
    match a with
    | ⟨0, _⟩ => exact blk_lhs_0 _ _
    | ⟨1, _⟩ => exact (blk_lhs_1 _ _).trans hk)
  have er : Cert.KernelIdeal.dot_S5000x128_S128x160_S5000x160_1_0_0_1_n_n.rhsIdx j ((ValueIdx.contrEquiv1 Cert.KernelIdeal.dot_S5000x128_S128x160_S5000x160_1_0_0_1_n_n 128 rfl rfl).symm k) = blkCol j k := funext fun a => Fin.ext (by
    match a with
    | ⟨0, _⟩ => exact (blk_rhs_0 _ _).trans hk
    | ⟨1, _⟩ => exact blk_rhs_1 _ _)
  rw [el, er]

/-! ## The whole product at an entry -/

/-- The whole product of the two operand arrays, as the host's contraction spells it. -/
abbrev prod (A : FVec Ideal S50000x128 .f32) (B : FVec Ideal S128x160 .f32) : FVec Ideal S50000x160 .f32 :=
  Host.dotGeneral (F := Ideal) (φ₁ := .f32) (φ₂ := .f32) Cert.ReferenceIdeal.dot_S50000x128_S128x160_S50000x160_1_0_0_1_n_n none A B

/-- Row i of the left operand, at contraction position k. -/
abbrev row (i : S50000x160.Idx) (k : Fin 128) : S50000x128.Idx := fun a => match a with
  | ⟨0, _⟩ => ⟨(i 0).val, (i 0).isLt⟩
  | ⟨1, _⟩ => ⟨k.val, k.isLt⟩
/-- Column c of the right operand, at contraction position k. -/
abbrev col (i : S50000x160.Idx) (k : Fin 128) : S128x160.Idx := fun a => match a with
  | ⟨0, _⟩ => ⟨k.val, k.isLt⟩
  | ⟨1, _⟩ => ⟨(i 1).val, (i 1).isLt⟩

theorem lhs_0 (i : S50000x160.Idx) (q : Cert.ReferenceIdeal.dot_S50000x128_S128x160_S50000x160_1_0_0_1_n_n.contr.Idx) :
    (Cert.ReferenceIdeal.dot_S50000x128_S128x160_S50000x160_1_0_0_1_n_n.lhsIdx i q 0).val = (i 0).val := by
  unfold DotDims.lhsIdx
  rw [dif_neg (show ¬(0 : Fin S50000x128.rank) ∈ Cert.ReferenceIdeal.dot_S50000x128_S128x160_S50000x160_1_0_0_1_n_n.lhsBatch by decide), dif_pos (show (0 : Fin S50000x128.rank) ∈ Cert.ReferenceIdeal.dot_S50000x128_S128x160_S50000x160_1_0_0_1_n_n.lhsNonContracting by decide)]
  rfl
theorem lhs_1 (i : S50000x160.Idx) (q : Cert.ReferenceIdeal.dot_S50000x128_S128x160_S50000x160_1_0_0_1_n_n.contr.Idx) :
    (Cert.ReferenceIdeal.dot_S50000x128_S128x160_S50000x160_1_0_0_1_n_n.lhsIdx i q 1).val = (q ⟨0, by decide⟩).val :=
  (Cert.ReferenceIdeal.dot_S50000x128_S128x160_S50000x160_1_0_0_1_n_n).lhsIdx_val_of_single rfl i q
theorem rhs_0 (i : S50000x160.Idx) (q : Cert.ReferenceIdeal.dot_S50000x128_S128x160_S50000x160_1_0_0_1_n_n.contr.Idx) :
    (Cert.ReferenceIdeal.dot_S50000x128_S128x160_S50000x160_1_0_0_1_n_n.rhsIdx i q 0).val = (q ⟨0, by decide⟩).val :=
  (Cert.ReferenceIdeal.dot_S50000x128_S128x160_S50000x160_1_0_0_1_n_n).rhsIdx_val_of_single rfl i q
theorem rhs_1 (i : S50000x160.Idx) (q : Cert.ReferenceIdeal.dot_S50000x128_S128x160_S50000x160_1_0_0_1_n_n.contr.Idx) :
    (Cert.ReferenceIdeal.dot_S50000x128_S128x160_S50000x160_1_0_0_1_n_n.rhsIdx i q 1).val = (i 1).val := by
  unfold DotDims.rhsIdx
  rw [dif_neg (show ¬(1 : Fin S128x160.rank) ∈ Cert.ReferenceIdeal.dot_S50000x128_S128x160_S50000x160_1_0_0_1_n_n.rhsBatch by decide), dif_pos (show (1 : Fin S128x160.rank) ∈ Cert.ReferenceIdeal.dot_S50000x128_S128x160_S50000x160_1_0_0_1_n_n.rhsNonContracting by decide)]
  rfl

/-- The whole product at row i, column c: the sum over the contracted axis of the row times the column. -/
theorem prod_apply (A : FVec Ideal S50000x128 .f32) (B : FVec Ideal S128x160 .f32) (i : S50000x160.Idx) :
    prod A B i = ∑ k : Fin 128, A (row i k) * B (col i k) := by
  refine (Ideal.dotGeneral_apply (φ₁ := .f32) (φ₂ := .f32) Cert.ReferenceIdeal.dot_S50000x128_S128x160_S50000x160_1_0_0_1_n_n none .single A B i).trans ?_
  rw [← Equiv.sum_comp (ValueIdx.contrEquiv1 Cert.ReferenceIdeal.dot_S50000x128_S128x160_S50000x160_1_0_0_1_n_n 128 rfl rfl).symm]
  refine Finset.sum_congr rfl fun k _ => ?_
  have hk := ValueIdx.contrEquiv1_symm_val Cert.ReferenceIdeal.dot_S50000x128_S128x160_S50000x160_1_0_0_1_n_n 128 rfl rfl k
  have el : Cert.ReferenceIdeal.dot_S50000x128_S128x160_S50000x160_1_0_0_1_n_n.lhsIdx i ((ValueIdx.contrEquiv1 Cert.ReferenceIdeal.dot_S50000x128_S128x160_S50000x160_1_0_0_1_n_n 128 rfl rfl).symm k) = row i k := funext fun a => Fin.ext (by
    match a with
    | ⟨0, _⟩ => exact lhs_0 _ _
    | ⟨1, _⟩ => exact (lhs_1 _ _).trans hk)
  have er : Cert.ReferenceIdeal.dot_S50000x128_S128x160_S50000x160_1_0_0_1_n_n.rhsIdx i ((ValueIdx.contrEquiv1 Cert.ReferenceIdeal.dot_S50000x128_S128x160_S50000x160_1_0_0_1_n_n 128 rfl rfl).symm k) = col i k := funext fun a => Fin.ext (by
    match a with
    | ⟨0, _⟩ => exact (rhs_0 _ _).trans hk
    | ⟨1, _⟩ => exact rhs_1 _ _)
  rw [el, er]

/-! ## From the ten blocks to the array -/

/-- The printed index maps over the ten points: the left operand's row block moves with the output's, every other
    block index is zero, and the output's row block index is at most nine. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block of the output is some point's. -/
theorem idx_onto : ∀ q : Fin 10, ∃ t : Fin cfg0.N, win0_2.index t = ![q.val, 0] :=
  (by decide +kernel : ∀ q : Fin 10, ∃ t : Fin grid0.N, win0_2.index t = ![q.val, 0])

/-- What point t writes back is block t of the whole product of the operand arrays as the region finds them. -/
theorem flushed_eq (c : Dev nD) (t : Fin cfg0.N) :
    (dat0 (F := Ideal) V c).flushed 2 t = ((cfg0.win 2).blk t).view.read (Elt Ideal) (prod (V c main_arg0) (V c main_arg3)) := by
  show (cfg0.win 2).cut (grid0.coords t) ((dat0 (F := Ideal) V c).after 2 t) = _
  rw [after0_2]
  unfold out0_2
  rw [View.canon_unit_zero zero2]
  simp only [View.ld_unit_zero (S := S5000x128) zero2, View.ld_unit_zero (S := S128x160) zero2]
  obtain ⟨e0, e1, e2, e3, e4, e5⟩ := idx_facts t
  funext j
  show k0_pay1 (F := Ideal) (iblk0 V c 0 t) (iblk0 V c 1 t) j = prod (V c main_arg0) (V c main_arg3) (((cfg0.win 2).blk t).view.emb j)
  refine (pay_apply (iblk0 V c 0 t) (iblk0 V c 1 t) j).trans ?_
  refine Eq.trans ?_ (prod_apply (V c main_arg0) (V c main_arg3) (((cfg0.win 2).blk t).view.emb j)).symm
  refine Finset.sum_congr rfl fun k _ => ?_
  have hl : ((cfg0.win 0).blk t).view.emb (blkRow j k) = row (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (blkCol j k) = col (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 160 + 1 * (j 1).val = win0_2.index t (1 : Fin 2) * 160 + 1 * (j 1).val; omega
  have hL : iblk0 (F := Ideal) V c 0 t (blkRow j k) = V c main_arg0 (row (((cfg0.win 2).blk t).view.emb j) k) := by
    show V c main_arg0 (((cfg0.win 0).blk t).view.emb (blkRow j k)) = _
    rw [hl]
  have hR : iblk0 (F := Ideal) V c 1 t (blkCol j k) = V c main_arg3 (col (((cfg0.win 2).blk t).view.emb j) k) := by
    show V c main_arg3 (((cfg0.win 1).blk t).view.emb (blkCol j k)) = _
    rw [hr]
  rw [hL, hR]

/-- An index of the output array is in point t's block iff each coordinate is in the block's range on its axis. -/
theorem mem_blk (t : Fin cfg0.N) (i : S50000x160.Idx) :
    i ∈ ((cfg0.win 2).blk t).view.set ↔ ∀ a : Fin 2, win0_2.index t a * S5000x160.size a ≤ (i a).val ∧ (i a).val < win0_2.index t a * S5000x160.size a + S5000x160.size a := by
  show i ∈ ((View.whole main_v31).slice (win0_2.rect t)).set ↔ _
  rw [View.set_slice_whole, Rect.mem_set_unit]
  exact Iff.rfl

/-- The ten row blocks tile the output array: row i lies in the block of point i / 5000. -/
theorem cover (i : S50000x160.Idx) : ∃ t : Fin cfg0.N, (cfg0.win 2).flush t = true ∧ i ∈ ((cfg0.win 2).blk t).view.set := by
  have hi0 : (i 0).val < 50000 := (i 0).isLt
  have hi1 : (i 1).val < 160 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 160 ≤ (i 1).val ∧ (i 1).val < win0_2.index t (1 : Fin 2) * 160 + 160; omega

/-- THE REGION'S OUTPUT ARRAY after its ten points: the host's dot_general of its two operand arrays as it found them. -/
theorem final (c : Dev nD) :
    (dat0 (F := Ideal) V c).arrAt 2 cfg0.N
      = Host.dotGeneral (F := Ideal) (φ₁ := .f32) (φ₂ := .f32) Cert.ReferenceIdeal.dot_S50000x128_S128x160_S50000x160_1_0_0_1_n_n none (V c main_arg0) (V c main_arg3) :=
  (dat0 (F := Ideal) V c).arrAt_eq_of_cover 2 (prod (V c main_arg0) (V c main_arg3)) (fun t _ => flushed_eq V c t) cover

end Cert.KernelIdeal.Linear0

end
-- ==== Proof.Linear2.lean ====
/-
  Region 2 of the kernel program: a row-blocked matrix product.

  Mathematics. The grid has ten points; point t stages rows 5000 t … 5000 t + 4999 of the left operand A (50000 x 160) and
  the whole right operand B (160 x 160), and writes back the same rows of the product. On the extended reals the
  conversion to bf16 on the way into the product is the identity and a product accumulated into the zero splat is the
  plain sum over the contracted axis, so the entry the body stores at row r, column c of its block is
  ∑ₖ A(5000 t + r, k) · B(k, c): row 5000 t + r, column c of the whole product A · B, which is what the host's dot_general
  of A and B is. Row i of the output lies in the block of point i / 5000, so the ten blocks tile the output array and the
  region leaves the whole product there.
-/
import proofs.«131882_j48490180772588_1_alg».proof.Proof.Gen.KernelIdeal.Frame
import proofs.«131882_j48490180772588_1_alg».proof.Proof.Gen.ReferenceIdeal
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Linear2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The region's three arrays, in window order. -/
theorem arrRef : Pipeline.arrRef spec2 0 = main_v51 ∧ Pipeline.arrRef spec2 1 = main_arg5 ∧ Pipeline.arrRef spec2 2 = main_v52 :=
  ⟨rfl, rfl, rfl⟩

theorem zero2 : (![0, 0] : Fin 2 → Nat) = fun _ => 0 := funext fun a => by fin_cases a <;> rfl

/-! ## The block product at an entry -/

/-- Row r of a left block, at contraction position k. -/
abbrev blkRow (j : S5000x160.Idx) (k : Fin 160) : S5000x160.Idx := fun a => match a with
  | ⟨0, _⟩ => ⟨(j 0).val, (j 0).isLt⟩
  | ⟨1, _⟩ => ⟨k.val, k.isLt⟩
/-- Column c of the right operand, at contraction position k. -/
abbrev blkCol (j : S5000x160.Idx) (k : Fin 160) : S160x160.Idx := fun a => match a with
  | ⟨0, _⟩ => ⟨k.val, k.isLt⟩
  | ⟨1, _⟩ => ⟨(j 1).val, (j 1).isLt⟩

theorem blk_lhs_0 (i : S5000x160.Idx) (q : Cert.KernelIdeal.dot_S5000x160_S160x160_S5000x160_1_0_0_1_n_n.contr.Idx) :
    (Cert.KernelIdeal.dot_S5000x160_S160x160_S5000x160_1_0_0_1_n_n.lhsIdx i q 0).val = (i 0).val := by
  unfold DotDims.lhsIdx
  rw [dif_neg (show ¬(0 : Fin S5000x160.rank) ∈ Cert.KernelIdeal.dot_S5000x160_S160x160_S5000x160_1_0_0_1_n_n.lhsBatch by decide), dif_pos (show (0 : Fin S5000x160.rank) ∈ Cert.KernelIdeal.dot_S5000x160_S160x160_S5000x160_1_0_0_1_n_n.lhsNonContracting by decide)]
  rfl
theorem blk_lhs_1 (i : S5000x160.Idx) (q : Cert.KernelIdeal.dot_S5000x160_S160x160_S5000x160_1_0_0_1_n_n.contr.Idx) :
    (Cert.KernelIdeal.dot_S5000x160_S160x160_S5000x160_1_0_0_1_n_n.lhsIdx i q 1).val = (q ⟨0, by decide⟩).val :=
  (Cert.KernelIdeal.dot_S5000x160_S160x160_S5000x160_1_0_0_1_n_n).lhsIdx_val_of_single rfl i q
theorem blk_rhs_0 (i : S5000x160.Idx) (q : Cert.KernelIdeal.dot_S5000x160_S160x160_S5000x160_1_0_0_1_n_n.contr.Idx) :
    (Cert.KernelIdeal.dot_S5000x160_S160x160_S5000x160_1_0_0_1_n_n.rhsIdx i q 0).val = (q ⟨0, by decide⟩).val :=
  (Cert.KernelIdeal.dot_S5000x160_S160x160_S5000x160_1_0_0_1_n_n).rhsIdx_val_of_single rfl i q
theorem blk_rhs_1 (i : S5000x160.Idx) (q : Cert.KernelIdeal.dot_S5000x160_S160x160_S5000x160_1_0_0_1_n_n.contr.Idx) :
    (Cert.KernelIdeal.dot_S5000x160_S160x160_S5000x160_1_0_0_1_n_n.rhsIdx i q 1).val = (i 1).val := by
  unfold DotDims.rhsIdx
  rw [dif_neg (show ¬(1 : Fin S160x160.rank) ∈ Cert.KernelIdeal.dot_S5000x160_S160x160_S5000x160_1_0_0_1_n_n.rhsBatch by decide), dif_pos (show (1 : Fin S160x160.rank) ∈ Cert.KernelIdeal.dot_S5000x160_S160x160_S5000x160_1_0_0_1_n_n.rhsNonContracting by decide)]
  rfl

/-- The body's payload at row r, column c of a block: the sum over the contracted axis of the left block's row times
    the right operand's column. -/
theorem pay_apply (x0 : Vec Ideal S5000x160 .f32) (x1 : Vec Ideal S160x160 .f32) (j : S5000x160.Idx) :
    k2_pay1 (F := Ideal) x0 x1 j = ∑ k : Fin 160, x0 (blkRow j k) * x1 (blkCol j k) := by
  unfold k2_pay1
  simp only [shapeCast_self]
  refine (Ideal.matmul_constant_zero_apply (φ₁ := .bf16) (φ₂ := .bf16) Cert.KernelIdeal.dot_S5000x160_S160x160_S5000x160_1_0_0_1_n_n none x0 x1 j).trans ?_
  rw [← Equiv.sum_comp (ValueIdx.contrEquiv1 Cert.KernelIdeal.dot_S5000x160_S160x160_S5000x160_1_0_0_1_n_n 160 rfl rfl).symm]
  refine Finset.sum_congr rfl fun k _ => ?_
  have hk := ValueIdx.contrEquiv1_symm_val Cert.KernelIdeal.dot_S5000x160_S160x160_S5000x160_1_0_0_1_n_n 160 rfl rfl k
  have el : Cert.KernelIdeal.dot_S5000x160_S160x160_S5000x160_1_0_0_1_n_n.lhsIdx j ((ValueIdx.contrEquiv1 Cert.KernelIdeal.dot_S5000x160_S160x160_S5000x160_1_0_0_1_n_n 160 rfl rfl).symm k) = blkRow j k := funext fun a => Fin.ext (by
    match a with
    | ⟨0, _⟩ => exact blk_lhs_0 _ _
    | ⟨1, _⟩ => exact (blk_lhs_1 _ _).trans hk)
  have er : Cert.KernelIdeal.dot_S5000x160_S160x160_S5000x160_1_0_0_1_n_n.rhsIdx j ((ValueIdx.contrEquiv1 Cert.KernelIdeal.dot_S5000x160_S160x160_S5000x160_1_0_0_1_n_n 160 rfl rfl).symm k) = blkCol j k := funext fun a => Fin.ext (by
    match a with
    | ⟨0, _⟩ => exact (blk_rhs_0 _ _).trans hk
    | ⟨1, _⟩ => exact blk_rhs_1 _ _)
  rw [el, er]

/-! ## The whole product at an entry -/

/-- The whole product of the two operand arrays, as the host's contraction spells it. -/
abbrev prod (A : FVec Ideal S50000x160 .f32) (B : FVec Ideal S160x160 .f32) : FVec Ideal S50000x160 .f32 :=
  Host.dotGeneral (F := Ideal) (φ₁ := .f32) (φ₂ := .f32) Cert.ReferenceIdeal.dot_S50000x160_S160x160_S50000x160_1_0_0_1_n_n none A B

/-- Row i of the left operand, at contraction position k. -/
abbrev row (i : S50000x160.Idx) (k : Fin 160) : S50000x160.Idx := fun a => match a with
  | ⟨0, _⟩ => ⟨(i 0).val, (i 0).isLt⟩
  | ⟨1, _⟩ => ⟨k.val, k.isLt⟩
/-- Column c of the right operand, at contraction position k. -/
abbrev col (i : S50000x160.Idx) (k : Fin 160) : S160x160.Idx := fun a => match a with
  | ⟨0, _⟩ => ⟨k.val, k.isLt⟩
  | ⟨1, _⟩ => ⟨(i 1).val, (i 1).isLt⟩

theorem lhs_0 (i : S50000x160.Idx) (q : Cert.ReferenceIdeal.dot_S50000x160_S160x160_S50000x160_1_0_0_1_n_n.contr.Idx) :
    (Cert.ReferenceIdeal.dot_S50000x160_S160x160_S50000x160_1_0_0_1_n_n.lhsIdx i q 0).val = (i 0).val := by
  unfold DotDims.lhsIdx
  rw [dif_neg (show ¬(0 : Fin S50000x160.rank) ∈ Cert.ReferenceIdeal.dot_S50000x160_S160x160_S50000x160_1_0_0_1_n_n.lhsBatch by decide), dif_pos (show (0 : Fin S50000x160.rank) ∈ Cert.ReferenceIdeal.dot_S50000x160_S160x160_S50000x160_1_0_0_1_n_n.lhsNonContracting by decide)]
  rfl
theorem lhs_1 (i : S50000x160.Idx) (q : Cert.ReferenceIdeal.dot_S50000x160_S160x160_S50000x160_1_0_0_1_n_n.contr.Idx) :
    (Cert.ReferenceIdeal.dot_S50000x160_S160x160_S50000x160_1_0_0_1_n_n.lhsIdx i q 1).val = (q ⟨0, by decide⟩).val :=
  (Cert.ReferenceIdeal.dot_S50000x160_S160x160_S50000x160_1_0_0_1_n_n).lhsIdx_val_of_single rfl i q
theorem rhs_0 (i : S50000x160.Idx) (q : Cert.ReferenceIdeal.dot_S50000x160_S160x160_S50000x160_1_0_0_1_n_n.contr.Idx) :
    (Cert.ReferenceIdeal.dot_S50000x160_S160x160_S50000x160_1_0_0_1_n_n.rhsIdx i q 0).val = (q ⟨0, by decide⟩).val :=
  (Cert.ReferenceIdeal.dot_S50000x160_S160x160_S50000x160_1_0_0_1_n_n).rhsIdx_val_of_single rfl i q
theorem rhs_1 (i : S50000x160.Idx) (q : Cert.ReferenceIdeal.dot_S50000x160_S160x160_S50000x160_1_0_0_1_n_n.contr.Idx) :
    (Cert.ReferenceIdeal.dot_S50000x160_S160x160_S50000x160_1_0_0_1_n_n.rhsIdx i q 1).val = (i 1).val := by
  unfold DotDims.rhsIdx
  rw [dif_neg (show ¬(1 : Fin S160x160.rank) ∈ Cert.ReferenceIdeal.dot_S50000x160_S160x160_S50000x160_1_0_0_1_n_n.rhsBatch by decide), dif_pos (show (1 : Fin S160x160.rank) ∈ Cert.ReferenceIdeal.dot_S50000x160_S160x160_S50000x160_1_0_0_1_n_n.rhsNonContracting by decide)]
  rfl

/-- The whole product at row i, column c: the sum over the contracted axis of the row times the column. -/
theorem prod_apply (A : FVec Ideal S50000x160 .f32) (B : FVec Ideal S160x160 .f32) (i : S50000x160.Idx) :
    prod A B i = ∑ k : Fin 160, A (row i k) * B (col i k) := by
  refine (Ideal.dotGeneral_apply (φ₁ := .f32) (φ₂ := .f32) Cert.ReferenceIdeal.dot_S50000x160_S160x160_S50000x160_1_0_0_1_n_n none .single A B i).trans ?_
  rw [← Equiv.sum_comp (ValueIdx.contrEquiv1 Cert.ReferenceIdeal.dot_S50000x160_S160x160_S50000x160_1_0_0_1_n_n 160 rfl rfl).symm]
  refine Finset.sum_congr rfl fun k _ => ?_
  have hk := ValueIdx.contrEquiv1_symm_val Cert.ReferenceIdeal.dot_S50000x160_S160x160_S50000x160_1_0_0_1_n_n 160 rfl rfl k
  have el : Cert.ReferenceIdeal.dot_S50000x160_S160x160_S50000x160_1_0_0_1_n_n.lhsIdx i ((ValueIdx.contrEquiv1 Cert.ReferenceIdeal.dot_S50000x160_S160x160_S50000x160_1_0_0_1_n_n 160 rfl rfl).symm k) = row i k := funext fun a => Fin.ext (by
    match a with
    | ⟨0, _⟩ => exact lhs_0 _ _
    | ⟨1, _⟩ => exact (lhs_1 _ _).trans hk)
  have er : Cert.ReferenceIdeal.dot_S50000x160_S160x160_S50000x160_1_0_0_1_n_n.rhsIdx i ((ValueIdx.contrEquiv1 Cert.ReferenceIdeal.dot_S50000x160_S160x160_S50000x160_1_0_0_1_n_n 160 rfl rfl).symm k) = col i k := funext fun a => Fin.ext (by
    match a with
    | ⟨0, _⟩ => exact (rhs_0 _ _).trans hk
    | ⟨1, _⟩ => exact rhs_1 _ _)
  rw [el, er]

/-! ## From the ten blocks to the array -/

/-- The printed index maps over the ten points: the left operand's row block moves with the output's, every other
    block index is zero, and the output's row block index is at most nine. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Every row block of the output is some point's. -/
theorem idx_onto : ∀ q : Fin 10, ∃ t : Fin cfg2.N, win2_2.index t = ![q.val, 0] :=
  (by decide +kernel : ∀ q : Fin 10, ∃ t : Fin grid2.N, win2_2.index t = ![q.val, 0])

/-- What point t writes back is block t of the whole product of the operand arrays as the region finds them. -/
theorem flushed_eq (c : Dev nD) (t : Fin cfg2.N) :
    (dat2 (F := Ideal) V c).flushed 2 t = ((cfg2.win 2).blk t).view.read (Elt Ideal) (prod (V c main_v51) (V c main_arg5)) := by
  show (cfg2.win 2).cut (grid2.coords t) ((dat2 (F := Ideal) V c).after 2 t) = _
  rw [after2_2]
  unfold out2_2
  rw [View.canon_unit_zero zero2]
  simp only [View.ld_unit_zero (S := S5000x160) zero2, View.ld_unit_zero (S := S160x160) zero2]
  obtain ⟨e0, e1, e2, e3, e4, e5⟩ := idx_facts t
  funext j
  show k2_pay1 (F := Ideal) (iblk2 V c 0 t) (iblk2 V c 1 t) j = prod (V c main_v51) (V c main_arg5) (((cfg2.win 2).blk t).view.emb j)
  refine (pay_apply (iblk2 V c 0 t) (iblk2 V c 1 t) j).trans ?_
  refine Eq.trans ?_ (prod_apply (V c main_v51) (V c main_arg5) (((cfg2.win 2).blk t).view.emb j)).symm
  refine Finset.sum_congr rfl fun k _ => ?_
  have hl : ((cfg2.win 0).blk t).view.emb (blkRow j k) = row (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 160 + 1 * k.val = k.val; omega
  have hr : ((cfg2.win 1).blk t).view.emb (blkCol j k) = col (((cfg2.win 2).blk t).view.emb j) k := by
    funext a; apply Fin.ext
    match a with
    | ⟨0, _⟩ => show win2_1.index t (0 : Fin 2) * 160 + 1 * k.val = k.val; omega
    | ⟨1, _⟩ => show win2_1.index t (1 : Fin 2) * 160 + 1 * (j 1).val = win2_2.index t (1 : Fin 2) * 160 + 1 * (j 1).val; omega
  have hL : iblk2 (F := Ideal) V c 0 t (blkRow j k) = V c main_v51 (row (((cfg2.win 2).blk t).view.emb j) k) := by
    show V c main_v51 (((cfg2.win 0).blk t).view.emb (blkRow j k)) = _
    rw [hl]
  have hR : iblk2 (F := Ideal) V c 1 t (blkCol j k) = V c main_arg5 (col (((cfg2.win 2).blk t).view.emb j) k) := by
    show V c main_arg5 (((cfg2.win 1).blk t).view.emb (blkCol j k)) = _
    rw [hr]
  rw [hL, hR]

/-- An index of the output array is in point t's block iff each coordinate is in the block's range on its axis. -/
theorem mem_blk (t : Fin cfg2.N) (i : S50000x160.Idx) :
    i ∈ ((cfg2.win 2).blk t).view.set ↔ ∀ a : Fin 2, win2_2.index t a * S5000x160.size a ≤ (i a).val ∧ (i a).val < win2_2.index t a * S5000x160.size a + S5000x160.size a := by
  show i ∈ ((View.whole main_v52).slice (win2_2.rect t)).set ↔ _
  rw [View.set_slice_whole, Rect.mem_set_unit]
  exact Iff.rfl

/-- The ten row blocks tile the output array: row i lies in the block of point i / 5000. -/
theorem cover (i : S50000x160.Idx) : ∃ t : Fin cfg2.N, (cfg2.win 2).flush t = true ∧ i ∈ ((cfg2.win 2).blk t).view.set := by
  have hi0 : (i 0).val < 50000 := (i 0).isLt
  have hi1 : (i 1).val < 160 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 160 ≤ (i 1).val ∧ (i 1).val < win2_2.index t (1 : Fin 2) * 160 + 160; omega

/-- THE REGION'S OUTPUT ARRAY after its ten points: the host's dot_general of its two operand arrays as it found them. -/
theorem final (c : Dev nD) :
    (dat2 (F := Ideal) V c).arrAt 2 cfg2.N
      = Host.dotGeneral (F := Ideal) (φ₁ := .f32) (φ₂ := .f32) Cert.ReferenceIdeal.dot_S50000x160_S160x160_S50000x160_1_0_0_1_n_n none (V c main_v51) (V c main_arg5) :=
  (dat2 (F := Ideal) V c).arrAt_eq_of_cover 2 (prod (V c main_v51) (V c main_arg5)) (fun t _ => flushed_eq V c t) cover

end Cert.KernelIdeal.Linear2

end
-- ==== Proof.Linear4.lean ====
/-
  Region 4 of the kernel program: a row-blocked matrix product.

  Mathematics. The grid has ten points; point t stages rows 5000 t … 5000 t + 4999 of the left operand A (50000 x 160) and
  the whole right operand B (160 x 160), and writes back the same rows of the product. On the extended reals the
  conversion to bf16 on the way into the product is the identity and a product accumulated into the zero splat is the
  plain sum over the contracted axis, so the entry the body stores at row r, column c of its block is
  ∑ₖ A(5000 t + r, k) · B(k, c): row 5000 t + r, column c of the whole product A · B, which is what the host's dot_general
  of A and B is. Row i of the output lies in the block of point i / 5000, so the ten blocks tile the output array and the
  region leaves the whole product there.
-/
import proofs.«131882_j48490180772588_1_alg».proof.Proof.Gen.KernelIdeal.Frame
import proofs.«131882_j48490180772588_1_alg».proof.Proof.Gen.ReferenceIdeal
import Idealize.ShloMosaic.Lib.Pipeline.Value
import Idealize.ShloMosaic.Lib.ValueIdx
import Idealize.ShloMosaic.PureOps.Ideal
import Idealize.ShloMosaic.PureOps.Ideal.Laws

noncomputable section

namespace Cert.KernelIdeal.Linear4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The region's three arrays, in window order. -/
theorem arrRef : Pipeline.arrRef spec4 0 = main_v72 ∧ Pipeline.arrRef spec4 1 = main_arg7 ∧ Pipeline.arrRef spec4 2 = main_v73 :=
  ⟨rfl, rfl, rfl⟩

theorem zero2 : (![0, 0] : Fin 2 → Nat) = fun _ => 0 := funext fun a => by fin_cases a <;> rfl

/-! ## The block product at an entry -/

/-- Row r of a left block, at contraction position k. -/
abbrev blkRow (j : S5000x160.Idx) (k : Fin 160) : S5000x160.Idx := fun a => match a with
  | ⟨0, _⟩ => ⟨(j 0).val, (j 0).isLt⟩
  | ⟨1, _⟩ => ⟨k.val, k.isLt⟩
/-- Column c of the right operand, at contraction position k. -/
abbrev blkCol (j : S5000x160.Idx) (k : Fin 160) : S160x160.Idx := fun a => match a with
  | ⟨0, _⟩ => ⟨k.val, k.isLt⟩
  | ⟨1, _⟩ => ⟨(j 1).val, (j 1).isLt⟩

theorem blk_lhs_0 (i : S5000x160.Idx) (q : Cert.KernelIdeal.dot_S5000x160_S160x160_S5000x160_1_0_0_1_n_n.contr.Idx) :
    (Cert.KernelIdeal.dot_S5000x160_S160x160_S5000x160_1_0_0_1_n_n.lhsIdx i q 0).val = (i 0).val := by
  unfold DotDims.lhsIdx
  rw [dif_neg (show ¬(0 : Fin S5000x160.rank) ∈ Cert.KernelIdeal.dot_S5000x160_S160x160_S5000x160_1_0_0_1_n_n.lhsBatch by decide), dif_pos (show (0 : Fin S5000x160.rank) ∈ Cert.KernelIdeal.dot_S5000x160_S160x160_S5000x160_1_0_0_1_n_n.lhsNonContracting by decide)]
  rfl
theorem blk_lhs_1 (i : S5000x160.Idx) (q : Cert.KernelIdeal.dot_S5000x160_S160x160_S5000x160_1_0_0_1_n_n.contr.Idx) :
    (Cert.KernelIdeal.dot_S5000x160_S160x160_S5000x160_1_0_0_1_n_n.lhsIdx i q 1).val = (q ⟨0, by decide⟩).val :=
  (Cert.KernelIdeal.dot_S5000x160_S160x160_S5000x160_1_0_0_1_n_n).lhsIdx_val_of_single rfl i q
theorem blk_rhs_0 (i : S5000x160.Idx) (q : Cert.KernelIdeal.dot_S5000x160_S160x160_S5000x160_1_0_0_1_n_n.contr.Idx) :
    (Cert.KernelIdeal.dot_S5000x160_S160x160_S5000x160_1_0_0_1_n_n.rhsIdx i q 0).val = (q ⟨0, by decide⟩).val :=
  (Cert.KernelIdeal.dot_S5000x160_S160x160_S5000x160_1_0_0_1_n_n).rhsIdx_val_of_single rfl i q
theorem blk_rhs_1 (i : S5000x160.Idx) (q : Cert.KernelIdeal.dot_S5000x160_S160x160_S5000x160_1_0_0_1_n_n.contr.Idx) :
    (Cert.KernelIdeal.dot_S5000x160_S160x160_S5000x160_1_0_0_1_n_n.rhsIdx i q 1).val = (i 1).val := by
  unfold DotDims.rhsIdx
  rw [dif_neg (show ¬(1 : Fin S160x160.rank) ∈ Cert.KernelIdeal.dot_S5000x160_S160x160_S5000x160_1_0_0_1_n_n.rhsBatch by decide), dif_pos (show (1 : Fin S160x160.rank) ∈ Cert.KernelIdeal.dot_S5000x160_S160x160_S5000x160_1_0_0_1_n_n.rhsNonContracting by decide)]
  rfl

/-- The body's payload at row r, column c of a block: the sum over the contracted axis of the left block's row times
    the right operand's column. -/
theorem pay_apply (x0 : Vec Ideal S5000x160 .f32) (x1 : Vec Ideal S160x160 .f32) (j : S5000x160.Idx) :
    k4_pay1 (F := Ideal) x0 x1 j = ∑ k : Fin 160, x0 (blkRow j k) * x1 (blkCol j k) := by
  unfold k4_pay1
  simp only [shapeCast_self]
  refine (Ideal.matmul_constant_zero_apply (φ₁ := .bf16) (φ₂ := .bf16) Cert.KernelIdeal.dot_S5000x160_S160x160_S5000x160_1_0_0_1_n_n none x0 x1 j).trans ?_
  rw [← Equiv.sum_comp (ValueIdx.contrEquiv1 Cert.KernelIdeal.dot_S5000x160_S160x160_S5000x160_1_0_0_1_n_n 160 rfl rfl).symm]
  refine Finset.sum_congr rfl fun k _ => ?_
  have hk := ValueIdx.contrEquiv1_symm_val Cert.KernelIdeal.dot_S5000x160_S160x160_S5000x160_1_0_0_1_n_n 160 rfl rfl k
  have el : Cert.KernelIdeal.dot_S5000x160_S160x160_S5000x160_1_0_0_1_n_n.lhsIdx j ((ValueIdx.contrEquiv1 Cert.KernelIdeal.dot_S5000x160_S160x160_S5000x160_1_0_0_1_n_n 160 rfl rfl).symm k) = blkRow j k := funext fun a => Fin.ext (by
    match a with
    | ⟨0, _⟩ => exact blk_lhs_0 _ _
    | ⟨1, _⟩ => exact (blk_lhs_1 _ _).trans hk)
  have er : Cert.KernelIdeal.dot_S5000x160_S160x160_S5000x160_1_0_0_1_n_n.rhsIdx j ((ValueIdx.contrEquiv1 Cert.KernelIdeal.dot_S5000x160_S160x160_S5000x160_1_0_0_1_n_n 160 rfl rfl).symm k) = blkCol j k := funext fun a => Fin.ext (by
    match a with
    | ⟨0, _⟩ => exact (blk_rhs_0 _ _).trans hk
    | ⟨1, _⟩ => exact blk_rhs_1 _ _)
  rw [el, er]

/-! ## The whole product at an entry -/

/-- The whole product of the two operand arrays, as the host's contraction spells it. -/
abbrev prod (A : FVec Ideal S50000x160 .f32) (B : FVec Ideal S160x160 .f32) : FVec Ideal S50000x160 .f32 :=
  Host.dotGeneral (F := Ideal) (φ₁ := .f32) (φ₂ := .f32) Cert.ReferenceIdeal.dot_S50000x160_S160x160_S50000x160_1_0_0_1_n_n none A B

/-- Row i of the left operand, at contraction position k. -/
abbrev row (i : S50000x160.Idx) (k : Fin 160) : S50000x160.Idx := fun a => match a with
  | ⟨0, _⟩ => ⟨(i 0).val, (i 0).isLt⟩
  | ⟨1, _⟩ => ⟨k.val, k.isLt⟩
/-- Column c of the right operand, at contraction position k. -/
abbrev col (i : S50000x160.Idx) (k : Fin 160) : S160x160.Idx := fun a => match a with
  | ⟨0, _⟩ => ⟨k.val, k.isLt⟩
  | ⟨1, _⟩ => ⟨(i 1).val, (i 1).isLt⟩

theorem lhs_0 (i : S50000x160.Idx) (q : Cert.ReferenceIdeal.dot_S50000x160_S160x160_S50000x160_1_0_0_1_n_n.contr.Idx) :
    (Cert.ReferenceIdeal.dot_S50000x160_S160x160_S50000x160_1_0_0_1_n_n.lhsIdx i q 0).val = (i 0).val := by
  unfold DotDims.lhsIdx
  rw [dif_neg (show ¬(0 : Fin S50000x160.rank) ∈ Cert.ReferenceIdeal.dot_S50000x160_S160x160_S50000x160_1_0_0_1_n_n.lhsBatch by decide), dif_pos (show (0 : Fin S50000x160.rank) ∈ Cert.ReferenceIdeal.dot_S50000x160_S160x160_S50000x160_1_0_0_1_n_n.lhsNonContracting by decide)]
  rfl
theorem lhs_1 (i : S50000x160.Idx) (q : Cert.ReferenceIdeal.dot_S50000x160_S160x160_S50000x160_1_0_0_1_n_n.contr.Idx) :
    (Cert.ReferenceIdeal.dot_S50000x160_S160x160_S50000x160_1_0_0_1_n_n.lhsIdx i q 1).val = (q ⟨0, by decide⟩).val :=
  (Cert.ReferenceIdeal.dot_S50000x160_S160x160_S50000x160_1_0_0_1_n_n).lhsIdx_val_of_single rfl i q
theorem rhs_0 (i : S50000x160.Idx) (q : Cert.ReferenceIdeal.dot_S50000x160_S160x160_S50000x160_1_0_0_1_n_n.contr.Idx) :
    (Cert.ReferenceIdeal.dot_S50000x160_S160x160_S50000x160_1_0_0_1_n_n.rhsIdx i q 0).val = (q ⟨0, by decide⟩).val :=
  (Cert.ReferenceIdeal.dot_S50000x160_S160x160_S50000x160_1_0_0_1_n_n).rhsIdx_val_of_single rfl i q
theorem rhs_1 (i : S50000x160.Idx) (q : Cert.ReferenceIdeal.dot_S50000x160_S160x160_S50000x160_1_0_0_1_n_n.contr.Idx) :
    (Cert.ReferenceIdeal.dot_S50000x160_S160x160_S50000x160_1_0_0_1_n_n.rhsIdx i q 1).val = (i 1).val := by
  unfold DotDims.rhsIdx
  rw [dif_neg (show ¬(1 : Fin S160x160.rank) ∈ Cert.ReferenceIdeal.dot_S50000x160_S160x160_S50000x160_1_0_0_1_n_n.rhsBatch by decide), dif_pos (show (1 : Fin S160x160.rank) ∈ Cert.ReferenceIdeal.dot_S50000x160_S160x160_S50000x160_1_0_0_1_n_n.rhsNonContracting by decide)]
  rfl

/-- The whole product at row i, column c: the sum over the contracted axis of the row times the column. -/
theorem prod_apply (A : FVec Ideal S50000x160 .f32) (B : FVec Ideal S160x160 .f32) (i : S50000x160.Idx) :
    prod A B i = ∑ k : Fin 160, A (row i k) * B (col i k) := by
  refine (Ideal.dotGeneral_apply (φ₁ := .f32) (φ₂ := .f32) Cert.ReferenceIdeal.dot_S50000x160_S160x160_S50000x160_1_0_0_1_n_n none .single A B i).trans ?_
  rw [← Equiv.sum_comp (ValueIdx.contrEquiv1 Cert.ReferenceIdeal.dot_S50000x160_S160x160_S50000x160_1_0_0_1_n_n 160 rfl rfl).symm]
  refine Finset.sum_congr rfl fun k _ => ?_
  have hk := ValueIdx.contrEquiv1_symm_val Cert.ReferenceIdeal.dot_S50000x160_S160x160_S50000x160_1_0_0_1_n_n 160 rfl rfl k
  have el : Cert.ReferenceIdeal.dot_S50000x160_S160x160_S50000x160_1_0_0_1_n_n.lhsIdx i ((ValueIdx.contrEquiv1 Cert.ReferenceIdeal.dot_S50000x160_S160x160_S50000x160_1_0_0_1_n_n 160 rfl rfl).symm k) = row i k := funext fun a => Fin.ext (by
    match a with
    | ⟨0, _⟩ => exact lhs_0 _ _
    | ⟨1, _⟩ => exact (lhs_1 _ _).trans hk)
  have er : Cert.ReferenceIdeal.dot_S50000x160_S160x160_S50000x160_1_0_0_1_n_n.rhsIdx i ((ValueIdx.contrEquiv1 Cert.ReferenceIdeal.dot_S50000x160_S160x160_S50000x160_1_0_0_1_n_n 160 rfl rfl).symm k) = col i k := funext fun a => Fin.ext (by
    match a with
    | ⟨0, _⟩ => exact (rhs_0 _ _).trans hk
    | ⟨1, _⟩ => exact rhs_1 _ _)
  rw [el, er]

/-! ## From the ten blocks to the array -/

/-- The printed index maps over the ten points: the left operand's row block moves with the output's, every other
    block index is zero, and the output's row block index is at most nine. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 9 :=
  (by decide +kernel : ∀ t : Fin grid4.N, _)

/-- Every row block of the output is some point's. -/
theorem idx_onto : ∀ q : Fin 10, ∃ t : Fin cfg4.N, win4_2.index t = ![q.val, 0] :=
  (by decide +kernel : ∀ q : Fin 10, ∃ t : Fin grid4.N, win4_2.index t = ![q.val, 0])

/-- What point t writes back is block t of the whole product of the operand arrays as the region finds them. -/
theorem flushed_eq (c : Dev nD) (t : Fin cfg4.N) :
    (dat4 (F := Ideal) V c).flushed 2 t = ((cfg4.win 2).blk t).view.read (Elt Ideal) (prod (V c main_v72) (V c main_arg7)) := by
  show (cfg4.win 2).cut (grid4.coords t) ((dat4 (F := Ideal) V c).after 2 t) = _
  rw [after4_2]
  unfold out4_2
  rw [View.canon_unit_zero zero2]
  simp only [View.ld_unit_zero (S := S5000x160) zero2, View.ld_unit_zero (S := S160x160) zero2]
  obtain ⟨e0, e1, e2, e3, e4, e5⟩ := idx_facts t
  funext j
  show k4_pay1 (F := Ideal) (iblk4 V c 0 t) (iblk4 V c 1 t) j = prod (V c main_v72) (V c main_arg7) (((cfg4.win 2).blk t).view.emb j)
  refine (pay_apply (iblk4 V c 0 t) (iblk4 V c 1 t) j).trans ?_
  refine Eq.trans ?_ (prod_apply (V c main_v72) (V c main_arg7) (((cfg4.win 2).blk t).view.emb j)).symm
  refine Finset.sum_congr rfl fun k _ => ?_
  have hl : ((cfg4.win 0).blk t).view.emb (blkRow j k) = row (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 160 + 1 * k.val = k.val; omega
  have hr : ((cfg4.win 1).blk t).view.emb (blkCol j k) = col (((cfg4.win 2).blk t).view.emb j) k := by
    funext a; apply Fin.ext
    match a with
    | ⟨0, _⟩ => show win4_1.index t (0 : Fin 2) * 160 + 1 * k.val = k.val; omega
    | ⟨1, _⟩ => show win4_1.index t (1 : Fin 2) * 160 + 1 * (j 1).val = win4_2.index t (1 : Fin 2) * 160 + 1 * (j 1).val; omega
  have hL : iblk4 (F := Ideal) V c 0 t (blkRow j k) = V c main_v72 (row (((cfg4.win 2).blk t).view.emb j) k) := by
    show V c main_v72 (((cfg4.win 0).blk t).view.emb (blkRow j k)) = _
    rw [hl]
  have hR : iblk4 (F := Ideal) V c 1 t (blkCol j k) = V c main_arg7 (col (((cfg4.win 2).blk t).view.emb j) k) := by
    show V c main_arg7 (((cfg4.win 1).blk t).view.emb (blkCol j k)) = _
    rw [hr]
  rw [hL, hR]

/-- An index of the output array is in point t's block iff each coordinate is in the block's range on its axis. -/
theorem mem_blk (t : Fin cfg4.N) (i : S50000x160.Idx) :
    i ∈ ((cfg4.win 2).blk t).view.set ↔ ∀ a : Fin 2, win4_2.index t a * S5000x160.size a ≤ (i a).val ∧ (i a).val < win4_2.index t a * S5000x160.size a + S5000x160.size a := by
  show i ∈ ((View.whole main_v73).slice (win4_2.rect t)).set ↔ _
  rw [View.set_slice_whole, Rect.mem_set_unit]
  exact Iff.rfl

/-- The ten row blocks tile the output array: row i lies in the block of point i / 5000. -/
theorem cover (i : S50000x160.Idx) : ∃ t : Fin cfg4.N, (cfg4.win 2).flush t = true ∧ i ∈ ((cfg4.win 2).blk t).view.set := by
  have hi0 : (i 0).val < 50000 := (i 0).isLt
  have hi1 : (i 1).val < 160 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 160 ≤ (i 1).val ∧ (i 1).val < win4_2.index t (1 : Fin 2) * 160 + 160; omega

/-- THE REGION'S OUTPUT ARRAY after its ten points: the host's dot_general of its two operand arrays as it found them. -/
theorem final (c : Dev nD) :
    (dat4 (F := Ideal) V c).arrAt 2 cfg4.N
      = Host.dotGeneral (F := Ideal) (φ₁ := .f32) (φ₂ := .f32) Cert.ReferenceIdeal.dot_S50000x160_S160x160_S50000x160_1_0_0_1_n_n none (V c main_v72) (V c main_arg7) :=
  (dat4 (F := Ideal) V c).arrAt_eq_of_cover 2 (prod (V c main_v72) (V c main_arg7)) (fun t _ => flushed_eq V c t) cover

end Cert.KernelIdeal.Linear4

end
-- ==== Proof.NormRelu1.lean ====
/- BatchNorm + ReLU, region 1 of the kernel program (`cc1__bn_relu_kernel`), against the reference's layer, on the extended reals.
   The region sweeps a (50000, 160) array of activations in 25 blocks of 2000 rows; at each block it reads the four (1, 160)
   rows γ, β, μ, σ² whole and stores  max ((x − μ) · rsqrt (σ² + ε) · γ + β) 0  entry by entry, each row repeated down the block.
   The reference applies the same entry-wise function to the whole array, with each (160) row made (1, 160) and repeated down
   the 50000 rows, and with the reciprocal square root taken on the (160) row before it is repeated. Here:
   `payload_apply`  — the stored value at `(p, q)` is `normRelu` of the block's entry and the rows' entries at `q`;
   `refLayer_apply` — the reference's layer at `(r, q)` is `normRelu` of the array's entry and the rows' entries at `q`
                      (the two reciprocal square roots are one function on the extended reals, so no finiteness is asked);
   `read_act`, `read_row1` … `read_row4`, `emb_out` — block `t` of the activations and of the output is rows
                      `2000 t … 2000 t + 1999`, a row window's block is its whole array;
   `flushed_eq`     — what point `t` writes back is block `t` of the reference's layer;
   `cover`          — row `r` is in the block of point `r / 2000`;
   `final`          — so the output array after the region IS the reference's layer of the region's input arrays, when the
                      four row windows hold the (1, 160) reshapes of (160) rows. -/
import proofs.«131882_j48490180772588_1_alg».proof.Proof.Gen.KernelIdeal.Frame
import proofs.«131882_j48490180772588_1_alg».proof.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.NormRelu1

open Cert.KernelIdeal Cert.KernelIdeal.Gen Idealize.ShloMosaic Idealize.ShloMosaic.TcCoe Idealize.SL.Sem
open Idealize.ShloMosaic.Pipeline (Dat)
open Idealize.ShloMosaic.ValueIdx

/-- One entry of a normalised, rectified row: `max ((x - μ) · rsqrt (σ² + ε) · γ + β) 0`, the float words kept as words. -/
def normRelu (x mu var g b : EReal) : EReal :=
  max ((x - mu) * Ideal.rsqrt (var + Ideal.ofBits .f32 0x3727C5AC#32) * g + b) (Ideal.ofBits .f32 0x00000000#32)

/-- The reciprocal square root of a vector, read at an index. -/
theorem rsqrt_apply {s : Shape} {φ : FTy} (a : FVec Ideal s φ) (i : s.Idx) : rsqrt a i = Ideal.rsqrt (a i) := rfl

/-- The body's stored value at `(p, q)`: the entry of the block of activations, normalised by the four rows' entries at `q`
    (each row a `[1, 160]` block broadcast down the block's 2000 rows). -/
theorem payload_apply (x0 : Vec Ideal S2000x160 .f32) (x1 x2 x3 x4 : Vec Ideal S1x160 .f32) (p : Fin 2000) (q : Fin 160) :
    k1_pay1 (F := Ideal) x0 x1 x2 x3 x4 (ix2 p q)
      = normRelu (x0 (ix2 p q)) (x3 (ix2 (0 : Fin 1) q)) (x4 (ix2 (0 : Fin 1) q)) (x1 (ix2 (0 : Fin 1) q)) (x2 (ix2 (0 : Fin 1) q)) := by
  unfold k1_pay1
  simp only [shapeCast_self]
  rw [maximumf_apply, addf_apply, mulf_apply, mulf_apply, subf_apply, rsqrt_apply, addf_apply]
  simp only [broadcast_apply]
  rw [broadcastTo_1b_ab_apply, broadcastTo_1b_ab_apply, broadcastTo_1b_ab_apply, broadcastTo_1b_ab_apply]
  rfl

/-- A `[160]` row made a `[1, 160]` array and then repeated down 50000 rows reads, at `(r, q)`, the row's entry `q`. -/
theorem rowBcast_apply (h1 : S160.BroadcastsInDim S1x160 ![1]) (h2 : S1x160.BroadcastsInDim S50000x160 ![0, 1])
    (v : FVec Ideal S160 .f32) (r : Fin 50000) (q : Fin 160) :
    broadcastInDim S50000x160 ![0, 1] h2 (broadcastInDim S1x160 ![1] h1 v) (ix2 r q) = v (ix1 q) := by
  refine (broadcastInDim_apply _ h2 _ (ix2 r q) (ix2 (0 : Fin 1) q) fun a => ?_).trans
    (broadcastInDim_apply _ h1 v (ix2 (0 : Fin 1) q) (ix1 q) fun a => ?_)
  · match a with
    | ⟨0, _⟩ => rfl
    | ⟨1, _⟩ => rfl
  · match a with
    | ⟨0, _⟩ => rfl

/-- The reference's BatchNorm + ReLU layer on whole arrays: the activations less the mean row, times the reciprocal square
    root of the variance row plus ε, times the scale row, plus the shift row, rectified; each `[160]` row made `[1, 160]` and
    repeated down the 50000 rows. The evidence its broadcasts carry is a parameter. -/
def refLayer (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) : FVec Ideal S50000x160 .f32 :=
  maximumf (addf (mulf (mulf (subf x (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32))

/-- The reference's layer read at `(r, q)`: the same entry-wise function of the activations' entry and the four rows'
    entries at `q` (the host's reciprocal square root and the kernel's are one function on the extended reals). -/
theorem refLayer_apply (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) (r : Fin 50000) (q : Fin 160) :
    refLayer h1 h2 hE hZ x g b mu var (ix2 r q)
      = normRelu (x (ix2 r q)) (mu (ix1 q)) (var (ix1 q)) (g (ix1 q)) (b (ix1 q)) := by
  unfold refLayer
  rw [maximumf_apply, addf_apply, mulf_apply, mulf_apply, subf_apply, rowBcast_apply, rowBcast_apply, rowBcast_apply,
    rowBcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the activations' window and the output's sit at block `(t, 0)`,
    the four row windows at block `(0, 0)`. -/
theorem idx_facts : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Point `t`'s block of the activations, at `(p, q)`, is the array's entry at row `2000 t + p`. -/
theorem read_act (c : Dev nD) (t : Fin cfg1.N) (p : Fin 2000) (q : Fin 160) (r : Fin 50000) (hr : r.val = t.val * 2000 + p.val) :
    (iblk1 V c 0 t : S2000x160.Idx → EReal) (ix2 p q) = (V c main_v46 : S50000x160.Idx → EReal) (ix2 r q) := by
  obtain ⟨e0, e1, -⟩ := idx_facts t
  show (V c main_v46 : S50000x160.Idx → EReal) (((cfg1.win 0).blk t).view.emb (ix2 p q)) = _
  refine congrArg _ (funext fun a => Fin.ext ?_)
  match a with
  | ⟨0, _⟩ => show win1_0.index t (0 : Fin 2) * 2000 + 1 * p.val = r.val; omega
  | ⟨1, _⟩ => show win1_0.index t (1 : Fin 2) * 160 + 1 * q.val = q.val; omega

/-- The output's block at point `t` sits at rows `2000 t … 2000 t + 1999`. -/
theorem emb_out (t : Fin cfg1.N) (p : Fin 2000) (q : Fin 160) (r : Fin 50000) (hr : r.val = t.val * 2000 + p.val) :
    ((cfg1.win 5).blk t).view.emb (ix2 p q) = (ix2 r q : S50000x160.Idx) := by
  obtain ⟨-, -, e0, e1, -⟩ := idx_facts t
  refine funext fun a => Fin.ext ?_
  match a with
  | ⟨0, _⟩ => show win1_5.index t (0 : Fin 2) * 2000 + 1 * p.val = r.val; omega
  | ⟨1, _⟩ => show win1_5.index t (1 : Fin 2) * 160 + 1 * q.val = q.val; omega

/-- Each row window's block, at every point, is its whole `[1, 160]` array. -/
theorem read_row1 (c : Dev nD) (t : Fin cfg1.N) (q : Fin 160) :
    (iblk1 V c 1 t : S1x160.Idx → EReal) (ix2 (0 : Fin 1) q) = (V c main_v47 : S1x160.Idx → EReal) (ix2 (0 : Fin 1) q) := by
  obtain ⟨-, -, -, -, e0, e1, -⟩ := idx_facts t
  show (V c main_v47 : S1x160.Idx → EReal) (((cfg1.win 1).blk t).view.emb (ix2 (0 : Fin 1) q)) = _
  refine congrArg _ (funext fun a => Fin.ext ?_)
  match a with
  | ⟨0, _⟩ => show win1_1.index t (0 : Fin 2) * 1 + 1 * 0 = 0; omega
  | ⟨1, _⟩ => show win1_1.index t (1 : Fin 2) * 160 + 1 * q.val = q.val; omega

theorem read_row2 (c : Dev nD) (t : Fin cfg1.N) (q : Fin 160) :
    (iblk1 V c 2 t : S1x160.Idx → EReal) (ix2 (0 : Fin 1) q) = (V c main_v48 : S1x160.Idx → EReal) (ix2 (0 : Fin 1) q) := by
  obtain ⟨-, -, -, -, -, -, e0, e1, -⟩ := idx_facts t
  show (V c main_v48 : S1x160.Idx → EReal) (((cfg1.win 2).blk t).view.emb (ix2 (0 : Fin 1) q)) = _
  refine congrArg _ (funext fun a => Fin.ext ?_)
  match a with
  | ⟨0, _⟩ => show win1_2.index t (0 : Fin 2) * 1 + 1 * 0 = 0; omega
  | ⟨1, _⟩ => show win1_2.index t (1 : Fin 2) * 160 + 1 * q.val = q.val; omega

theorem read_row3 (c : Dev nD) (t : Fin cfg1.N) (q : Fin 160) :
    (iblk1 V c 3 t : S1x160.Idx → EReal) (ix2 (0 : Fin 1) q) = (V c main_v49 : S1x160.Idx → EReal) (ix2 (0 : Fin 1) q) := by
  obtain ⟨-, -, -, -, -, -, -, -, e0, e1, -⟩ := idx_facts t
  show (V c main_v49 : S1x160.Idx → EReal) (((cfg1.win 3).blk t).view.emb (ix2 (0 : Fin 1) q)) = _
  refine congrArg _ (funext fun a => Fin.ext ?_)
  match a with
  | ⟨0, _⟩ => show win1_3.index t (0 : Fin 2) * 1 + 1 * 0 = 0; omega
  | ⟨1, _⟩ => show win1_3.index t (1 : Fin 2) * 160 + 1 * q.val = q.val; omega

theorem read_row4 (c : Dev nD) (t : Fin cfg1.N) (q : Fin 160) :
    (iblk1 V c 4 t : S1x160.Idx → EReal) (ix2 (0 : Fin 1) q) = (V c main_v50 : S1x160.Idx → EReal) (ix2 (0 : Fin 1) q) := by
  obtain ⟨-, -, -, -, -, -, -, -, -, -, e0, e1⟩ := idx_facts t
  show (V c main_v50 : S1x160.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 160 + 1 * q.val = q.val; omega

/-- WHAT POINT `t` WRITES BACK is block `t` of the reference's layer applied to the activations as the region finds them
    and to the four `[160]` rows whose host reshapes the row windows hold. -/
theorem flushed_eq (c : Dev nD) (g b mu var : FVec Ideal S160 .f32)
    (hg : (V c main_v47 : S1x160.Idx → EReal) = shapeCast S1x160 g shapeCasts_S160_S1x160)
    (hb : (V c main_v48 : S1x160.Idx → EReal) = shapeCast S1x160 b shapeCasts_S160_S1x160)
    (hmu : (V c main_v49 : S1x160.Idx → EReal) = shapeCast S1x160 mu shapeCasts_S160_S1x160)
    (hvar : (V c main_v50 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) (t : Fin cfg1.N) :
    (dat1 (F := Ideal) V c).flushed 5 t = ((cfg1.win 5).blk t).view.read (Elt Ideal)
      (refLayer h1 h2 hE hZ (V c main_v46 : S50000x160.Idx → EReal) g b mu var) := by
  show (cfg1.win 5).cut (grid1.coords t) ((dat1 V c).after 5 t) = _
  rw [after1_5]
  unfold out1_5
  rw [View.canon_unit_zero hz]
  simp only [View.ld_unit_zero (S := S2000x160) hz, View.ld_unit_zero (S := S1x160) hz]
  refine funext fun (j : S2000x160.Idx) => ?_
  obtain ⟨p, q, rfl⟩ : ∃ (p : Fin 2000) (q : Fin 160), j = ix2 p q := ⟨j 0, j 1, eq_ix2 j⟩
  have hN : cfg1.N = 25 := N_1
  have ht : t.val < 25 := hN ▸ t.isLt
  obtain ⟨r, hr⟩ : ∃ r : Fin 50000, r.val = t.val * 2000 + p.val := ⟨⟨t.val * 2000 + p.val, by omega⟩, rfl⟩
  show k1_pay1 (F := Ideal) (iblk1 V c 0 t) (iblk1 V c 1 t) (iblk1 V c 2 t) (iblk1 V c 3 t) (iblk1 V c 4 t) (ix2 p q)
    = refLayer h1 h2 hE hZ (V c main_v46 : S50000x160.Idx → EReal) g b mu var (((cfg1.win 5).blk t).view.emb (ix2 p q))
  rw [emb_out t p q r hr, refLayer_apply]
  refine (payload_apply (iblk1 V c 0 t) (iblk1 V c 1 t) (iblk1 V c 2 t) (iblk1 V c 3 t) (iblk1 V c 4 t) p q).trans ?_
  rw [read_act V c t p q r hr, read_row1 V c t q, read_row2 V c t q, read_row3 V c t q, read_row4 V c t q, hg, hb, hmu, hvar,
    shapeCast_a_1a_apply, shapeCast_a_1a_apply, shapeCast_a_1a_apply, shapeCast_a_1a_apply]
/-- An index of the output array is in point `t`'s block iff each coordinate is in the block's range on its axis. -/
theorem mem_blk (t : Fin cfg1.N) (i : S50000x160.Idx) :
    i ∈ ((cfg1.win 5).blk t).view.set ↔ ∀ a : Fin 2, win1_5.index t a * S2000x160.size a ≤ (i a).val ∧ (i a).val < win1_5.index t a * S2000x160.size a + S2000x160.size a := by
  show i ∈ ((View.whole main_v51).slice (win1_5.rect t)).set ↔ _
  rw [View.set_slice_whole, Rect.mem_set_unit]
  exact Iff.rfl

/-- Every index of the output array is in some point's block: row `r` is in the block of point `r / 2000`. -/
theorem cover (i : S50000x160.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 160 := (i 1).isLt
  obtain ⟨t, ht⟩ : ∃ t : Fin cfg1.N, t.val = (i 0).val / 2000 := ⟨⟨(i 0).val / 2000, by rw [hN]; omega⟩, rfl⟩
  obtain ⟨-, -, e0, e1, -⟩ := idx_facts t
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 160 ≤ (i 1).val ∧ (i 1).val < win1_5.index t (1 : Fin 2) * 160 + 160; omega

/-- THE OUTPUT ARRAY after the region: the reference's BatchNorm + ReLU layer of the activations as the region finds them
    and of the four `[160]` rows whose host reshapes the row windows hold — whatever evidence the broadcasts carry. -/
theorem final (c : Dev nD) (g b mu var : FVec Ideal S160 .f32)
    (hg : (V c main_v47 : S1x160.Idx → EReal) = shapeCast S1x160 g shapeCasts_S160_S1x160)
    (hb : (V c main_v48 : S1x160.Idx → EReal) = shapeCast S1x160 b shapeCasts_S160_S1x160)
    (hmu : (V c main_v49 : S1x160.Idx → EReal) = shapeCast S1x160 mu shapeCasts_S160_S1x160)
    (hvar : (V c main_v50 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) :
    (dat1 (F := Ideal) V c).arrAt 5 cfg1.N
      = maximumf (addf (mulf (mulf (subf (V c main_v46 : S50000x160.Idx → EReal) (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32)) :=
  (dat1 (F := Ideal) V c).arrAt_eq_of_cover 5 (refLayer h1 h2 hE hZ (V c main_v46 : S50000x160.Idx → EReal) g b mu var)
    (fun t _ => flushed_eq V c g b mu var hg hb hmu hvar h1 h2 hE hZ t) cover

end Cert.KernelIdeal.NormRelu1

end
-- ==== Proof.NormRelu3.lean ====
/- BatchNorm + ReLU, region 3 of the kernel program (`cc3__bn_relu_kernel`), against the reference's layer, on the extended reals.
   The region sweeps a (50000, 160) array of activations in 25 blocks of 2000 rows; at each block it reads the four (1, 160)
   rows γ, β, μ, σ² whole and stores  max ((x − μ) · rsqrt (σ² + ε) · γ + β) 0  entry by entry, each row repeated down the block.
   The reference applies the same entry-wise function to the whole array, with each (160) row made (1, 160) and repeated down
   the 50000 rows, and with the reciprocal square root taken on the (160) row before it is repeated. Here:
   `payload_apply`  — the stored value at `(p, q)` is `normRelu` of the block's entry and the rows' entries at `q`;
   `refLayer_apply` — the reference's layer at `(r, q)` is `normRelu` of the array's entry and the rows' entries at `q`
                      (the two reciprocal square roots are one function on the extended reals, so no finiteness is asked);
   `read_act`, `read_row1` … `read_row4`, `emb_out` — block `t` of the activations and of the output is rows
                      `2000 t … 2000 t + 1999`, a row window's block is its whole array;
   `flushed_eq`     — what point `t` writes back is block `t` of the reference's layer;
   `cover`          — row `r` is in the block of point `r / 2000`;
   `final`          — so the output array after the region IS the reference's layer of the region's input arrays, when the
                      four row windows hold the (1, 160) reshapes of (160) rows. -/
import proofs.«131882_j48490180772588_1_alg».proof.Proof.Gen.KernelIdeal.Frame
import proofs.«131882_j48490180772588_1_alg».proof.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.NormRelu3

open Cert.KernelIdeal Cert.KernelIdeal.Gen Idealize.ShloMosaic Idealize.ShloMosaic.TcCoe Idealize.SL.Sem
open Idealize.ShloMosaic.Pipeline (Dat)
open Idealize.ShloMosaic.ValueIdx

/-- One entry of a normalised, rectified row: `max ((x - μ) · rsqrt (σ² + ε) · γ + β) 0`, the float words kept as words. -/
def normRelu (x mu var g b : EReal) : EReal :=
  max ((x - mu) * Ideal.rsqrt (var + Ideal.ofBits .f32 0x3727C5AC#32) * g + b) (Ideal.ofBits .f32 0x00000000#32)

/-- The reciprocal square root of a vector, read at an index. -/
theorem rsqrt_apply {s : Shape} {φ : FTy} (a : FVec Ideal s φ) (i : s.Idx) : rsqrt a i = Ideal.rsqrt (a i) := rfl

/-- The body's stored value at `(p, q)`: the entry of the block of activations, normalised by the four rows' entries at `q`
    (each row a `[1, 160]` block broadcast down the block's 2000 rows). -/
theorem payload_apply (x0 : Vec Ideal S2000x160 .f32) (x1 x2 x3 x4 : Vec Ideal S1x160 .f32) (p : Fin 2000) (q : Fin 160) :
    k3_pay1 (F := Ideal) x0 x1 x2 x3 x4 (ix2 p q)
      = normRelu (x0 (ix2 p q)) (x3 (ix2 (0 : Fin 1) q)) (x4 (ix2 (0 : Fin 1) q)) (x1 (ix2 (0 : Fin 1) q)) (x2 (ix2 (0 : Fin 1) q)) := by
  unfold k3_pay1
  simp only [shapeCast_self]
  rw [maximumf_apply, addf_apply, mulf_apply, mulf_apply, subf_apply, rsqrt_apply, addf_apply]
  simp only [broadcast_apply]
  rw [broadcastTo_1b_ab_apply, broadcastTo_1b_ab_apply, broadcastTo_1b_ab_apply, broadcastTo_1b_ab_apply]
  rfl

/-- A `[160]` row made a `[1, 160]` array and then repeated down 50000 rows reads, at `(r, q)`, the row's entry `q`. -/
theorem rowBcast_apply (h1 : S160.BroadcastsInDim S1x160 ![1]) (h2 : S1x160.BroadcastsInDim S50000x160 ![0, 1])
    (v : FVec Ideal S160 .f32) (r : Fin 50000) (q : Fin 160) :
    broadcastInDim S50000x160 ![0, 1] h2 (broadcastInDim S1x160 ![1] h1 v) (ix2 r q) = v (ix1 q) := by
  refine (broadcastInDim_apply _ h2 _ (ix2 r q) (ix2 (0 : Fin 1) q) fun a => ?_).trans
    (broadcastInDim_apply _ h1 v (ix2 (0 : Fin 1) q) (ix1 q) fun a => ?_)
  · match a with
    | ⟨0, _⟩ => rfl
    | ⟨1, _⟩ => rfl
  · match a with
    | ⟨0, _⟩ => rfl

/-- The reference's BatchNorm + ReLU layer on whole arrays: the activations less the mean row, times the reciprocal square
    root of the variance row plus ε, times the scale row, plus the shift row, rectified; each `[160]` row made `[1, 160]` and
    repeated down the 50000 rows. The evidence its broadcasts carry is a parameter. -/
def refLayer (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) : FVec Ideal S50000x160 .f32 :=
  maximumf (addf (mulf (mulf (subf x (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32))

/-- The reference's layer read at `(r, q)`: the same entry-wise function of the activations' entry and the four rows'
    entries at `q` (the host's reciprocal square root and the kernel's are one function on the extended reals). -/
theorem refLayer_apply (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) (r : Fin 50000) (q : Fin 160) :
    refLayer h1 h2 hE hZ x g b mu var (ix2 r q)
      = normRelu (x (ix2 r q)) (mu (ix1 q)) (var (ix1 q)) (g (ix1 q)) (b (ix1 q)) := by
  unfold refLayer
  rw [maximumf_apply, addf_apply, mulf_apply, mulf_apply, subf_apply, rowBcast_apply, rowBcast_apply, rowBcast_apply,
    rowBcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the activations' window and the output's sit at block `(t, 0)`,
    the four row windows at block `(0, 0)`. -/
theorem idx_facts : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Point `t`'s block of the activations, at `(p, q)`, is the array's entry at row `2000 t + p`. -/
theorem read_act (c : Dev nD) (t : Fin cfg3.N) (p : Fin 2000) (q : Fin 160) (r : Fin 50000) (hr : r.val = t.val * 2000 + p.val) :
    (iblk3 V c 0 t : S2000x160.Idx → EReal) (ix2 p q) = (V c main_v67 : S50000x160.Idx → EReal) (ix2 r q) := by
  obtain ⟨e0, e1, -⟩ := idx_facts t
  show (V c main_v67 : S50000x160.Idx → EReal) (((cfg3.win 0).blk t).view.emb (ix2 p q)) = _
  refine congrArg _ (funext fun a => Fin.ext ?_)
  match a with
  | ⟨0, _⟩ => show win3_0.index t (0 : Fin 2) * 2000 + 1 * p.val = r.val; omega
  | ⟨1, _⟩ => show win3_0.index t (1 : Fin 2) * 160 + 1 * q.val = q.val; omega

/-- The output's block at point `t` sits at rows `2000 t … 2000 t + 1999`. -/
theorem emb_out (t : Fin cfg3.N) (p : Fin 2000) (q : Fin 160) (r : Fin 50000) (hr : r.val = t.val * 2000 + p.val) :
    ((cfg3.win 5).blk t).view.emb (ix2 p q) = (ix2 r q : S50000x160.Idx) := by
  obtain ⟨-, -, e0, e1, -⟩ := idx_facts t
  refine funext fun a => Fin.ext ?_
  match a with
  | ⟨0, _⟩ => show win3_5.index t (0 : Fin 2) * 2000 + 1 * p.val = r.val; omega
  | ⟨1, _⟩ => show win3_5.index t (1 : Fin 2) * 160 + 1 * q.val = q.val; omega

/-- Each row window's block, at every point, is its whole `[1, 160]` array. -/
theorem read_row1 (c : Dev nD) (t : Fin cfg3.N) (q : Fin 160) :
    (iblk3 V c 1 t : S1x160.Idx → EReal) (ix2 (0 : Fin 1) q) = (V c main_v68 : S1x160.Idx → EReal) (ix2 (0 : Fin 1) q) := by
  obtain ⟨-, -, -, -, e0, e1, -⟩ := idx_facts t
  show (V c main_v68 : S1x160.Idx → EReal) (((cfg3.win 1).blk t).view.emb (ix2 (0 : Fin 1) q)) = _
  refine congrArg _ (funext fun a => Fin.ext ?_)
  match a with
  | ⟨0, _⟩ => show win3_1.index t (0 : Fin 2) * 1 + 1 * 0 = 0; omega
  | ⟨1, _⟩ => show win3_1.index t (1 : Fin 2) * 160 + 1 * q.val = q.val; omega

theorem read_row2 (c : Dev nD) (t : Fin cfg3.N) (q : Fin 160) :
    (iblk3 V c 2 t : S1x160.Idx → EReal) (ix2 (0 : Fin 1) q) = (V c main_v69 : S1x160.Idx → EReal) (ix2 (0 : Fin 1) q) := by
  obtain ⟨-, -, -, -, -, -, e0, e1, -⟩ := idx_facts t
  show (V c main_v69 : S1x160.Idx → EReal) (((cfg3.win 2).blk t).view.emb (ix2 (0 : Fin 1) q)) = _
  refine congrArg _ (funext fun a => Fin.ext ?_)
  match a with
  | ⟨0, _⟩ => show win3_2.index t (0 : Fin 2) * 1 + 1 * 0 = 0; omega
  | ⟨1, _⟩ => show win3_2.index t (1 : Fin 2) * 160 + 1 * q.val = q.val; omega

theorem read_row3 (c : Dev nD) (t : Fin cfg3.N) (q : Fin 160) :
    (iblk3 V c 3 t : S1x160.Idx → EReal) (ix2 (0 : Fin 1) q) = (V c main_v70 : S1x160.Idx → EReal) (ix2 (0 : Fin 1) q) := by
  obtain ⟨-, -, -, -, -, -, -, -, e0, e1, -⟩ := idx_facts t
  show (V c main_v70 : S1x160.Idx → EReal) (((cfg3.win 3).blk t).view.emb (ix2 (0 : Fin 1) q)) = _
  refine congrArg _ (funext fun a => Fin.ext ?_)
  match a with
  | ⟨0, _⟩ => show win3_3.index t (0 : Fin 2) * 1 + 1 * 0 = 0; omega
  | ⟨1, _⟩ => show win3_3.index t (1 : Fin 2) * 160 + 1 * q.val = q.val; omega

theorem read_row4 (c : Dev nD) (t : Fin cfg3.N) (q : Fin 160) :
    (iblk3 V c 4 t : S1x160.Idx → EReal) (ix2 (0 : Fin 1) q) = (V c main_v71 : S1x160.Idx → EReal) (ix2 (0 : Fin 1) q) := by
  obtain ⟨-, -, -, -, -, -, -, -, -, -, e0, e1⟩ := idx_facts t
  show (V c main_v71 : S1x160.Idx → EReal) (((cfg3.win 4).blk t).view.emb (ix2 (0 : Fin 1) q)) = _
  refine congrArg _ (funext fun a => Fin.ext ?_)
  match a with
  | ⟨0, _⟩ => show win3_4.index t (0 : Fin 2) * 1 + 1 * 0 = 0; omega
  | ⟨1, _⟩ => show win3_4.index t (1 : Fin 2) * 160 + 1 * q.val = q.val; omega

/-- WHAT POINT `t` WRITES BACK is block `t` of the reference's layer applied to the activations as the region finds them
    and to the four `[160]` rows whose host reshapes the row windows hold. -/
theorem flushed_eq (c : Dev nD) (g b mu var : FVec Ideal S160 .f32)
    (hg : (V c main_v68 : S1x160.Idx → EReal) = shapeCast S1x160 g shapeCasts_S160_S1x160)
    (hb : (V c main_v69 : S1x160.Idx → EReal) = shapeCast S1x160 b shapeCasts_S160_S1x160)
    (hmu : (V c main_v70 : S1x160.Idx → EReal) = shapeCast S1x160 mu shapeCasts_S160_S1x160)
    (hvar : (V c main_v71 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) (t : Fin cfg3.N) :
    (dat3 (F := Ideal) V c).flushed 5 t = ((cfg3.win 5).blk t).view.read (Elt Ideal)
      (refLayer h1 h2 hE hZ (V c main_v67 : S50000x160.Idx → EReal) g b mu var) := by
  show (cfg3.win 5).cut (grid3.coords t) ((dat3 V c).after 5 t) = _
  rw [after3_5]
  unfold out3_5
  rw [View.canon_unit_zero hz]
  simp only [View.ld_unit_zero (S := S2000x160) hz, View.ld_unit_zero (S := S1x160) hz]
  refine funext fun (j : S2000x160.Idx) => ?_
  obtain ⟨p, q, rfl⟩ : ∃ (p : Fin 2000) (q : Fin 160), j = ix2 p q := ⟨j 0, j 1, eq_ix2 j⟩
  have hN : cfg3.N = 25 := N_3
  have ht : t.val < 25 := hN ▸ t.isLt
  obtain ⟨r, hr⟩ : ∃ r : Fin 50000, r.val = t.val * 2000 + p.val := ⟨⟨t.val * 2000 + p.val, by omega⟩, rfl⟩
  show k3_pay1 (F := Ideal) (iblk3 V c 0 t) (iblk3 V c 1 t) (iblk3 V c 2 t) (iblk3 V c 3 t) (iblk3 V c 4 t) (ix2 p q)
    = refLayer h1 h2 hE hZ (V c main_v67 : S50000x160.Idx → EReal) g b mu var (((cfg3.win 5).blk t).view.emb (ix2 p q))
  rw [emb_out t p q r hr, refLayer_apply]
  refine (payload_apply (iblk3 V c 0 t) (iblk3 V c 1 t) (iblk3 V c 2 t) (iblk3 V c 3 t) (iblk3 V c 4 t) p q).trans ?_
  rw [read_act V c t p q r hr, read_row1 V c t q, read_row2 V c t q, read_row3 V c t q, read_row4 V c t q, hg, hb, hmu, hvar,
    shapeCast_a_1a_apply, shapeCast_a_1a_apply, shapeCast_a_1a_apply, shapeCast_a_1a_apply]
/-- An index of the output array is in point `t`'s block iff each coordinate is in the block's range on its axis. -/
theorem mem_blk (t : Fin cfg3.N) (i : S50000x160.Idx) :
    i ∈ ((cfg3.win 5).blk t).view.set ↔ ∀ a : Fin 2, win3_5.index t a * S2000x160.size a ≤ (i a).val ∧ (i a).val < win3_5.index t a * S2000x160.size a + S2000x160.size a := by
  show i ∈ ((View.whole main_v72).slice (win3_5.rect t)).set ↔ _
  rw [View.set_slice_whole, Rect.mem_set_unit]
  exact Iff.rfl

/-- Every index of the output array is in some point's block: row `r` is in the block of point `r / 2000`. -/
theorem cover (i : S50000x160.Idx) : ∃ t : Fin cfg3.N, (cfg3.win 5).flush t = true ∧ i ∈ ((cfg3.win 5).blk t).view.set := by
  have hN : cfg3.N = 25 := N_3
  have hi0 : (i 0).val < 50000 := (i 0).isLt
  have hi1 : (i 1).val < 160 := (i 1).isLt
  obtain ⟨t, ht⟩ : ∃ t : Fin cfg3.N, t.val = (i 0).val / 2000 := ⟨⟨(i 0).val / 2000, by rw [hN]; omega⟩, rfl⟩
  obtain ⟨-, -, e0, e1, -⟩ := idx_facts t
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 160 ≤ (i 1).val ∧ (i 1).val < win3_5.index t (1 : Fin 2) * 160 + 160; omega

/-- THE OUTPUT ARRAY after the region: the reference's BatchNorm + ReLU layer of the activations as the region finds them
    and of the four `[160]` rows whose host reshapes the row windows hold — whatever evidence the broadcasts carry. -/
theorem final (c : Dev nD) (g b mu var : FVec Ideal S160 .f32)
    (hg : (V c main_v68 : S1x160.Idx → EReal) = shapeCast S1x160 g shapeCasts_S160_S1x160)
    (hb : (V c main_v69 : S1x160.Idx → EReal) = shapeCast S1x160 b shapeCasts_S160_S1x160)
    (hmu : (V c main_v70 : S1x160.Idx → EReal) = shapeCast S1x160 mu shapeCasts_S160_S1x160)
    (hvar : (V c main_v71 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) :
    (dat3 (F := Ideal) V c).arrAt 5 cfg3.N
      = maximumf (addf (mulf (mulf (subf (V c main_v67 : S50000x160.Idx → EReal) (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32)) :=
  (dat3 (F := Ideal) V c).arrAt_eq_of_cover 5 (refLayer h1 h2 hE hZ (V c main_v67 : S50000x160.Idx → EReal) g b mu var)
    (fun t _ => flushed_eq V c g b mu var hg hb hmu hvar h1 h2 hE hZ t) cover

end Cert.KernelIdeal.NormRelu3

end
-- ==== Proof.NormRelu5.lean ====
/- BatchNorm + ReLU, region 5 of the kernel program (`cc5__bn_relu_kernel`), against the reference's layer, on the extended reals.
   The region sweeps a (50000, 160) array of activations in 25 blocks of 2000 rows; at each block it reads the four (1, 160)
   rows γ, β, μ, σ² whole and stores  max ((x − μ) · rsqrt (σ² + ε) · γ + β) 0  entry by entry, each row repeated down the block.
   The reference applies the same entry-wise function to the whole array, with each (160) row made (1, 160) and repeated down
   the 50000 rows, and with the reciprocal square root taken on the (160) row before it is repeated. Here:
   `payload_apply`  — the stored value at `(p, q)` is `normRelu` of the block's entry and the rows' entries at `q`;
   `refLayer_apply` — the reference's layer at `(r, q)` is `normRelu` of the array's entry and the rows' entries at `q`
                      (the two reciprocal square roots are one function on the extended reals, so no finiteness is asked);
   `read_act`, `read_row1` … `read_row4`, `emb_out` — block `t` of the activations and of the output is rows
                      `2000 t … 2000 t + 1999`, a row window's block is its whole array;
   `flushed_eq`     — what point `t` writes back is block `t` of the reference's layer;
   `cover`          — row `r` is in the block of point `r / 2000`;
   `final`          — so the output array after the region IS the reference's layer of the region's input arrays, when the
                      four row windows hold the (1, 160) reshapes of (160) rows. -/
import proofs.«131882_j48490180772588_1_alg».proof.Proof.Gen.KernelIdeal.Frame
import proofs.«131882_j48490180772588_1_alg».proof.ReferenceIdeal
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.NormRelu5

open Cert.KernelIdeal Cert.KernelIdeal.Gen Idealize.ShloMosaic Idealize.ShloMosaic.TcCoe Idealize.SL.Sem
open Idealize.ShloMosaic.Pipeline (Dat)
open Idealize.ShloMosaic.ValueIdx

/-- One entry of a normalised, rectified row: `max ((x - μ) · rsqrt (σ² + ε) · γ + β) 0`, the float words kept as words. -/
def normRelu (x mu var g b : EReal) : EReal :=
  max ((x - mu) * Ideal.rsqrt (var + Ideal.ofBits .f32 0x3727C5AC#32) * g + b) (Ideal.ofBits .f32 0x00000000#32)

/-- The reciprocal square root of a vector, read at an index. -/
theorem rsqrt_apply {s : Shape} {φ : FTy} (a : FVec Ideal s φ) (i : s.Idx) : rsqrt a i = Ideal.rsqrt (a i) := rfl

/-- The body's stored value at `(p, q)`: the entry of the block of activations, normalised by the four rows' entries at `q`
    (each row a `[1, 160]` block broadcast down the block's 2000 rows). -/
theorem payload_apply (x0 : Vec Ideal S2000x160 .f32) (x1 x2 x3 x4 : Vec Ideal S1x160 .f32) (p : Fin 2000) (q : Fin 160) :
    k5_pay1 (F := Ideal) x0 x1 x2 x3 x4 (ix2 p q)
      = normRelu (x0 (ix2 p q)) (x3 (ix2 (0 : Fin 1) q)) (x4 (ix2 (0 : Fin 1) q)) (x1 (ix2 (0 : Fin 1) q)) (x2 (ix2 (0 : Fin 1) q)) := by
  unfold k5_pay1
  simp only [shapeCast_self]
  rw [maximumf_apply, addf_apply, mulf_apply, mulf_apply, subf_apply, rsqrt_apply, addf_apply]
  simp only [broadcast_apply]
  rw [broadcastTo_1b_ab_apply, broadcastTo_1b_ab_apply, broadcastTo_1b_ab_apply, broadcastTo_1b_ab_apply]
  rfl

/-- A `[160]` row made a `[1, 160]` array and then repeated down 50000 rows reads, at `(r, q)`, the row's entry `q`. -/
theorem rowBcast_apply (h1 : S160.BroadcastsInDim S1x160 ![1]) (h2 : S1x160.BroadcastsInDim S50000x160 ![0, 1])
    (v : FVec Ideal S160 .f32) (r : Fin 50000) (q : Fin 160) :
    broadcastInDim S50000x160 ![0, 1] h2 (broadcastInDim S1x160 ![1] h1 v) (ix2 r q) = v (ix1 q) := by
  refine (broadcastInDim_apply _ h2 _ (ix2 r q) (ix2 (0 : Fin 1) q) fun a => ?_).trans
    (broadcastInDim_apply _ h1 v (ix2 (0 : Fin 1) q) (ix1 q) fun a => ?_)
  · match a with
    | ⟨0, _⟩ => rfl
    | ⟨1, _⟩ => rfl
  · match a with
    | ⟨0, _⟩ => rfl

/-- The reference's BatchNorm + ReLU layer on whole arrays: the activations less the mean row, times the reciprocal square
    root of the variance row plus ε, times the scale row, plus the shift row, rectified; each `[160]` row made `[1, 160]` and
    repeated down the 50000 rows. The evidence its broadcasts carry is a parameter. -/
def refLayer (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) : FVec Ideal S50000x160 .f32 :=
  maximumf (addf (mulf (mulf (subf x (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32))

/-- The reference's layer read at `(r, q)`: the same entry-wise function of the activations' entry and the four rows'
    entries at `q` (the host's reciprocal square root and the kernel's are one function on the extended reals). -/
theorem refLayer_apply (h1 : S160.BroadcastsInDim S1x160 ![1]) (h2 : S1x160.BroadcastsInDim S50000x160 ![0, 1])
    (hE : S_.BroadcastsInDim S160 ![]) (hZ : S_.BroadcastsInDim S50000x160 ![])
    (x : FVec Ideal S50000x160 .f32) (g b mu var : FVec Ideal S160 .f32) (r : Fin 50000) (q : Fin 160) :
    refLayer h1 h2 hE hZ x g b mu var (ix2 r q)
      = normRelu (x (ix2 r q)) (mu (ix1 q)) (var (ix1 q)) (g (ix1 q)) (b (ix1 q)) := by
  unfold refLayer
  rw [maximumf_apply, addf_apply, mulf_apply, mulf_apply, subf_apply, rowBcast_apply, rowBcast_apply, rowBcast_apply,
    rowBcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the activations' window and the output's sit at block `(t, 0)`,
    the four row windows at block `(0, 0)`. -/
theorem idx_facts : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Point `t`'s block of the activations, at `(p, q)`, is the array's entry at row `2000 t + p`. -/
theorem read_act (c : Dev nD) (t : Fin cfg5.N) (p : Fin 2000) (q : Fin 160) (r : Fin 50000) (hr : r.val = t.val * 2000 + p.val) :
    (iblk5 V c 0 t : S2000x160.Idx → EReal) (ix2 p q) = (V c main_v88 : S50000x160.Idx → EReal) (ix2 r q) := by
  obtain ⟨e0, e1, -⟩ := idx_facts t
  show (V c main_v88 : S50000x160.Idx → EReal) (((cfg5.win 0).blk t).view.emb (ix2 p q)) = _
  refine congrArg _ (funext fun a => Fin.ext ?_)
  match a with
  | ⟨0, _⟩ => show win5_0.index t (0 : Fin 2) * 2000 + 1 * p.val = r.val; omega
  | ⟨1, _⟩ => show win5_0.index t (1 : Fin 2) * 160 + 1 * q.val = q.val; omega

/-- The output's block at point `t` sits at rows `2000 t … 2000 t + 1999`. -/
theorem emb_out (t : Fin cfg5.N) (p : Fin 2000) (q : Fin 160) (r : Fin 50000) (hr : r.val = t.val * 2000 + p.val) :
    ((cfg5.win 5).blk t).view.emb (ix2 p q) = (ix2 r q : S50000x160.Idx) := by
  obtain ⟨-, -, e0, e1, -⟩ := idx_facts t
  refine funext fun a => Fin.ext ?_
  match a with
  | ⟨0, _⟩ => show win5_5.index t (0 : Fin 2) * 2000 + 1 * p.val = r.val; omega
  | ⟨1, _⟩ => show win5_5.index t (1 : Fin 2) * 160 + 1 * q.val = q.val; omega

/-- Each row window's block, at every point, is its whole `[1, 160]` array. -/
theorem read_row1 (c : Dev nD) (t : Fin cfg5.N) (q : Fin 160) :
    (iblk5 V c 1 t : S1x160.Idx → EReal) (ix2 (0 : Fin 1) q) = (V c main_v89 : S1x160.Idx → EReal) (ix2 (0 : Fin 1) q) := by
  obtain ⟨-, -, -, -, e0, e1, -⟩ := idx_facts t
  show (V c main_v89 : S1x160.Idx → EReal) (((cfg5.win 1).blk t).view.emb (ix2 (0 : Fin 1) q)) = _
  refine congrArg _ (funext fun a => Fin.ext ?_)
  match a with
  | ⟨0, _⟩ => show win5_1.index t (0 : Fin 2) * 1 + 1 * 0 = 0; omega
  | ⟨1, _⟩ => show win5_1.index t (1 : Fin 2) * 160 + 1 * q.val = q.val; omega

theorem read_row2 (c : Dev nD) (t : Fin cfg5.N) (q : Fin 160) :
    (iblk5 V c 2 t : S1x160.Idx → EReal) (ix2 (0 : Fin 1) q) = (V c main_v90 : S1x160.Idx → EReal) (ix2 (0 : Fin 1) q) := by
  obtain ⟨-, -, -, -, -, -, e0, e1, -⟩ := idx_facts t
  show (V c main_v90 : S1x160.Idx → EReal) (((cfg5.win 2).blk t).view.emb (ix2 (0 : Fin 1) q)) = _
  refine congrArg _ (funext fun a => Fin.ext ?_)
  match a with
  | ⟨0, _⟩ => show win5_2.index t (0 : Fin 2) * 1 + 1 * 0 = 0; omega
  | ⟨1, _⟩ => show win5_2.index t (1 : Fin 2) * 160 + 1 * q.val = q.val; omega

theorem read_row3 (c : Dev nD) (t : Fin cfg5.N) (q : Fin 160) :
    (iblk5 V c 3 t : S1x160.Idx → EReal) (ix2 (0 : Fin 1) q) = (V c main_v91 : S1x160.Idx → EReal) (ix2 (0 : Fin 1) q) := by
  obtain ⟨-, -, -, -, -, -, -, -, e0, e1, -⟩ := idx_facts t
  show (V c main_v91 : S1x160.Idx → EReal) (((cfg5.win 3).blk t).view.emb (ix2 (0 : Fin 1) q)) = _
  refine congrArg _ (funext fun a => Fin.ext ?_)
  match a with
  | ⟨0, _⟩ => show win5_3.index t (0 : Fin 2) * 1 + 1 * 0 = 0; omega
  | ⟨1, _⟩ => show win5_3.index t (1 : Fin 2) * 160 + 1 * q.val = q.val; omega

theorem read_row4 (c : Dev nD) (t : Fin cfg5.N) (q : Fin 160) :
    (iblk5 V c 4 t : S1x160.Idx → EReal) (ix2 (0 : Fin 1) q) = (V c main_v92 : S1x160.Idx → EReal) (ix2 (0 : Fin 1) q) := by
  obtain ⟨-, -, -, -, -, -, -, -, -, -, e0, e1⟩ := idx_facts t
  show (V c main_v92 : S1x160.Idx → EReal) (((cfg5.win 4).blk t).view.emb (ix2 (0 : Fin 1) q)) = _
  refine congrArg _ (funext fun a => Fin.ext ?_)
  match a with
  | ⟨0, _⟩ => show win5_4.index t (0 : Fin 2) * 1 + 1 * 0 = 0; omega
  | ⟨1, _⟩ => show win5_4.index t (1 : Fin 2) * 160 + 1 * q.val = q.val; omega

/-- WHAT POINT `t` WRITES BACK is block `t` of the reference's layer applied to the activations as the region finds them
    and to the four `[160]` rows whose host reshapes the row windows hold. -/
theorem flushed_eq (c : Dev nD) (g b mu var : FVec Ideal S160 .f32)
    (hg : (V c main_v89 : S1x160.Idx → EReal) = shapeCast S1x160 g shapeCasts_S160_S1x160)
    (hb : (V c main_v90 : S1x160.Idx → EReal) = shapeCast S1x160 b shapeCasts_S160_S1x160)
    (hmu : (V c main_v91 : S1x160.Idx → EReal) = shapeCast S1x160 mu shapeCasts_S160_S1x160)
    (hvar : (V c main_v92 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) (t : Fin cfg5.N) :
    (dat5 (F := Ideal) V c).flushed 5 t = ((cfg5.win 5).blk t).view.read (Elt Ideal)
      (refLayer h1 h2 hE hZ (V c main_v88 : S50000x160.Idx → EReal) g b mu var) := by
  show (cfg5.win 5).cut (grid5.coords t) ((dat5 V c).after 5 t) = _
  rw [after5_5]
  unfold out5_5
  rw [View.canon_unit_zero hz]
  simp only [View.ld_unit_zero (S := S2000x160) hz, View.ld_unit_zero (S := S1x160) hz]
  refine funext fun (j : S2000x160.Idx) => ?_
  obtain ⟨p, q, rfl⟩ : ∃ (p : Fin 2000) (q : Fin 160), j = ix2 p q := ⟨j 0, j 1, eq_ix2 j⟩
  have hN : cfg5.N = 25 := N_5
  have ht : t.val < 25 := hN ▸ t.isLt
  obtain ⟨r, hr⟩ : ∃ r : Fin 50000, r.val = t.val * 2000 + p.val := ⟨⟨t.val * 2000 + p.val, by omega⟩, rfl⟩
  show k5_pay1 (F := Ideal) (iblk5 V c 0 t) (iblk5 V c 1 t) (iblk5 V c 2 t) (iblk5 V c 3 t) (iblk5 V c 4 t) (ix2 p q)
    = refLayer h1 h2 hE hZ (V c main_v88 : S50000x160.Idx → EReal) g b mu var (((cfg5.win 5).blk t).view.emb (ix2 p q))
  rw [emb_out t p q r hr, refLayer_apply]
  refine (payload_apply (iblk5 V c 0 t) (iblk5 V c 1 t) (iblk5 V c 2 t) (iblk5 V c 3 t) (iblk5 V c 4 t) p q).trans ?_
  rw [read_act V c t p q r hr, read_row1 V c t q, read_row2 V c t q, read_row3 V c t q, read_row4 V c t q, hg, hb, hmu, hvar,
    shapeCast_a_1a_apply, shapeCast_a_1a_apply, shapeCast_a_1a_apply, shapeCast_a_1a_apply]
/-- An index of the output array is in point `t`'s block iff each coordinate is in the block's range on its axis. -/
theorem mem_blk (t : Fin cfg5.N) (i : S50000x160.Idx) :
    i ∈ ((cfg5.win 5).blk t).view.set ↔ ∀ a : Fin 2, win5_5.index t a * S2000x160.size a ≤ (i a).val ∧ (i a).val < win5_5.index t a * S2000x160.size a + S2000x160.size a := by
  show i ∈ ((View.whole main_v93).slice (win5_5.rect t)).set ↔ _
  rw [View.set_slice_whole, Rect.mem_set_unit]
  exact Iff.rfl

/-- Every index of the output array is in some point's block: row `r` is in the block of point `r / 2000`. -/
theorem cover (i : S50000x160.Idx) : ∃ t : Fin cfg5.N, (cfg5.win 5).flush t = true ∧ i ∈ ((cfg5.win 5).blk t).view.set := by
  have hN : cfg5.N = 25 := N_5
  have hi0 : (i 0).val < 50000 := (i 0).isLt
  have hi1 : (i 1).val < 160 := (i 1).isLt
  obtain ⟨t, ht⟩ : ∃ t : Fin cfg5.N, t.val = (i 0).val / 2000 := ⟨⟨(i 0).val / 2000, by rw [hN]; omega⟩, rfl⟩
  obtain ⟨-, -, e0, e1, -⟩ := idx_facts t
  refine ⟨t, flush5_5 t, ?_⟩
  rw [mem_blk]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 160 ≤ (i 1).val ∧ (i 1).val < win5_5.index t (1 : Fin 2) * 160 + 160; omega

/-- THE OUTPUT ARRAY after the region: the reference's BatchNorm + ReLU layer of the activations as the region finds them
    and of the four `[160]` rows whose host reshapes the row windows hold — whatever evidence the broadcasts carry. -/
theorem final (c : Dev nD) (g b mu var : FVec Ideal S160 .f32)
    (hg : (V c main_v89 : S1x160.Idx → EReal) = shapeCast S1x160 g shapeCasts_S160_S1x160)
    (hb : (V c main_v90 : S1x160.Idx → EReal) = shapeCast S1x160 b shapeCasts_S160_S1x160)
    (hmu : (V c main_v91 : S1x160.Idx → EReal) = shapeCast S1x160 mu shapeCasts_S160_S1x160)
    (hvar : (V c main_v92 : S1x160.Idx → EReal) = shapeCast S1x160 var shapeCasts_S160_S1x160)
    (h1 : S160.BroadcastsInDim S1x160 ![1]) (h2 : S1x160.BroadcastsInDim S50000x160 ![0, 1])
    (hE : S_.BroadcastsInDim S160 ![]) (hZ : S_.BroadcastsInDim S50000x160 ![]) :
    (dat5 (F := Ideal) V c).arrAt 5 cfg5.N
      = maximumf (addf (mulf (mulf (subf (V c main_v88 : S50000x160.Idx → EReal) (broadcastInDim S50000x160 ![0, 1] h2 (broadcastInDim S1x160 ![1] h1 mu)))
        (broadcastInDim S50000x160 ![0, 1] h2 (broadcastInDim S1x160 ![1] h1
          (Host.rsqrt (F := Ideal) (addf var (broadcastInDim S160 ![] hE (constant (F := Ideal) S_ .f32 0x3727C5AC#32)))))))
        (broadcastInDim S50000x160 ![0, 1] h2 (broadcastInDim S1x160 ![1] h1 g)))
        (broadcastInDim S50000x160 ![0, 1] h2 (broadcastInDim S1x160 ![1] h1 b)))
        (broadcastInDim S50000x160 ![] hZ (constant (F := Ideal) S_ .f32 0x00000000#32)) :=
  (dat5 (F := Ideal) V c).arrAt_eq_of_cover 5 (refLayer h1 h2 hE hZ (V c main_v88 : S50000x160.Idx → EReal) g b mu var)
    (fun t _ => flushed_eq V c g b mu var hg hb hmu hvar h1 h2 hE hZ t) cover

end Cert.KernelIdeal.NormRelu5

end
-- ==== Proof.Head.lean ====
/-
  The classifier head of the network (region 6 of the kernel program, one grid point, every window whole).

  Mathematics. With P the pooled features (512 x 160), W1 (160 x 80), b1 (80), W2 (80 x 2), b2 (2):

      out = max(P · W1 + 1 b1ᵀ, 0) · W2 + 1 b2ᵀ.

  The kernel body computes this with its operands converted to bf16 (the identity on the extended reals), each matrix
  product accumulated into a zero splat (at the extended reals: the sum over the contraction index of the products, which
  is also what the host's dot_general is), the biases given as 1 x n rows broadcast down the rows, and the rectifier as a
  maximum with the zero splat. The reference computes the same tree with dot_general and broadcast_in_dim of the 1-D
  biases. The two trees are equal as functions: no finiteness hypothesis is needed.

  Then the frame: the grid has one point whose blocks are the whole arrays, so the input blocks are the arrays as the
  region finds them, the single store leaves the payload, and the single write-back covers the output array.
-/
import proofs.«131882_j48490180772588_1_alg».proof.Proof.Gen.KernelIdeal.Frame
import proofs.«131882_j48490180772588_1_alg».proof.Proof.Gen.ReferenceIdeal
import Idealize.ShloMosaic.Lib.Pipeline.Value
import Idealize.ShloMosaic.Lib.ValueIdx
import Idealize.ShloMosaic.PureOps.Ideal
import Idealize.ShloMosaic.PureOps.Ideal.Laws

noncomputable section
namespace Cert.KernelIdeal.Head
open Cert.KernelIdeal Cert.KernelIdeal.Gen Idealize.ShloMosaic

/-- A matrix product accumulated into the zero splat is the host's dot_general of the same operands:
    at the extended reals both are the sum over the contraction index of the operands' products. -/
theorem matmul_zero_eq_dotGeneral {sl sr so : Shape} {φ₁ φ₂ ψ₁ ψ₂ : FTy} (d : DotDims sl sr so)
    (lhs : sl.Idx → EReal) (rhs : sr.Idx → EReal) :
    matmul (F := Ideal) (φ₁ := φ₁) (φ₂ := φ₂) d none lhs rhs (constant so .f32 0x00000000#32)
      = Host.dotGeneral (F := Ideal) (φ₁ := ψ₁) (φ₂ := ψ₂) d none lhs rhs := by
  funext j
  simp only [matmul, Host.dotGeneral]
  rw [Ideal.matmul_constant_zero_apply, Ideal.dotGeneral_apply]

/-- The bias of the hidden layer as a row, broadcast down the 512 rows: either way the entry at (r, c) is b1 c. -/
theorem bias80_eq (b1 : FVec Ideal S80 .f32) :
    broadcastTo S512x80 (shapeCast S1x80 b1 shapeCasts_S80_S1x80) broadcasts_S1x80_S512x80
      = broadcastInDim S512x80 ![0, 1] Cert.ReferenceIdeal.Gen.bcast_S1x80_S512x80_0_1 (broadcastInDim S1x80 ![1] Cert.ReferenceIdeal.Gen.bcast_S80_S1x80_1 b1) := by
  funext j
  have e1 : broadcastTo S512x80 (shapeCast S1x80 b1 shapeCasts_S80_S1x80) broadcasts_S1x80_S512x80 j
      = shapeCast S1x80 b1 shapeCasts_S80_S1x80 (ValueIdx.ix2 (0 : Fin 1) (j 1)) :=
    broadcastTo_apply _ _ j (ValueIdx.ix2 (0 : Fin 1) (j 1)) (fun a => by
        match a with
        | ⟨0, _⟩ => rfl
        | ⟨1, _⟩ => rfl)
  have e2 : shapeCast S1x80 b1 shapeCasts_S80_S1x80 (ValueIdx.ix2 (0 : Fin 1) (j 1)) = b1 (ValueIdx.ix1 (j 1)) :=
    shapeCast_apply _ _ _ (ValueIdx.ix1 (j 1)) (by
      rw [Shape.rowMajor_val_one, Shape.rowMajor_val_two]; show (j 1).val = 0 * 80 + (j 1).val; omega)
  have e3 : broadcastInDim S512x80 ![0, 1] Cert.ReferenceIdeal.Gen.bcast_S1x80_S512x80_0_1 (broadcastInDim S1x80 ![1] Cert.ReferenceIdeal.Gen.bcast_S80_S1x80_1 b1) j
      = broadcastInDim S1x80 ![1] Cert.ReferenceIdeal.Gen.bcast_S80_S1x80_1 b1 (ValueIdx.ix2 (0 : Fin 1) (j 1)) :=
    broadcastInDim_apply _ _ _ j (ValueIdx.ix2 (0 : Fin 1) (j 1)) (fun a => by
        match a with
        | ⟨0, _⟩ => rfl
        | ⟨1, _⟩ => rfl)
  have e4 : broadcastInDim S1x80 ![1] Cert.ReferenceIdeal.Gen.bcast_S80_S1x80_1 b1 (ValueIdx.ix2 (0 : Fin 1) (j 1)) = b1 (ValueIdx.ix1 (j 1)) :=
    broadcastInDim_apply _ _ _ _ (ValueIdx.ix1 (j 1)) (fun a => by
        match a with
        | ⟨0, _⟩ => rfl)
  rw [e1, e2, e3, e4]

/-- The bias of the output layer likewise: the entry at (r, c) is b2 c. -/
theorem bias2_eq (b2 : FVec Ideal S2 .f32) :
    broadcastTo S512x2 (shapeCast S1x2 b2 shapeCasts_S2_S1x2) broadcasts_S1x2_S512x2
      = broadcastInDim S512x2 ![0, 1] Cert.ReferenceIdeal.Gen.bcast_S1x2_S512x2_0_1 (broadcastInDim S1x2 ![1] Cert.ReferenceIdeal.Gen.bcast_S2_S1x2_1 b2) := by
  funext j
  have e1 : broadcastTo S512x2 (shapeCast S1x2 b2 shapeCasts_S2_S1x2) broadcasts_S1x2_S512x2 j
      = shapeCast S1x2 b2 shapeCasts_S2_S1x2 (ValueIdx.ix2 (0 : Fin 1) (j 1)) :=
    broadcastTo_apply _ _ j (ValueIdx.ix2 (0 : Fin 1) (j 1)) (fun a => by
        match a with
        | ⟨0, _⟩ => rfl
        | ⟨1, _⟩ => rfl)
  have e2 : shapeCast S1x2 b2 shapeCasts_S2_S1x2 (ValueIdx.ix2 (0 : Fin 1) (j 1)) = b2 (ValueIdx.ix1 (j 1)) :=
    shapeCast_apply _ _ _ (ValueIdx.ix1 (j 1)) (by
      rw [Shape.rowMajor_val_one, Shape.rowMajor_val_two]; show (j 1).val = 0 * 2 + (j 1).val; omega)
  have e3 : broadcastInDim S512x2 ![0, 1] Cert.ReferenceIdeal.Gen.bcast_S1x2_S512x2_0_1 (broadcastInDim S1x2 ![1] Cert.ReferenceIdeal.Gen.bcast_S2_S1x2_1 b2) j
      = broadcastInDim S1x2 ![1] Cert.ReferenceIdeal.Gen.bcast_S2_S1x2_1 b2 (ValueIdx.ix2 (0 : Fin 1) (j 1)) :=
    broadcastInDim_apply _ _ _ j (ValueIdx.ix2 (0 : Fin 1) (j 1)) (fun a => by
        match a with
        | ⟨0, _⟩ => rfl
        | ⟨1, _⟩ => rfl)
  have e4 : broadcastInDim S1x2 ![1] Cert.ReferenceIdeal.Gen.bcast_S2_S1x2_1 b2 (ValueIdx.ix2 (0 : Fin 1) (j 1)) = b2 (ValueIdx.ix1 (j 1)) :=
    broadcastInDim_apply _ _ _ _ (ValueIdx.ix1 (j 1)) (fun a => by
        match a with
        | ⟨0, _⟩ => rfl)
  rw [e1, e2, e3, e4]

/-- The head as the reference writes it: two dense layers with a rectifier between, as one function of the pooled
    features, the two weight matrices and the two 1-D biases. -/
abbrev headOf (p : FVec Ideal S512x160 .f32) (w1 : FVec Ideal S160x80 .f32) (b1 : FVec Ideal S80 .f32)
    (w2 : FVec Ideal S80x2 .f32) (b2 : FVec Ideal S2 .f32) : FVec Ideal S512x2 .f32 :=
  addf (Host.dotGeneral Cert.ReferenceIdeal.dot_S512x80_S80x2_S512x2_1_0_0_1_n_n none (maximumf (addf (Host.dotGeneral Cert.ReferenceIdeal.dot_S512x160_S160x80_S512x80_1_0_0_1_n_n none p w1) (broadcastInDim S512x80 ![0, 1] Cert.ReferenceIdeal.Gen.bcast_S1x80_S512x80_0_1 (broadcastInDim S1x80 ![1] Cert.ReferenceIdeal.Gen.bcast_S80_S1x80_1 b1))) (broadcastInDim S512x80 ![] Cert.ReferenceIdeal.Gen.bcast_S_S512x80 (constant S_ .f32 0x00000000#32))) w2) (broadcastInDim S512x2 ![0, 1] Cert.ReferenceIdeal.Gen.bcast_S1x2_S512x2_0_1 (broadcastInDim S1x2 ![1] Cert.ReferenceIdeal.Gen.bcast_S2_S1x2_1 b2))

set_option maxHeartbeats 400000 in
/-- The body's payload, at the biases reshaped to rows, is that function: the conversions to bf16 are the identity on
    the extended reals, each matrix product into the zero splat is the host's dot_general, the biases agree entry by
    entry, and the rectifier's zero is the same splat. -/
theorem pay_eq (x0 : Vec Ideal S512x160 .f32) (x1 : Vec Ideal S160x80 .f32) (b1 : FVec Ideal S80 .f32)
    (x3 : Vec Ideal S80x2 .f32) (b2 : FVec Ideal S2 .f32) :
    k6_pay1 (F := Ideal) x0 x1 (shapeCast S1x80 b1 shapeCasts_S80_S1x80) x3 (shapeCast S1x2 b2 shapeCasts_S2_S1x2)
      = headOf x0 x1 b1 x3 b2 := by
  unfold k6_pay1
  simp only [shapeCast_self]
  rw [bias80_eq, bias2_eq, matmul_zero_eq_dotGeneral (ψ₁ := .f32) (ψ₂ := .f32), matmul_zero_eq_dotGeneral (ψ₁ := .f32) (ψ₂ := .f32)]
  rfl

/-! ## The region's frame, read at its one grid point

The grid has one point and every window's block is its whole array, so each input block is the array as the region
finds it, the one store leaves the payload, and the one write-back fills the output array. -/

open Idealize.ShloMosaic.TcCoe Idealize.SL.Sem
open Idealize.ShloMosaic.Pipeline (Dat)

variable (V : (c : Dev nD) → (b : Ref sig .tc) → Buf (Elt Ideal) ((c : Thread nD τ).loc b))

/-- The region's six arrays, in window order. -/
theorem arrRef6 : Pipeline.arrRef spec6 0 = main_v104 ∧ Pipeline.arrRef spec6 1 = main_arg21 ∧ Pipeline.arrRef spec6 2 = main_v105
    ∧ Pipeline.arrRef spec6 3 = main_arg23 ∧ Pipeline.arrRef spec6 4 = main_v106 ∧ Pipeline.arrRef spec6 5 = main_v107 :=
  ⟨rfl, rfl, rfl, rfl, rfl, rfl⟩

theorem iblk0_whole (c : Dev nD) (t : Fin cfg6.N) :
    (iblk6 (F := Ideal) V c 0 t : Vec Ideal S512x160 .f32) = V c main_v104 := by
  obtain rfl : t = t6_0 := fin_N6 t
  have hz : (fun a => win6_0.index t6_0 a * main_v104.ty.shape.size a) = fun _ => 0 :=
    funext fun a => by fin_cases a <;> decide
  exact Memref.read_access_unit_zero (Elt Ideal) main_v104 hz (fun a => by rw [congrFun hz a]; simp) (V c main_v104)

theorem iblk1_whole (c : Dev nD) (t : Fin cfg6.N) :
    (iblk6 (F := Ideal) V c 1 t : Vec Ideal S160x80 .f32) = V c main_arg21 := by
  obtain rfl : t = t6_0 := fin_N6 t
  have hz : (fun a => win6_1.index t6_0 a * main_arg21.ty.shape.size a) = fun _ => 0 :=
    funext fun a => by fin_cases a <;> decide
  exact Memref.read_access_unit_zero (Elt Ideal) main_arg21 hz (fun a => by rw [congrFun hz a]; simp) (V c main_arg21)

theorem iblk2_whole (c : Dev nD) (t : Fin cfg6.N) :
    (iblk6 (F := Ideal) V c 2 t : Vec Ideal S1x80 .f32) = V c main_v105 := by
  obtain rfl : t = t6_0 := fin_N6 t
  have hz : (fun a => win6_2.index t6_0 a * main_v105.ty.shape.size a) = fun _ => 0 :=
    funext fun a => by fin_cases a <;> decide
  exact Memref.read_access_unit_zero (Elt Ideal) main_v105 hz (fun a => by rw [congrFun hz a]; simp) (V c main_v105)

theorem iblk3_whole (c : Dev nD) (t : Fin cfg6.N) :
    (iblk6 (F := Ideal) V c 3 t : Vec Ideal S80x2 .f32) = V c main_arg23 := by
  obtain rfl : t = t6_0 := fin_N6 t
  have hz : (fun a => win6_3.index t6_0 a * main_arg23.ty.shape.size a) = fun _ => 0 :=
    funext fun a => by fin_cases a <;> decide
  exact Memref.read_access_unit_zero (Elt Ideal) main_arg23 hz (fun a => by rw [congrFun hz a]; simp) (V c main_arg23)

theorem iblk4_whole (c : Dev nD) (t : Fin cfg6.N) :
    (iblk6 (F := Ideal) V c 4 t : Vec Ideal S1x2 .f32) = V c main_v106 := by
  obtain rfl : t = t6_0 := fin_N6 t
  have hz : (fun a => win6_4.index t6_0 a * main_v106.ty.shape.size a) = fun _ => 0 :=
    funext fun a => by fin_cases a <;> decide
  exact Memref.read_access_unit_zero (Elt Ideal) main_v106 hz (fun a => by rw [congrFun hz a]; simp) (V c main_v106)

theorem zero2 : (![0, 0] : Fin 2 → Nat) = fun _ => 0 := funext fun a => by fin_cases a <;> rfl

/-- The body's one store, through the whole-buffer rectangle, of the payload of whole-buffer loads: the head function
    of the input buffers. -/
theorem out_eq (x0 : Vec Ideal S512x160 .f32) (x1 : Vec Ideal S160x80 .f32) (b1 : FVec Ideal S80 .f32)
    (x3 : Vec Ideal S80x2 .f32) (b2 : FVec Ideal S2 .f32) :
    out6_5 (F := Ideal) x0 x1 (shapeCast S1x80 b1 shapeCasts_S80_S1x80) x3 (shapeCast S1x2 b2 shapeCasts_S2_S1x2)
      = headOf x0 x1 b1 x3 b2 := by
  unfold out6_5
  rw [View.canon_unit_zero zero2]
  simp only [View.ld_unit_zero (S := S512x160) zero2, View.ld_unit_zero (S := S160x80) zero2, View.ld_unit_zero (S := S1x80) zero2,
    View.ld_unit_zero (S := S80x2) zero2, View.ld_unit_zero (S := S1x2) zero2]
  exact pay_eq x0 x1 b1 x3 b2

/-- What the one point writes back is the head function of the arrays, read through the (whole-array) block. -/
theorem flushed_eq (c : Dev nD) (b1 : FVec Ideal S80 .f32) (b2 : FVec Ideal S2 .f32)
    (h1 : V c main_v105 = shapeCast S1x80 b1 shapeCasts_S80_S1x80)
    (h2 : V c main_v106 = shapeCast S1x2 b2 shapeCasts_S2_S1x2) (t : Fin cfg6.N) :
    (dat6 (F := Ideal) V c).flushed 5 t
      = ((cfg6.win 5).blk t).view.read (Elt Ideal) (headOf (V c main_v104) (V c main_arg21) b1 (V c main_arg23) b2) := by
  obtain rfl : t = t6_0 := fin_N6 t
  show (cfg6.win 5).cut (grid6.coords t6_0) ((dat6 (F := Ideal) V c).after 5 t6_0) = _
  rw [after6_5, iblk0_whole, iblk1_whole, iblk2_whole, iblk3_whole, iblk4_whole, h1, h2, out_eq]
  have hz : (fun a => win6_5.index t6_0 a * main_v107.ty.shape.size a) = fun _ => 0 :=
    funext fun a => by fin_cases a <;> decide
  exact (Memref.read_access_unit_zero (Elt Ideal) main_v107 hz (fun a => by rw [congrFun hz a]; simp)
    (headOf (V c main_v104) (V c main_arg21) b1 (V c main_arg23) b2)).symm

/-- The one block is the whole output array. -/
theorem cover (i : S512x2.Idx) : ∃ t : Fin cfg6.N, (cfg6.win 5).flush t = true ∧ i ∈ ((cfg6.win 5).blk t).view.set := by
  refine ⟨t6_0, flush6_5 t6_0, ?_⟩
  have hz : (fun a => win6_5.index t6_0 a * main_v107.ty.shape.size a) = fun _ => 0 :=
    funext fun a => by fin_cases a <;> decide
  show i ∈ ((View.whole main_v107).slice (win6_5.rect t6_0)).set
  rw [View.set_slice_whole]
  exact View.mem_set_unit_zero hz _ i

/-- THE HEAD'S OUTPUT ARRAY after the region: the reference's two dense layers (dot_general, bias, rectifier,
    dot_general, bias) of the arrays the region finds, the two bias rows being the reshaped 1-D biases. -/
theorem final (c : Dev nD) (b1 : FVec Ideal S80 .f32) (b2 : FVec Ideal S2 .f32)
    (h1 : V c main_v105 = shapeCast S1x80 b1 shapeCasts_S80_S1x80)
    (h2 : V c main_v106 = shapeCast S1x2 b2 shapeCasts_S2_S1x2) :
    (dat6 (F := Ideal) V c).arrAt 5 cfg6.N
      = addf (Host.dotGeneral (φ₁ := .f32) (φ₂ := .f32) Cert.ReferenceIdeal.dot_S512x80_S80x2_S512x2_1_0_0_1_n_n none (maximumf (addf (Host.dotGeneral (φ₁ := .f32) (φ₂ := .f32) Cert.ReferenceIdeal.dot_S512x160_S160x80_S512x80_1_0_0_1_n_n none (V c main_v104) (V c main_arg21)) (broadcastInDim S512x80 ![0, 1] Cert.ReferenceIdeal.Gen.bcast_S1x80_S512x80_0_1 (broadcastInDim S1x80 ![1] Cert.ReferenceIdeal.Gen.bcast_S80_S1x80_1 b1))) (broadcastInDim S512x80 ![] Cert.ReferenceIdeal.Gen.bcast_S_S512x80 (constant S_ .f32 0x00000000#32))) (V c main_arg23)) (broadcastInDim S512x2 ![0, 1] Cert.ReferenceIdeal.Gen.bcast_S1x2_S512x2_0_1 (broadcastInDim S1x2 ![1] Cert.ReferenceIdeal.Gen.bcast_S2_S1x2_1 b2)) :=
  (dat6 (F := Ideal) V c).arrAt_eq_of_cover 5 (headOf (V c main_v104) (V c main_arg21) b1 (V c main_arg23) b2)
    (fun t _ => flushed_eq V c b1 b2 h1 h2 t) cover

end Cert.KernelIdeal.Head

end
-- ==== Proof.Hops.lean ====
/- The idealized kernel program's result array as a function of the argument arrays. The program is seven pipelined
   regions among stretches of host operations. Reading the fold of its segments from the launch memory forwards:
   the first stretches build the source list, the destination list and the edge-coefficient column; each layer is a
   region leaving the whole product h·W, a host stretch aggregating it along the edge list (gather, scale, scatter-add,
   plus bias), and a region normalising and rectifying it; the last stretches pool the node rows per graph id; the last
   region is the perceptron head. Each region's output array is what its value lemma says of the arrays it finds; each
   stretch's buffers are its operations applied to what it finds; buffers nobody writes are carried. The composition is
   the same tree of operations as the reference's stages. -/
import proofs.«131882_j48490180772588_1_alg».proof.Proof.Gen.KernelIdeal.Frame
import proofs.«131882_j48490180772588_1_alg».proof.Proof.Stages
import proofs.«131882_j48490180772588_1_alg».proof.Proof.Carry
import proofs.«131882_j48490180772588_1_alg».proof.Proof.Linear0
import proofs.«131882_j48490180772588_1_alg».proof.Proof.Linear2
import proofs.«131882_j48490180772588_1_alg».proof.Proof.Linear4
import proofs.«131882_j48490180772588_1_alg».proof.Proof.NormRelu1
import proofs.«131882_j48490180772588_1_alg».proof.Proof.NormRelu3
import proofs.«131882_j48490180772588_1_alg».proof.Proof.NormRelu5
import proofs.«131882_j48490180772588_1_alg».proof.Proof.Head
import Idealize.ShloMosaic.PureOps.Ideal
import Idealize.ShloMosaic.Lib.StableHlo.Run

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The in-degree of every node, counted along a destination list. -/
def deg (d : (⟨S1650000, .i32⟩ : BufTy).Contents (Elt F)) : (⟨S50000, .f32⟩ : BufTy).Contents (Elt F) :=
  (Host.scatterAdd scatter_S50000_S1650000x1_S1650000_n_0_0_1 (broadcastInDim S50000 ![] bcast_S_S50000 (constant (F := F) S_ .f32 0x00000000#32)) (broadcastInDim S1650000x1 ![0] bcast_S1650000_S1650000x1_0 d) (broadcastInDim S1650000 ![] bcast_S_S1650000 (constant (F := F) S_ .f32 0x3F800000#32)))

/-- Its inverse square root, zero where the degree is not positive. -/
def inv (d : (⟨S1650000, .i32⟩ : BufTy).Contents (Elt F)) : (⟨S50000, .f32⟩ : BufTy).Contents (Elt F) :=
  (select (cmpf (F := F) .ogt (deg d) (broadcastInDim S50000 ![] bcast_S_S50000 (constant (F := F) S_ .f32 0x00000000#32))) (Host.rsqrt (F := F) (deg d)) (broadcastInDim S50000 ![] bcast_S_S50000 (id (constant (F := F) S_ .f32 0x00000000#32))))

/-- The edge-coefficient column from a given inverse-square-root degree array. -/
def coefInv (s d : (⟨S1650000, .i32⟩ : BufTy).Contents (Elt F)) (iv : (⟨S50000, .f32⟩ : BufTy).Contents (Elt F)) : (⟨S1650000x1, .f32⟩ : BufTy).Contents (Elt F) :=
  (broadcastInDim S1650000x1 ![0] bcast_S1650000_S1650000x1_0 (mulf (Host.gather gather_S50000_S1650000x1_S1650000_n_0_n_n_0_1_1 iv (broadcastInDim S1650000x1 ![0] bcast_S1650000_S1650000x1_0 (select (cmpi .slt s (broadcastInDim S1650000 ![] bcast_S_S1650000 (constantI S_ 32 0#32))) (addi s (broadcastInDim S1650000 ![] bcast_S_S1650000 (constantI S_ 32 50000#32))) s))) (Host.gather gather_S50000_S1650000x1_S1650000_n_0_n_n_0_1_1 iv (broadcastInDim S1650000x1 ![0] bcast_S1650000_S1650000x1_0 (select (cmpi .slt d (broadcastInDim S1650000 ![] bcast_S_S1650000 (constantI S_ 32 0#32))) (addi d (broadcastInDim S1650000 ![] bcast_S_S1650000 (constantI S_ 32 50000#32))) d)))))

theorem coef_eq (s d : (⟨S1650000, .i32⟩ : BufTy).Contents (Elt F)) : coef (F := F) s d = coefInv s d (inv d) := rfl

/-- The node rows summed per graph id. -/
def sums (batch : (⟨S50000, .i32⟩ : BufTy).Contents (Elt F)) (h : (⟨S50000x160, .f32⟩ : BufTy).Contents (Elt F)) : (⟨S512x160, .f32⟩ : BufTy).Contents (Elt F) :=
  (Host.scatterAdd scatter_S512x160_S50000x1_S50000x160_1_0_0_1 (broadcastInDim S512x160 ![] bcast_S_S512x160 (constant (F := F) S_ .f32 0x00000000#32)) (broadcastInDim S50000x1 ![0] bcast_S50000_S50000x1_0 batch) h)

/-- The number of nodes per graph id. -/
def cnt (batch : (⟨S50000, .i32⟩ : BufTy).Contents (Elt F)) : (⟨S512, .f32⟩ : BufTy).Contents (Elt F) :=
  (Host.scatterAdd scatter_S512_S50000x1_S50000_n_0_0_1 (broadcastInDim S512 ![] bcast_S_S512 (constant (F := F) S_ .f32 0x00000000#32)) (broadcastInDim S50000x1 ![0] bcast_S50000_S50000x1_0 batch) (broadcastInDim S50000 ![] bcast_S_S50000 (constant (F := F) S_ .f32 0x3F800000#32)))

/-- The sums divided by a count column broadcast along the rows. -/
def poolOf (sm : (⟨S512x160, .f32⟩ : BufTy).Contents (Elt F)) (ct : (⟨S512, .f32⟩ : BufTy).Contents (Elt F)) : (⟨S512x160, .f32⟩ : BufTy).Contents (Elt F) :=
  (Host.divf sm (broadcastInDim S512x160 ![0, 1] bcast_S512x1_S512x160_0_1 (broadcastInDim S512x1 ![0] bcast_S512_S512x1_0 ct)))

theorem pool_eq (batch : (⟨S50000, .i32⟩ : BufTy).Contents (Elt F)) (h : (⟨S50000x160, .f32⟩ : BufTy).Contents (Elt F)) :
    pool (F := F) batch h = poolOf (sums batch h) (maximumf (broadcastInDim S512 ![] bcast_S_S512 (id (constant (F := F) S_ .f32 0x3F800000#32))) (cnt batch)) := rfl

end Cert.ReferenceIdeal.Stages

namespace Cert.KernelIdeal.Hops

open Cert.KernelIdeal Cert.KernelIdeal.Gen Idealize.ShloMosaic Idealize.ShloMosaic.TcCoe Idealize.SL.Sem
open Idealize.ShloMosaic.StableHlo (after_cons after_nil)

variable (m : (ℓ : Loc nD τ sig) → Buf (Elt Ideal) ℓ) (ρ : Dev nD → PrngReg)

/-! ### Before the first region: the lists and the coefficient -/

set_option maxHeartbeats 4000000 in
theorem src2 (c : Dev nD) : (W2 m ρ c (Proc.devRef .tc main_v5)) = Cert.ReferenceIdeal.Stages.src (F := Ideal) (m ((c : Thread nD τ).loc main_arg1)) := by
  show StableHlo.after hostOps0_1 (StableHlo.after hostOps0 (W0 m ρ c)) (Proc.devRef .tc main_v5) = _
  dsimp only [hostOps0, hostOps0_1]
  after_results_simp <;> rfl

set_option maxHeartbeats 4000000 in
theorem dst2 (c : Dev nD) : (W2 m ρ c (Proc.devRef .tc main_v6)) = Cert.ReferenceIdeal.Stages.dst (F := Ideal) (m ((c : Thread nD τ).loc main_arg1)) := by
  show StableHlo.after hostOps0_1 (StableHlo.after hostOps0 (W0 m ρ c)) (Proc.devRef .tc main_v6) = _
  dsimp only [hostOps0, hostOps0_1]
  after_results_simp <;> rfl

set_option maxHeartbeats 4000000 in
theorem src3 (c : Dev nD) : (W3 m ρ c (Proc.devRef .tc main_v5)) = Cert.ReferenceIdeal.Stages.src (F := Ideal) (m ((c : Thread nD τ).loc main_arg1)) := by
  show StableHlo.after hostOps0_2 (StableHlo.after hostOps0_1 (StableHlo.after hostOps0 (W0 m ρ c))) (Proc.devRef .tc main_v5) = _
  dsimp only [hostOps0, hostOps0_1, hostOps0_2]
  after_results_simp <;> rfl

set_option maxHeartbeats 4000000 in
theorem dst3 (c : Dev nD) : (W3 m ρ c (Proc.devRef .tc main_v6)) = Cert.ReferenceIdeal.Stages.dst (F := Ideal) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results_simp <;> rfl

set_option maxHeartbeats 4000000 in
theorem pos1 (c : Dev nD) : (W1 m ρ c (Proc.devRef .tc main_v12)) = cmpf (F := Ideal) .ogt (Cert.ReferenceIdeal.Stages.deg (F := Ideal) (Cert.ReferenceIdeal.Stages.dst (F := Ideal) (m ((c : Thread nD τ).loc main_arg1)))) (broadcastInDim S50000 ![] Cert.ReferenceIdeal.Gen.bcast_S_S50000 (constant (F := Ideal) S_ .f32 0x00000000#32)) := by
  show StableHlo.after hostOps0 (W0 m ρ c) (Proc.devRef .tc main_v12) = _
  dsimp only [hostOps0]
  after_results_simp <;> rfl

set_option maxHeartbeats 4000000 in
theorem rsq1 (c : Dev nD) : (W1 m ρ c (Proc.devRef .tc main_v13)) = Host.rsqrt (F := Ideal) (φ := .f32) (Cert.ReferenceIdeal.Stages.deg (F := Ideal) (Cert.ReferenceIdeal.Stages.dst (F := Ideal) (m ((c : Thread nD τ).loc main_arg1)))) := by
  show StableHlo.after hostOps0 (W0 m ρ c) (Proc.devRef .tc main_v13) = _
  dsimp only [hostOps0]
  after_results_simp <;> rfl

set_option maxHeartbeats 4000000 in
theorem zero1 (c : Dev nD) : (W1 m ρ c (Proc.devRef .tc main_cst_2)) = constant (F := Ideal) S_ .f32 0x00000000#32 := by
  show StableHlo.after hostOps0 (W0 m ρ c) (Proc.devRef .tc main_cst_2) = _
  dsimp only [hostOps0]
  after_results_simp <;> rfl

set_option maxHeartbeats 4000000 in
theorem inv2_raw (c : Dev nD) : (W2 m ρ c (Proc.devRef .tc main_v14)) = select (W1 m ρ c (Proc.devRef .tc main_v12)) (W1 m ρ c (Proc.devRef .tc main_v13)) (broadcastInDim S50000 ![] Cert.ReferenceIdeal.Gen.bcast_S_S50000 (id (W1 m ρ c (Proc.devRef .tc main_cst_2)))) := by
  show StableHlo.after hostOps0_1 (W1 m ρ c) (Proc.devRef .tc main_v14) = _
  generalize W1 m ρ c = X
  dsimp only [hostOps0_1]
  after_results_simp <;> rfl

/-- The inverse-square-root degree array, zero where the degree is not positive. -/
theorem inv2 (c : Dev nD) : (W2 m ρ c (Proc.devRef .tc main_v14)) = Cert.ReferenceIdeal.Stages.inv (F := Ideal) (Cert.ReferenceIdeal.Stages.dst (F := Ideal) (m ((c : Thread nD τ).loc main_arg1))) := by
  rw [inv2_raw, pos1 m ρ c, rsq1 m ρ c, zero1 m ρ c]
  rfl

set_option maxHeartbeats 4000000 in
theorem coef3_raw (c : Dev nD) : (W3 m ρ c (Proc.devRef .tc main_v30)) = Cert.ReferenceIdeal.Stages.coefInv (F := Ideal) (W2 m ρ c (Proc.devRef .tc main_v5)) (W2 m ρ c (Proc.devRef .tc main_v6)) (W2 m ρ c (Proc.devRef .tc main_v14)) := by
  show StableHlo.after hostOps0_2 (W2 m ρ c) (Proc.devRef .tc main_v30) = _
  generalize W2 m ρ c = X
  dsimp only [hostOps0_2]
  after_results_simp <;> rfl

/-- The edge-coefficient column. -/
theorem coef3 (c : Dev nD) : (W3 m ρ c (Proc.devRef .tc main_v30)) = Cert.ReferenceIdeal.Stages.coef (F := Ideal) (Cert.ReferenceIdeal.Stages.src (F := Ideal) (m ((c : Thread nD τ).loc main_arg1))) (Cert.ReferenceIdeal.Stages.dst (F := Ideal) (m ((c : Thread nD τ).loc main_arg1))) := by
  rw [coef3_raw, src2 m ρ c, dst2 m ρ c, inv2 m ρ c, ← Cert.ReferenceIdeal.Stages.coef_eq]

theorem src4 (c : Dev nD) : (W4 m ρ c (Proc.devRef .tc main_v5)) = Cert.ReferenceIdeal.Stages.src (F := Ideal) (m ((c : Thread nD τ).loc main_arg1)) := (Carry.v5_4 m ρ c).trans (src3 m ρ c)
theorem dst4 (c : Dev nD) : (W4 m ρ c (Proc.devRef .tc main_v6)) = Cert.ReferenceIdeal.Stages.dst (F := Ideal) (m ((c : Thread nD τ).loc main_arg1)) := (Carry.v6_4 m ρ c).trans (dst3 m ρ c)
theorem coef4 (c : Dev nD) : (W4 m ρ c (Proc.devRef .tc main_v30)) = Cert.ReferenceIdeal.Stages.coef (F := Ideal) (Cert.ReferenceIdeal.Stages.src (F := Ideal) (m ((c : Thread nD τ).loc main_arg1))) (Cert.ReferenceIdeal.Stages.dst (F := Ideal) (m ((c : Thread nD τ).loc main_arg1))) := (Carry.v30_4 m ρ c).trans (coef3 m ρ c)
theorem src7 (c : Dev nD) : (W7 m ρ c (Proc.devRef .tc main_v5)) = Cert.ReferenceIdeal.Stages.src (F := Ideal) (m ((c : Thread nD τ).loc main_arg1)) := (Carry.v5_7 m ρ c).trans (src4 m ρ c)
theorem dst7 (c : Dev nD) : (W7 m ρ c (Proc.devRef .tc main_v6)) = Cert.ReferenceIdeal.Stages.dst (F := Ideal) (m ((c : Thread nD τ).loc main_arg1)) := (Carry.v6_7 m ρ c).trans (dst4 m ρ c)
theorem coef7 (c : Dev nD) : (W7 m ρ c (Proc.devRef .tc main_v30)) = Cert.ReferenceIdeal.Stages.coef (F := Ideal) (Cert.ReferenceIdeal.Stages.src (F := Ideal) (m ((c : Thread nD τ).loc main_arg1))) (Cert.ReferenceIdeal.Stages.dst (F := Ideal) (m ((c : Thread nD τ).loc main_arg1))) := (Carry.v30_7 m ρ c).trans (coef4 m ρ c)
theorem src10 (c : Dev nD) : (W10 m ρ c (Proc.devRef .tc main_v5)) = Cert.ReferenceIdeal.Stages.src (F := Ideal) (m ((c : Thread nD τ).loc main_arg1)) := (Carry.v5_10 m ρ c).trans (src7 m ρ c)
theorem dst10 (c : Dev nD) : (W10 m ρ c (Proc.devRef .tc main_v6)) = Cert.ReferenceIdeal.Stages.dst (F := Ideal) (m ((c : Thread nD τ).loc main_arg1)) := (Carry.v6_10 m ρ c).trans (dst7 m ρ c)
theorem coef10 (c : Dev nD) : (W10 m ρ c (Proc.devRef .tc main_v30)) = Cert.ReferenceIdeal.Stages.coef (F := Ideal) (Cert.ReferenceIdeal.Stages.src (F := Ideal) (m ((c : Thread nD τ).loc main_arg1))) (Cert.ReferenceIdeal.Stages.dst (F := Ideal) (m ((c : Thread nD τ).loc main_arg1))) := (Carry.v30_10 m ρ c).trans (coef7 m ρ c)

/-! ### The first product -/

/-- The region leaves the whole product of the previous layer's rows with the layer's weights. -/
theorem prod0 (c : Dev nD) : (W4 m ρ c (Proc.devRef .tc main_v31)) = (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) :=
  (W4_arr m ρ c 2).trans ((Cert.KernelIdeal.Linear0.final (V3 m ρ) c).trans (by
    show Host.dotGeneral (F := Ideal) (φ₁ := .f32) (φ₂ := .f32) _ none (W3 m ρ c (Proc.devRef .tc main_arg0)) (W3 m ρ c (Proc.devRef .tc main_arg3)) = _
    rw [Carry.arg0_at m ρ c, Carry.arg3_at m ρ c]))

/-! ### Layer 1: the aggregation stretch and the normalisation region -/

set_option maxHeartbeats 4000000 in
theorem agg1_raw (c : Dev nD) : (W5 m ρ c (Proc.devRef .tc main_v46)) = Cert.ReferenceIdeal.Stages.aggOf (F := Ideal) (W4 m ρ c (Proc.devRef .tc main_v5)) (W4 m ρ c (Proc.devRef .tc main_v6)) (W4 m ρ c (Proc.devRef .tc main_v30)) (W4 m ρ c (Proc.devRef .tc main_v31)) (W4 m ρ c (Proc.devRef .tc main_arg4)) := by
  show StableHlo.after hostOps1 (W4 m ρ c) (Proc.devRef .tc main_v46) = _
  generalize W4 m ρ c = X
  dsimp only [hostOps1]
  after_results_simp <;> rfl

/-- The stretch leaves the aggregation of the layer's product along the edge list, plus the bias row. -/
theorem agg1 (c : Dev nD) : (W5 m ρ c (Proc.devRef .tc main_v46)) = (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) := by
  rw [agg1_raw, src4 m ρ c, dst4 m ρ c, coef4 m ρ c, prod0 m ρ c, Carry.arg4_at m ρ c]
  rfl

set_option maxHeartbeats 4000000 in
theorem row_v47_raw (c : Dev nD) : ((W5 m ρ c (Proc.devRef .tc main_v47)) : S1x160.Idx → EReal) = shapeCast S1x160 (W4 m ρ c (Proc.devRef .tc main_arg9)) shapeCasts_S160_S1x160 := by
  show StableHlo.after hostOps1 (W4 m ρ c) (Proc.devRef .tc main_v47) = _
  generalize W4 m ρ c = X
  dsimp only [hostOps1]
  after_results_simp <;> rfl
theorem row_v47 (c : Dev nD) : ((W5 m ρ c (Proc.devRef .tc main_v47)) : S1x160.Idx → EReal) = shapeCast S1x160 (m ((c : Thread nD τ).loc main_arg9)) shapeCasts_S160_S1x160 := by
  rw [row_v47_raw, Carry.arg9_at m ρ c]

set_option maxHeartbeats 4000000 in
theorem row_v48_raw (c : Dev nD) : ((W5 m ρ c (Proc.devRef .tc main_v48)) : S1x160.Idx → EReal) = shapeCast S1x160 (W4 m ρ c (Proc.devRef .tc main_arg10)) shapeCasts_S160_S1x160 := by
  show StableHlo.after hostOps1 (W4 m ρ c) (Proc.devRef .tc main_v48) = _
  generalize W4 m ρ c = X
  dsimp only [hostOps1]
  after_results_simp <;> rfl
theorem row_v48 (c : Dev nD) : ((W5 m ρ c (Proc.devRef .tc main_v48)) : S1x160.Idx → EReal) = shapeCast S1x160 (m ((c : Thread nD τ).loc main_arg10)) shapeCasts_S160_S1x160 := by
  rw [row_v48_raw, Carry.arg10_at m ρ c]

set_option maxHeartbeats 4000000 in
theorem row_v49_raw (c : Dev nD) : ((W5 m ρ c (Proc.devRef .tc main_v49)) : S1x160.Idx → EReal) = shapeCast S1x160 (W4 m ρ c (Proc.devRef .tc main_arg11)) shapeCasts_S160_S1x160 := by
  show StableHlo.after hostOps1 (W4 m ρ c) (Proc.devRef .tc main_v49) = _
  generalize W4 m ρ c = X
  dsimp only [hostOps1]
  after_results_simp <;> rfl
theorem row_v49 (c : Dev nD) : ((W5 m ρ c (Proc.devRef .tc main_v49)) : S1x160.Idx → EReal) = shapeCast S1x160 (m ((c : Thread nD τ).loc main_arg11)) shapeCasts_S160_S1x160 := by
  rw [row_v49_raw, Carry.arg11_at m ρ c]

set_option maxHeartbeats 4000000 in
theorem row_v50_raw (c : Dev nD) : ((W5 m ρ c (Proc.devRef .tc main_v50)) : S1x160.Idx → EReal) = shapeCast S1x160 (W4 m ρ c (Proc.devRef .tc main_arg12)) shapeCasts_S160_S1x160 := by
  show StableHlo.after hostOps1 (W4 m ρ c) (Proc.devRef .tc main_v50) = _
  generalize W4 m ρ c = X
  dsimp only [hostOps1]
  after_results_simp <;> rfl
theorem row_v50 (c : Dev nD) : ((W5 m ρ c (Proc.devRef .tc main_v50)) : S1x160.Idx → EReal) = shapeCast S1x160 (m ((c : Thread nD τ).loc main_arg12)) shapeCasts_S160_S1x160 := by
  rw [row_v50_raw, Carry.arg12_at m ρ c]

/-- The region leaves the normalised, rectified aggregation. -/
theorem layer1 (c : Dev nD) : (W6 m ρ c (Proc.devRef .tc main_v51)) = (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) :=
  (W6_arr m ρ c 5).trans ((Cert.KernelIdeal.NormRelu1.final (V5 m ρ) c (m ((c : Thread nD τ).loc main_arg9)) (m ((c : Thread nD τ).loc main_arg10)) (m ((c : Thread nD τ).loc main_arg11)) (m ((c : Thread nD τ).loc main_arg12))
    (row_v47 m ρ c) (row_v48 m ρ c) (row_v49 m ρ c) (row_v50 m ρ c)
    Cert.ReferenceIdeal.Gen.bcast_S160_S1x160_1 Cert.ReferenceIdeal.Gen.bcast_S1x160_S50000x160_0_1 Cert.ReferenceIdeal.Gen.bcast_S_S160 Cert.ReferenceIdeal.Gen.bcast_S_S50000x160).trans
    ((show _ = Cert.ReferenceIdeal.Stages.normRelu (F := Ideal) (W5 m ρ c (Proc.devRef .tc main_v46)) (m ((c : Thread nD τ).loc main_arg9)) (m ((c : Thread nD τ).loc main_arg10)) (m ((c : Thread nD τ).loc main_arg11)) (m ((c : Thread nD τ).loc main_arg12)) from rfl).trans
      (congrArg (fun a => Cert.ReferenceIdeal.Stages.normRelu (F := Ideal) a (m ((c : Thread nD τ).loc main_arg9)) (m ((c : Thread nD τ).loc main_arg10)) (m ((c : Thread nD τ).loc main_arg11)) (m ((c : Thread nD τ).loc main_arg12))) (agg1 m ρ c))))

/-- The region leaves the whole product of the previous layer's rows with the layer's weights. -/
theorem prod2 (c : Dev nD) : (W7 m ρ c (Proc.devRef .tc main_v52)) = (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) :=
  (W7_arr m ρ c 2).trans ((Cert.KernelIdeal.Linear2.final (V6 m ρ) c).trans (by
    show Host.dotGeneral (F := Ideal) (φ₁ := .f32) (φ₂ := .f32) _ none (W6 m ρ c (Proc.devRef .tc main_v51)) (W6 m ρ c (Proc.devRef .tc main_arg5)) = _
    rw [layer1 m ρ c, Carry.arg5_at m ρ c]))

/-! ### Layer 2: the aggregation stretch and the normalisation region -/

set_option maxHeartbeats 4000000 in
theorem agg2_raw (c : Dev nD) : (W8 m ρ c (Proc.devRef .tc main_v67)) = Cert.ReferenceIdeal.Stages.aggOf (F := Ideal) (W7 m ρ c (Proc.devRef .tc main_v5)) (W7 m ρ c (Proc.devRef .tc main_v6)) (W7 m ρ c (Proc.devRef .tc main_v30)) (W7 m ρ c (Proc.devRef .tc main_v52)) (W7 m ρ c (Proc.devRef .tc main_arg6)) := by
  show StableHlo.after hostOps3 (W7 m ρ c) (Proc.devRef .tc main_v67) = _
  generalize W7 m ρ c = X
  dsimp only [hostOps3]
  after_results_simp <;> rfl

/-- The stretch leaves the aggregation of the layer's product along the edge list, plus the bias row. -/
theorem agg2 (c : Dev nD) : (W8 m ρ c (Proc.devRef .tc main_v67)) = (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) := by
  rw [agg2_raw, src7 m ρ c, dst7 m ρ c, coef7 m ρ c, prod2 m ρ c, Carry.arg6_at m ρ c]
  rfl

set_option maxHeartbeats 4000000 in
theorem row_v68_raw (c : Dev nD) : ((W8 m ρ c (Proc.devRef .tc main_v68)) : S1x160.Idx → EReal) = shapeCast S1x160 (W7 m ρ c (Proc.devRef .tc main_arg13)) shapeCasts_S160_S1x160 := by
  show StableHlo.after hostOps3 (W7 m ρ c) (Proc.devRef .tc main_v68) = _
  generalize W7 m ρ c = X
  dsimp only [hostOps3]
  after_results_simp <;> rfl
theorem row_v68 (c : Dev nD) : ((W8 m ρ c (Proc.devRef .tc main_v68)) : S1x160.Idx → EReal) = shapeCast S1x160 (m ((c : Thread nD τ).loc main_arg13)) shapeCasts_S160_S1x160 := by
  rw [row_v68_raw, Carry.arg13_at m ρ c]

set_option maxHeartbeats 4000000 in
theorem row_v69_raw (c : Dev nD) : ((W8 m ρ c (Proc.devRef .tc main_v69)) : S1x160.Idx → EReal) = shapeCast S1x160 (W7 m ρ c (Proc.devRef .tc main_arg14)) shapeCasts_S160_S1x160 := by
  show StableHlo.after hostOps3 (W7 m ρ c) (Proc.devRef .tc main_v69) = _
  generalize W7 m ρ c = X
  dsimp only [hostOps3]
  after_results_simp <;> rfl
theorem row_v69 (c : Dev nD) : ((W8 m ρ c (Proc.devRef .tc main_v69)) : S1x160.Idx → EReal) = shapeCast S1x160 (m ((c : Thread nD τ).loc main_arg14)) shapeCasts_S160_S1x160 := by
  rw [row_v69_raw, Carry.arg14_at m ρ c]

set_option maxHeartbeats 4000000 in
theorem row_v70_raw (c : Dev nD) : ((W8 m ρ c (Proc.devRef .tc main_v70)) : S1x160.Idx → EReal) = shapeCast S1x160 (W7 m ρ c (Proc.devRef .tc main_arg15)) shapeCasts_S160_S1x160 := by
  show StableHlo.after hostOps3 (W7 m ρ c) (Proc.devRef .tc main_v70) = _
  generalize W7 m ρ c = X
  dsimp only [hostOps3]
  after_results_simp <;> rfl
theorem row_v70 (c : Dev nD) : ((W8 m ρ c (Proc.devRef .tc main_v70)) : S1x160.Idx → EReal) = shapeCast S1x160 (m ((c : Thread nD τ).loc main_arg15)) shapeCasts_S160_S1x160 := by
  rw [row_v70_raw, Carry.arg15_at m ρ c]

set_option maxHeartbeats 4000000 in
theorem row_v71_raw (c : Dev nD) : ((W8 m ρ c (Proc.devRef .tc main_v71)) : S1x160.Idx → EReal) = shapeCast S1x160 (W7 m ρ c (Proc.devRef .tc main_arg16)) shapeCasts_S160_S1x160 := by
  show StableHlo.after hostOps3 (W7 m ρ c) (Proc.devRef .tc main_v71) = _
  generalize W7 m ρ c = X
  dsimp only [hostOps3]
  after_results_simp <;> rfl
theorem row_v71 (c : Dev nD) : ((W8 m ρ c (Proc.devRef .tc main_v71)) : S1x160.Idx → EReal) = shapeCast S1x160 (m ((c : Thread nD τ).loc main_arg16)) shapeCasts_S160_S1x160 := by
  rw [row_v71_raw, Carry.arg16_at m ρ c]

/-- The region leaves the normalised, rectified aggregation. -/
theorem layer2 (c : Dev nD) : (W9 m ρ c (Proc.devRef .tc main_v72)) = (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) :=
  (W9_arr m ρ c 5).trans ((Cert.KernelIdeal.NormRelu3.final (V8 m ρ) c (m ((c : Thread nD τ).loc main_arg13)) (m ((c : Thread nD τ).loc main_arg14)) (m ((c : Thread nD τ).loc main_arg15)) (m ((c : Thread nD τ).loc main_arg16))
    (row_v68 m ρ c) (row_v69 m ρ c) (row_v70 m ρ c) (row_v71 m ρ c)
    Cert.ReferenceIdeal.Gen.bcast_S160_S1x160_1 Cert.ReferenceIdeal.Gen.bcast_S1x160_S50000x160_0_1 Cert.ReferenceIdeal.Gen.bcast_S_S160 Cert.ReferenceIdeal.Gen.bcast_S_S50000x160).trans
    ((show _ = Cert.ReferenceIdeal.Stages.normRelu (F := Ideal) (W8 m ρ c (Proc.devRef .tc main_v67)) (m ((c : Thread nD τ).loc main_arg13)) (m ((c : Thread nD τ).loc main_arg14)) (m ((c : Thread nD τ).loc main_arg15)) (m ((c : Thread nD τ).loc main_arg16)) from rfl).trans
      (congrArg (fun a => Cert.ReferenceIdeal.Stages.normRelu (F := Ideal) a (m ((c : Thread nD τ).loc main_arg13)) (m ((c : Thread nD τ).loc main_arg14)) (m ((c : Thread nD τ).loc main_arg15)) (m ((c : Thread nD τ).loc main_arg16))) (agg2 m ρ c))))

/-- The region leaves the whole product of the previous layer's rows with the layer's weights. -/
theorem prod4 (c : Dev nD) : (W10 m ρ c (Proc.devRef .tc main_v73)) = (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) :=
  (W10_arr m ρ c 2).trans ((Cert.KernelIdeal.Linear4.final (V9 m ρ) c).trans (by
    show Host.dotGeneral (F := Ideal) (φ₁ := .f32) (φ₂ := .f32) _ none (W9 m ρ c (Proc.devRef .tc main_v72)) (W9 m ρ c (Proc.devRef .tc main_arg7)) = _
    rw [layer2 m ρ c, Carry.arg7_at m ρ c]))

/-! ### Layer 3: the aggregation stretch and the normalisation region -/

set_option maxHeartbeats 4000000 in
theorem agg3_raw (c : Dev nD) : (W11 m ρ c (Proc.devRef .tc main_v88)) = Cert.ReferenceIdeal.Stages.aggOf (F := Ideal) (W10 m ρ c (Proc.devRef .tc main_v5)) (W10 m ρ c (Proc.devRef .tc main_v6)) (W10 m ρ c (Proc.devRef .tc main_v30)) (W10 m ρ c (Proc.devRef .tc main_v73)) (W10 m ρ c (Proc.devRef .tc main_arg8)) := by
  show StableHlo.after hostOps5 (W10 m ρ c) (Proc.devRef .tc main_v88) = _
  generalize W10 m ρ c = X
  dsimp only [hostOps5]
  after_results_simp <;> rfl

/-- The stretch leaves the aggregation of the layer's product along the edge list, plus the bias row. -/
theorem agg3 (c : Dev nD) : (W11 m ρ c (Proc.devRef .tc main_v88)) = (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) (m ((c : Thread nD τ).loc main_arg8))) := by
  rw [agg3_raw, src10 m ρ c, dst10 m ρ c, coef10 m ρ c, prod4 m ρ c, Carry.arg8_at m ρ c]
  rfl

set_option maxHeartbeats 4000000 in
theorem row_v89_raw (c : Dev nD) : ((W11 m ρ c (Proc.devRef .tc main_v89)) : S1x160.Idx → EReal) = shapeCast S1x160 (W10 m ρ c (Proc.devRef .tc main_arg17)) shapeCasts_S160_S1x160 := by
  show StableHlo.after hostOps5 (W10 m ρ c) (Proc.devRef .tc main_v89) = _
  generalize W10 m ρ c = X
  dsimp only [hostOps5]
  after_results_simp <;> rfl
theorem row_v89 (c : Dev nD) : ((W11 m ρ c (Proc.devRef .tc main_v89)) : S1x160.Idx → EReal) = shapeCast S1x160 (m ((c : Thread nD τ).loc main_arg17)) shapeCasts_S160_S1x160 := by
  rw [row_v89_raw, Carry.arg17_at m ρ c]

set_option maxHeartbeats 4000000 in
theorem row_v90_raw (c : Dev nD) : ((W11 m ρ c (Proc.devRef .tc main_v90)) : S1x160.Idx → EReal) = shapeCast S1x160 (W10 m ρ c (Proc.devRef .tc main_arg18)) shapeCasts_S160_S1x160 := by
  show StableHlo.after hostOps5 (W10 m ρ c) (Proc.devRef .tc main_v90) = _
  generalize W10 m ρ c = X
  dsimp only [hostOps5]
  after_results_simp <;> rfl
theorem row_v90 (c : Dev nD) : ((W11 m ρ c (Proc.devRef .tc main_v90)) : S1x160.Idx → EReal) = shapeCast S1x160 (m ((c : Thread nD τ).loc main_arg18)) shapeCasts_S160_S1x160 := by
  rw [row_v90_raw, Carry.arg18_at m ρ c]

set_option maxHeartbeats 4000000 in
theorem row_v91_raw (c : Dev nD) : ((W11 m ρ c (Proc.devRef .tc main_v91)) : S1x160.Idx → EReal) = shapeCast S1x160 (W10 m ρ c (Proc.devRef .tc main_arg19)) shapeCasts_S160_S1x160 := by
  show StableHlo.after hostOps5 (W10 m ρ c) (Proc.devRef .tc main_v91) = _
  generalize W10 m ρ c = X
  dsimp only [hostOps5]
  after_results_simp <;> rfl
theorem row_v91 (c : Dev nD) : ((W11 m ρ c (Proc.devRef .tc main_v91)) : S1x160.Idx → EReal) = shapeCast S1x160 (m ((c : Thread nD τ).loc main_arg19)) shapeCasts_S160_S1x160 := by
  rw [row_v91_raw, Carry.arg19_at m ρ c]

set_option maxHeartbeats 4000000 in
theorem row_v92_raw (c : Dev nD) : ((W11 m ρ c (Proc.devRef .tc main_v92)) : S1x160.Idx → EReal) = shapeCast S1x160 (W10 m ρ c (Proc.devRef .tc main_arg20)) shapeCasts_S160_S1x160 := by
  show StableHlo.after hostOps5 (W10 m ρ c) (Proc.devRef .tc main_v92) = _
  generalize W10 m ρ c = X
  dsimp only [hostOps5]
  after_results_simp <;> rfl
theorem row_v92 (c : Dev nD) : ((W11 m ρ c (Proc.devRef .tc main_v92)) : S1x160.Idx → EReal) = shapeCast S1x160 (m ((c : Thread nD τ).loc main_arg20)) shapeCasts_S160_S1x160 := by
  rw [row_v92_raw, Carry.arg20_at m ρ c]

/-- The region leaves the normalised, rectified aggregation. -/
theorem layer3 (c : Dev nD) : (W12 m ρ c (Proc.devRef .tc main_v93)) = (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) (m ((c : Thread nD τ).loc main_arg8))) (m ((c : Thread nD τ).loc main_arg17)) (m ((c : Thread nD τ).loc main_arg18)) (m ((c : Thread nD τ).loc main_arg19)) (m ((c : Thread nD τ).loc main_arg20))) :=
  (W12_arr m ρ c 5).trans ((Cert.KernelIdeal.NormRelu5.final (V11 m ρ) c (m ((c : Thread nD τ).loc main_arg17)) (m ((c : Thread nD τ).loc main_arg18)) (m ((c : Thread nD τ).loc main_arg19)) (m ((c : Thread nD τ).loc main_arg20))
    (row_v89 m ρ c) (row_v90 m ρ c) (row_v91 m ρ c) (row_v92 m ρ c)
    Cert.ReferenceIdeal.Gen.bcast_S160_S1x160_1 Cert.ReferenceIdeal.Gen.bcast_S1x160_S50000x160_0_1 Cert.ReferenceIdeal.Gen.bcast_S_S160 Cert.ReferenceIdeal.Gen.bcast_S_S50000x160).trans
    ((show _ = Cert.ReferenceIdeal.Stages.normRelu (F := Ideal) (W11 m ρ c (Proc.devRef .tc main_v88)) (m ((c : Thread nD τ).loc main_arg17)) (m ((c : Thread nD τ).loc main_arg18)) (m ((c : Thread nD τ).loc main_arg19)) (m ((c : Thread nD τ).loc main_arg20)) from rfl).trans
      (congrArg (fun a => Cert.ReferenceIdeal.Stages.normRelu (F := Ideal) a (m ((c : Thread nD τ).loc main_arg17)) (m ((c : Thread nD τ).loc main_arg18)) (m ((c : Thread nD τ).loc main_arg19)) (m ((c : Thread nD τ).loc main_arg20))) (agg3 m ρ c))))

/-! ### Pooling and the head -/

set_option maxHeartbeats 4000000 in
theorem sums13 (c : Dev nD) : (W13 m ρ c (Proc.devRef .tc main_v96)) = Cert.ReferenceIdeal.Stages.sums (F := Ideal) (W12 m ρ c (Proc.devRef .tc main_arg2)) (W12 m ρ c (Proc.devRef .tc main_v93)) := by
  show StableHlo.after hostOps6 (W12 m ρ c) (Proc.devRef .tc main_v96) = _
  generalize W12 m ρ c = X
  dsimp only [hostOps6]
  after_results_simp <;> rfl

set_option maxHeartbeats 4000000 in
theorem cnt13 (c : Dev nD) : (W13 m ρ c (Proc.devRef .tc main_v100)) = Cert.ReferenceIdeal.Stages.cnt (F := Ideal) (W12 m ρ c (Proc.devRef .tc main_arg2)) := by
  show StableHlo.after hostOps6 (W12 m ρ c) (Proc.devRef .tc main_v100) = _
  generalize W12 m ρ c = X
  dsimp only [hostOps6]
  after_results_simp <;> rfl

set_option maxHeartbeats 4000000 in
theorem one13 (c : Dev nD) : (W13 m ρ c (Proc.devRef .tc main_cst_18)) = constant (F := Ideal) S_ .f32 0x3F800000#32 := by
  show StableHlo.after hostOps6 (W12 m ρ c) (Proc.devRef .tc main_cst_18) = _
  generalize W12 m ρ c = X
  dsimp only [hostOps6]
  after_results_simp <;> rfl

set_option maxHeartbeats 4000000 in
theorem clip14 (c : Dev nD) : ((W14 m ρ c (Proc.devRef .tc main_v101)) : S512.Idx → EReal) = maximumf (F := Ideal) (φ := .f32) (broadcastInDim S512 ![] Cert.ReferenceIdeal.Gen.bcast_S_S512 (id ((W13 m ρ c (Proc.devRef .tc main_cst_18)) : S_.Idx → EReal))) ((W13 m ρ c (Proc.devRef .tc main_v100)) : S512.Idx → EReal) := by
  show StableHlo.after hostOps6_1 (W13 m ρ c) (Proc.devRef .tc main_v101) = _
  generalize W13 m ρ c = X
  dsimp only [hostOps6_1]
  after_results_simp <;> rfl

theorem sums14 (c : Dev nD) : (W14 m ρ c (Proc.devRef .tc main_v96)) = (W13 m ρ c (Proc.devRef .tc main_v96)) :=
  StableHlo.after_of_forall_not_mem (b := Proc.devRef .tc main_v96) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

set_option maxHeartbeats 4000000 in
theorem pool15_raw (c : Dev nD) : (W15 m ρ c (Proc.devRef .tc main_v104)) = Cert.ReferenceIdeal.Stages.poolOf (F := Ideal) (W14 m ρ c (Proc.devRef .tc main_v96)) (W14 m ρ c (Proc.devRef .tc main_v101)) := by
  show StableHlo.after hostOps6_2 (W14 m ρ c) (Proc.devRef .tc main_v104) = _
  generalize W14 m ρ c = X
  dsimp only [hostOps6_2]
  after_results_simp <;> rfl

/-- The stretches after the third layer leave the per-graph mean of its rows. -/
theorem pool15 (c : Dev nD) : (W15 m ρ c (Proc.devRef .tc main_v104)) = (Cert.ReferenceIdeal.Stages.pool (F := Ideal) (m ((c : Thread nD τ).loc main_arg2)) (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) (m ((c : Thread nD τ).loc main_arg8))) (m ((c : Thread nD τ).loc main_arg17)) (m ((c : Thread nD τ).loc main_arg18)) (m ((c : Thread nD τ).loc main_arg19)) (m ((c : Thread nD τ).loc main_arg20)))) := by
  rw [pool15_raw, sums14 m ρ c, sums13 m ρ c, clip14 m ρ c, one13 m ρ c, cnt13 m ρ c, Carry.arg2_at m ρ c, layer3 m ρ c, ← Cert.ReferenceIdeal.Stages.pool_eq]

set_option maxHeartbeats 4000000 in
theorem row_v105_raw (c : Dev nD) : (W15 m ρ c (Proc.devRef .tc main_v105)) = shapeCast S1x80 (W14 m ρ c (Proc.devRef .tc main_arg22)) shapeCasts_S80_S1x80 := by
  show StableHlo.after hostOps6_2 (W14 m ρ c) (Proc.devRef .tc main_v105) = _
  generalize W14 m ρ c = X
  dsimp only [hostOps6_2]
  after_results_simp <;> rfl
set_option maxHeartbeats 4000000 in
theorem row_v106_raw (c : Dev nD) : (W15 m ρ c (Proc.devRef .tc main_v106)) = shapeCast S1x2 (W14 m ρ c (Proc.devRef .tc main_arg24)) shapeCasts_S2_S1x2 := by
  show StableHlo.after hostOps6_2 (W14 m ρ c) (Proc.devRef .tc main_v106) = _
  generalize W14 m ρ c = X
  dsimp only [hostOps6_2]
  after_results_simp <;> rfl

theorem arg22_14 (c : Dev nD) : W14 m ρ c (Proc.devRef .tc main_arg22) = W12 m ρ c (Proc.devRef .tc main_arg22) :=
  calc W14 m ρ c (Proc.devRef .tc main_arg22)
    _ = W13 m ρ c (Proc.devRef .tc main_arg22) := StableHlo.after_of_forall_not_mem (b := Proc.devRef .tc main_arg22) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg22) := StableHlo.after_of_forall_not_mem (b := Proc.devRef .tc main_arg22) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem arg24_14 (c : Dev nD) : W14 m ρ c (Proc.devRef .tc main_arg24) = W12 m ρ c (Proc.devRef .tc main_arg24) :=
  calc W14 m ρ c (Proc.devRef .tc main_arg24)
    _ = W13 m ρ c (Proc.devRef .tc main_arg24) := StableHlo.after_of_forall_not_mem (b := Proc.devRef .tc main_arg24) _ _ (List.forall_iff_forall_mem.mp (by
          simp only [hostOps6_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_arg24) := StableHlo.after_of_forall_not_mem (b := Proc.devRef .tc main_arg24) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem row_v105 (c : Dev nD) : (W15 m ρ c (Proc.devRef .tc main_v105)) = shapeCast S1x80 (m ((c : Thread nD τ).loc main_arg22)) shapeCasts_S80_S1x80 := by
  rw [row_v105_raw, arg22_14 m ρ c, Carry.arg22_at m ρ c]
theorem row_v106 (c : Dev nD) : (W15 m ρ c (Proc.devRef .tc main_v106)) = shapeCast S1x2 (m ((c : Thread nD τ).loc main_arg24)) shapeCasts_S2_S1x2 := by
  rw [row_v106_raw, arg24_14 m ρ c, Carry.arg24_at m ρ c]

/-- THE RESULT ARRAY of the idealized kernel program, as the fold of its segments leaves it: the perceptron head of the
    per-graph mean of the third layer, each layer the normalised aggregation of the previous layer's product with its
    weights — the same composition of stages as the reference's result. -/
theorem kernel_value (c : Dev nD) : (W16 m ρ c (Proc.devRef .tc main_v107)) = (Cert.ReferenceIdeal.Stages.head (F := Ideal) (Cert.ReferenceIdeal.Stages.pool (F := Ideal) (m ((c : Thread nD τ).loc main_arg2)) (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) (m ((c : Thread nD τ).loc main_arg8))) (m ((c : Thread nD τ).loc main_arg17)) (m ((c : Thread nD τ).loc main_arg18)) (m ((c : Thread nD τ).loc main_arg19)) (m ((c : Thread nD τ).loc main_arg20)))) (m ((c : Thread nD τ).loc main_arg21)) (m ((c : Thread nD τ).loc main_arg22)) (m ((c : Thread nD τ).loc main_arg23)) (m ((c : Thread nD τ).loc main_arg24))) :=
  (W16_arr m ρ c 5).trans ((Cert.KernelIdeal.Head.final (V15 m ρ) c (m ((c : Thread nD τ).loc main_arg22)) (m ((c : Thread nD τ).loc main_arg24)) (row_v105 m ρ c) (row_v106 m ρ c)).trans
    ((show _ = Cert.ReferenceIdeal.Stages.head (F := Ideal) (W15 m ρ c (Proc.devRef .tc main_v104)) (W15 m ρ c (Proc.devRef .tc main_arg21)) (m ((c : Thread nD τ).loc main_arg22)) (W15 m ρ c (Proc.devRef .tc main_arg23)) (m ((c : Thread nD τ).loc main_arg24)) from rfl).trans (by
      rw [pool15 m ρ c, Carry.arg21_at m ρ c, Carry.arg23_at m ρ c])))

end Cert.KernelIdeal.Hops

end
-- ==== Proof.RefStages.lean ====
/- The reference program's result term is the composition of its stages: the head of the pooled third layer, each
   layer the normalised aggregation of the previous layer's product with its weights. Both sides are the same tree of
   operations, so the equation holds by unfolding the stages' definitions. -/
import proofs.«131882_j48490180772588_1_alg».proof.Proof.RefRun
import proofs.«131882_j48490180772588_1_alg».proof.Proof.Stages

set_option maxRecDepth 16384

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The reference's result is the head of the pooled third layer, each layer the normalised aggregation of the previous
    layer's product with its weights. -/
theorem result_eq (m : (ℓ : Loc nD τ sig) → Buf (Elt F) ℓ) (c : Dev nD) :
    ValueP.res_main_v200 m c =
      head (pool (m ((c.tc : Thread nD τ).loc main_arg2))
        (normRelu (aggregate (m ((c.tc : Thread nD τ).loc main_arg1)) (Host.dotGeneral dot_S50000x160_S160x160_S50000x160_1_0_0_1_n_n none
          (normRelu (aggregate (m ((c.tc : Thread nD τ).loc main_arg1)) (Host.dotGeneral dot_S50000x160_S160x160_S50000x160_1_0_0_1_n_n none
            (normRelu (aggregate (m ((c.tc : Thread nD τ).loc main_arg1)) (Host.dotGeneral dot_S50000x128_S128x160_S50000x160_1_0_0_1_n_n none (m ((c.tc : Thread nD τ).loc main_arg0)) (m ((c.tc : Thread nD τ).loc main_arg3))) (m ((c.tc : Thread nD τ).loc main_arg4)))
              (m ((c.tc : Thread nD τ).loc main_arg9)) (m ((c.tc : Thread nD τ).loc main_arg10)) (m ((c.tc : Thread nD τ).loc main_arg11)) (m ((c.tc : Thread nD τ).loc main_arg12)))
            (m ((c.tc : Thread nD τ).loc main_arg5))) (m ((c.tc : Thread nD τ).loc main_arg6)))
            (m ((c.tc : Thread nD τ).loc main_arg13)) (m ((c.tc : Thread nD τ).loc main_arg14)) (m ((c.tc : Thread nD τ).loc main_arg15)) (m ((c.tc : Thread nD τ).loc main_arg16)))
          (m ((c.tc : Thread nD τ).loc main_arg7))) (m ((c.tc : Thread nD τ).loc main_arg8)))
          (m ((c.tc : Thread nD τ).loc main_arg17)) (m ((c.tc : Thread nD τ).loc main_arg18)) (m ((c.tc : Thread nD τ).loc main_arg19)) (m ((c.tc : Thread nD τ).loc main_arg20))))
        (m ((c.tc : Thread nD τ).loc main_arg21)) (m ((c.tc : Thread nD τ).loc main_arg22)) (m ((c.tc : Thread nD τ).loc main_arg23)) (m ((c.tc : Thread nD τ).loc main_arg24)) := rfl

end Cert.ReferenceIdeal.Stages

end
-- ==== Proof.lean ====
/- The proof of the certificate's claim. The three frames: the word-level and the idealized kernel programs by their
   generated frame certificates, the reference by its run with the result dropped. The idealization rewrote nothing, so
   there is nothing to preserve. The value claim: at the ideal instance both programs compute, from argument arrays
   that agree,
       head( pool( layer₃( layer₂( layer₁(x) ) ) ) ),    layerₖ(h) = max( norm( A·(h·Wₖ) + bₖ ), 0 ),
   where A is the symmetric degree-normalised adjacency with self-loops applied by gather / scale / scatter-add, norm is
   the batch normalisation by the running statistics, pool is the per-graph mean and head the two-layer perceptron. The
   kernel program computes the three products, the three normalisations and the head in pipelined regions — a product
   block by block over the rows, a normalisation block by block, the head in one block — and everything else on the
   host, by the same operations as the reference; at the ideal instance a blocked product is the whole product and a
   blocked pointwise map is the whole map, so the two result arrays are the same function of the arguments. -/
import proofs.«131882_j48490180772588_1_alg».proof.Defs
import proofs.«131882_j48490180772588_1_alg».proof.Proof.Gen.Kernel
import proofs.«131882_j48490180772588_1_alg».proof.Proof.Gen.Kernel.Frame
import proofs.«131882_j48490180772588_1_alg».proof.Proof.Gen.KernelIdeal
import proofs.«131882_j48490180772588_1_alg».proof.Proof.Gen.KernelIdeal.Frame
import proofs.«131882_j48490180772588_1_alg».proof.Proof.Gen.ReferenceIdeal
import proofs.«131882_j48490180772588_1_alg».proof.Proof.Gen.Pre_finite_inputs
import proofs.«131882_j48490180772588_1_alg».proof.Proof.KRun
import proofs.«131882_j48490180772588_1_alg».proof.Proof.Hops
import proofs.«131882_j48490180772588_1_alg».proof.Proof.RefRun
import proofs.«131882_j48490180772588_1_alg».proof.Proof.RefStages
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

section KernelRun

open Cert.KernelIdeal Cert.KernelIdeal.Gen

/-- The idealized kernel program's run with the result array read: it ends at the composition of the stages applied to
    the argument arrays, and the argument arrays end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107) = (Cert.ReferenceIdeal.Stages.head (F := Ideal) (Cert.ReferenceIdeal.Stages.pool (F := Ideal) (m ((c : Thread nD τ).loc main_arg2)) (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x160_S160x160_S50000x160_1_0_0_1_n_n none (Cert.ReferenceIdeal.Stages.normRelu (F := Ideal) (Cert.ReferenceIdeal.Stages.aggregate (F := Ideal) (m ((c : Thread nD τ).loc main_arg1)) (Host.dotGeneral (F := Ideal) (φ₁ := .f32) (φ₂ := .f32) Cert.ReferenceIdeal.dot_S50000x128_S128x160_S50000x160_1_0_0_1_n_n none (m ((c : Thread nD τ).loc main_arg0)) (m ((c : Thread nD τ).loc main_arg3))) (m ((c : Thread nD τ).loc main_arg4))) (m ((c : Thread nD τ).loc main_arg9)) (m ((c : Thread nD τ).loc main_arg10)) (m ((c : Thread nD τ).loc main_arg11)) (m ((c : Thread nD τ).loc main_arg12))) (m ((c : Thread nD τ).loc main_arg5))) (m ((c : Thread nD τ).loc main_arg6))) (m ((c : Thread nD τ).loc main_arg13)) (m ((c : Thread nD τ).loc main_arg14)) (m ((c : Thread nD τ).loc main_arg15)) (m ((c : Thread nD τ).loc main_arg16))) (m ((c : Thread nD τ).loc main_arg7))) (m ((c : Thread nD τ).loc main_arg8))) (m ((c : Thread nD τ).loc main_arg17)) (m ((c : Thread nD τ).loc main_arg18)) (m ((c : Thread nD τ).loc main_arg19)) (m ((c : Thread nD τ).loc main_arg20)))) (m ((c : Thread nD τ).loc main_arg21)) (m ((c : Thread nD τ).loc main_arg22)) (m ((c : Thread nD τ).loc main_arg23)) (m ((c : Thread nD τ).loc main_arg24)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c =>
    ⟨(h c _ (mem_uc main_v107 (by decide))).trans (Cert.KernelIdeal.Hops.kernel_value m ρ c),
      (h c _ (mem_uc main_arg0 (by decide))).trans (W16_main_arg0 m ρ c),
      (h c _ (mem_uc main_arg1 (by decide))).trans (W16_main_arg1 m ρ c),
      (h c _ (mem_uc main_arg2 (by decide))).trans (W16_main_arg2 m ρ c),
      (h c _ (mem_uc main_arg3 (by decide))).trans (W16_main_arg3 m ρ c),
      (h c _ (mem_uc main_arg4 (by decide))).trans (W16_main_arg4 m ρ c),
      (h c _ (mem_uc main_arg5 (by decide))).trans (W16_main_arg5 m ρ c),
      (h c _ (mem_uc main_arg6 (by decide))).trans (W16_main_arg6 m ρ c),
      (h c _ (mem_uc main_arg7 (by decide))).trans (W16_main_arg7 m ρ c),
      (h c _ (mem_uc main_arg8 (by decide))).trans (W16_main_arg8 m ρ c),
      (h c _ (mem_uc main_arg9 (by decide))).trans (W16_main_arg9 m ρ c),
      (h c _ (mem_uc main_arg10 (by decide))).trans (W16_main_arg10 m ρ c),
      (h c _ (mem_uc main_arg11 (by decide))).trans (W16_main_arg11 m ρ c),
      (h c _ (mem_uc main_arg12 (by decide))).trans (W16_main_arg12 m ρ c),
      (h c _ (mem_uc main_arg13 (by decide))).trans (W16_main_arg13 m ρ c),
      (h c _ (mem_uc main_arg14 (by decide))).trans (W16_main_arg14 m ρ c),
      (h c _ (mem_uc main_arg15 (by decide))).trans (W16_main_arg15 m ρ c),
      (h c _ (mem_uc main_arg16 (by decide))).trans (W16_main_arg16 m ρ c),
      (h c _ (mem_uc main_arg17 (by decide))).trans (W16_main_arg17 m ρ c),
      (h c _ (mem_uc main_arg18 (by decide))).trans (W16_main_arg18 m ρ c),
      (h c _ (mem_uc main_arg19 (by decide))).trans (W16_main_arg19 m ρ c),
      (h c _ (mem_uc main_arg20 (by decide))).trans (W16_main_arg20 m ρ c),
      (h c _ (mem_uc main_arg21 (by decide))).trans (W16_main_arg21 m ρ c),
      (h c _ (mem_uc main_arg22 (by decide))).trans (W16_main_arg22 m ρ c),
      (h c _ (mem_uc main_arg23 (by decide))).trans (W16_main_arg23 m ρ c),
      (h c _ (mem_uc main_arg24 (by decide))).trans (W16_main_arg24 m ρ c)⟩)
    (Cert.KernelIdeal.Whole.run_all (F := Ideal) m ρ)

end KernelRun

/-- At the ideal instance, from memories agreeing on the arguments, both programs end with the same result array:
    the kernel program's by its regions' value lemmas and its host stretches, the reference's by its run and the
    decomposition of its result term into the same stages. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Stages.result_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
